-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S3072x1024 : Shape := ⟨2, ![3072, 1024]⟩
abbrev S1024x3072 : Shape := ⟨2, ![1024, 3072]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S4x2048x3072 : Shape := ⟨3, ![4, 2048, 3072]⟩
abbrev S1x512x1024 : Shape := ⟨3, ![1, 512, 1024]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S3072x1024, .f32⟩
  | .hbm, ⟨5, _⟩ => ⟨S1024x3072, .f32⟩
  | .hbm, ⟨6, _⟩ => ⟨S1024x3072, .bf16⟩
  | .hbm, ⟨7, _⟩ => ⟨S8192x1024, .f32⟩
  | .hbm, ⟨8, _⟩ => ⟨S8192x1024, .bf16⟩
  | .hbm, ⟨9, _⟩ => ⟨S8192x3072, .bf16⟩
  | .hbm, ⟨10, _⟩ => ⟨S4x2048x3072, .bf16⟩
  | .hbm, ⟨11, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S256x3072, .bf16⟩
  | .local _ .vmem, ⟨4, _⟩ => ⟨S256x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  shapeCasts_S4x2048x1024_S8192x1024 : S4x2048x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S4x2048x3072 : S8192x3072.ShapeCasts S4x2048x3072
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S256x1024_S1024x3072_S256x3072_1_0_0_1_n_n_wf : DotDims.WF S256x1024 S1024x3072 S256x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S8192x3072.size a
  hwx0_2 : ∀ i : grid0.Coords, EltTy.bits .bf16 = 32 ∨ (Rect.block (s := S8192x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x3072.size a
  hwx1_1 : ∀ i : grid1.Coords, EltTy.bits .bf16 = 32 ∨ (Rect.block (s := S4x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x3072.size a
  hwx1_2 : ∀ i : grid1.Coords, EltTy.bits .bf16 = 32 ∨ (Rect.block (s := S4x2048x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v4) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Region0.lean ====
/-
  The projection kernel's half of the frame: the first of the program's two kernel regions multiplies a block of 256
  rows of the input (8192 rows of 1024 entries) by the whole 1024 × 3072 matrix of stacked, transposed weights and
  stores the 256 × 3072 product, at each of 32 grid points.  Stated here at a parameter V, the contents of the
  TensorCore's buffers when the region is entered: the block each window holds at a point, what the body leaves in the
  output window's buffer (one store of the product of the two input blocks, covering the buffer), the body's triple,
  the region's proof data and the body obligation at every point.
-/
import proofs.«159224_j12807592476992_2_alg».proof.Proof.Gen.KernelIdeal.Launch
import proofs.«159224_j12807592476992_2_alg».proof.Proof.Gen.KernelIdeal.Skeleton
import proofs.«159224_j12807592476992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S256x3072 := Rect.unit (s := S256x3072) ![0, 0] S256x3072.size inb_S256x3072_S256x3072_0_0

/-- The output window's buffer after the body: its one store, of the product of the two input blocks. -/
def out0_2 (x0 : Vec F S256x1024 .bf16) (x1 : Vec F S1024x3072 .bf16) : Vec F S256x3072 .bf16 :=
  View.canon [⟨r0_2, k0_pay1 (View.ld x0 r0_0) (View.ld x1 r0_1)⟩]

/-- The one store covers the buffer. -/
theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

set_option maxHeartbeats 1000000 in
/-- The body on whole staging memrefs, the inputs' at contents x0 and x1 and the output's at anything, runs to the
    continuation holding the inputs' as they were and the output's at the product. -/
theorem sound_kernel0 (c : Dev nD) (E : Set ℕ) (i : grid0.Coords)
    (arg1 : Memref sig .tc .vmem S256x1024 .bf16) (harg1 : arg1.IsWhole)
    (arg2 : Memref sig .tc .vmem S1024x3072 .bf16) (harg2 : arg2.IsWhole)
    (arg3 : Memref sig .tc .vmem S256x3072 .bf16) (harg3 : arg3.IsWhole)
    (x0 : Vec F S256x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the body obligation -/

/-- Each input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection pipeline on core c: the arrays as the region finds them; after the body at point t
    each input's buffer at its block and the output's at the product of the two blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnConds.lean ====
/-
  The attention kernel's three conditionals, as propositions about a grid point (batch, query block, key block): the
  running state is reset when the key block is the first, a key block is visited when it is not beyond the query
  block, and the result is written when the key block is the query block's own.  Each is decided over the 64 grid
  points in closed form: the point's number t has key block t mod 4 and query block (t / 4) mod 4.
-/
import proofs.«159224_j12807592476992_2_alg».proof.Proof.Gen.KernelIdeal.Launch
import proofs.«159224_j12807592476992_2_alg».proof.Proof.Gen.KernelIdeal.Skeleton
import proofs.«159224_j12807592476992_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key block is the first one. -/
abbrev cond1_0 (i : grid1.Coords) : Prop := (Scalar.cmpi .ne (Scalar.extui (Scalar.cmpi .eq (BitVec.ofNat 32 (i 2).val) 0#32)) 0#32) = 1#1
/-- The key block is not beyond the query block. -/
abbrev cond1_1 (i : grid1.Coords) : Prop := (Scalar.cmpi .ne (Scalar.extui (Scalar.cmpi .sle (BitVec.ofNat 32 (i 2).val) (BitVec.ofNat 32 (i 1).val))) 0#32) = 1#1
/-- The key block is the query block's own. -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)
theorem hcond1_2 : ∀ t : Fin cfg1.N, cond1_2 (grid1.coords t) ↔ t.val % 4 = (t.val / 4) % 4 :=
  (by decide +kernel : ∀ t : Fin grid1.N, cond1_2 (grid1.coords t) ↔ t.val % 4 = (t.val / 4) % 4)

end Cert.KernelIdeal.Hand

end
-- ==== Proof.AttnRunA.lean ====
/-
  The attention kernel's body at a grid point whose key block is the first AND the query block's own (query block 0):
  the running state is reset (maximum -∞, sum 0, weighted sum 0), updated with the block's scores, and the quotient of
  the weighted sum by the sum is stored whole into the output window's buffer.
-/
import proofs.«159224_j12807592476992_2_alg».proof.Proof.AttnConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : cond1_0 i) (hc1 : cond1_1 i) (hc2 : cond1_2 i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, ⟨%ds2, %fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.KernelIdeal.Hand

end
-- ==== Proof.AttnRunB.lean ====
/-
  The attention kernel's body at a grid point whose key block is the first but not the query block's own: the running
  state is reset and then updated with the block's scores; the output window's buffer is not touched.
-/
import proofs.«159224_j12807592476992_2_alg».proof.Proof.AttnConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : cond1_0 i) (hc1 : cond1_1 i) (hc2 : ¬cond1_2 i)
    (x0 x1 x2 : Vec F S1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, ⟨%ds2, %fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.AttnRunC.lean ====
/-
  The attention kernel's body at a grid point whose key block is neither the first nor the query block's own but is
  visited: the running maximum, the running sum and the running weighted sum are each loaded, updated with the
  block's scores and stored back whole; the output window's buffer is not touched.
-/
import proofs.«159224_j12807592476992_2_alg».proof.Proof.AttnConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : cond1_1 i) (hc2 : ¬cond1_2 i)
    (x0 x1 x2 : Vec F S1x512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.AttnRunD.lean ====
/-
  The attention kernel's body at a grid point whose key block is the query block's own but not the first: the running
  state is updated with the block's scores and the quotient of the weighted sum by the sum is stored whole into the
  output window's buffer.
-/
import proofs.«159224_j12807592476992_2_alg».proof.Proof.AttnConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : cond1_1 i) (hc2 : cond1_2 i)
    (x0 x1 x2 : Vec F S1x512x1024 .bf16) (xs0 xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.KernelIdeal.Hand

end
-- ==== Proof.AttnRunE.lean ====
/-
  The attention kernel's body at a grid point whose key block lies beyond the query block: every conditional is
  skipped and no buffer is touched.
-/
import proofs.«159224_j12807592476992_2_alg».proof.Proof.AttnConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : ¬cond1_1 i) (hc2 : ¬cond1_2 i)
    (x0 x1 x2 : Vec F S1x512x1024 .bf16) (xs0 xs1 : Vec F S512x1 .f32) (xs2 : Vec F S512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  ·
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.AttnShares.lean ====
/-
  The attention pipeline reads ONE array through its three input windows (the queries, keys and values are three column
  bands of the projected rows), so the array's full share is dealt among them: a quarter each to the first two windows,
  the remaining half to the third; the output window's array is held whole.
-/
import proofs.«159224_j12807592476992_2_alg».proof.Proof.Gen.KernelIdeal.Launch
import Idealize.ShloMosaic.Lib.Transfers

noncomputable section

namespace Cert.KernelIdeal.Hand

open Cert.KernelIdeal Cert.KernelIdeal.Gen
open Idealize.ShloMosaic Idealize.SL Idealize.SL.RA

/-- How the shared input array's full share is dealt among the three input windows; the output's array whole. -/
def q1 : Fin cfg1.W → PosShare TreeShare
  | ⟨0, _⟩ => Transfers.shareTok fullShare 2 0
  | ⟨1, _⟩ => Transfers.shareTok fullShare 2 1
  | ⟨2, _⟩ => Transfers.shareDrop fullShare 2
  | ⟨3, _⟩ => fullShare

end Cert.KernelIdeal.Hand

end
-- ==== Proof.Region1State.lean ====
/-
  The attention region's state, invariant and proof data, at a parameter V (the contents of the TensorCore's buffers when
  the region is entered).  The kernel keeps three scratch buffers between grid points — the running maximum, the running
  sum and the running weighted sum of one query block — and writes the output window's buffer only at the point whose
  key block is the query block's own, the window being written back after the last key block.  So the state after a
  point is four arrays (output buffer, maximum, sum, weighted sum), defined by recursion on the point's number: the
  body's case at the point, run from the state the point before left.  The invariant before a point holds the three
  scratch buffers at that state; the proof data's "after" of the output window is the state's first component.
-/
import proofs.«159224_j12807592476992_2_alg».proof.Proof.AttnRunA
import proofs.«159224_j12807592476992_2_alg».proof.Proof.AttnRunB
import proofs.«159224_j12807592476992_2_alg».proof.Proof.AttnRunC
import proofs.«159224_j12807592476992_2_alg».proof.Proof.AttnRunD
import proofs.«159224_j12807592476992_2_alg».proof.Proof.AttnRunE
import proofs.«159224_j12807592476992_2_alg».proof.Proof.AttnShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point t, as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The views through which the contents of the output window's buffer and of the scratch buffers are stated. -/
abbrev VO1_3 : View sig .tc .vmem S1x512x1024 .f32 := (Memref.whole cc1_stg3_0 : Memref sig .tc .vmem S1x512x1024 .f32).view
abbrev VS1_0 : View sig .tc .vmem S512x1 .f32 := scM1_0.view
abbrev VS1_1 : View sig .tc .vmem S512x1 .f32 := scM1_1.view
abbrev VS1_2 : View sig .tc .vmem S512x1024 .f32 := scM1_2.view

/-- The four arrays the attention kernel's body reads or leaves besides its input blocks: the output window's buffer,
    the running maximum, the running sum and the running weighted sum. -/
structure St (F : FTy → Type) where
  out : Vec F S1x512x1024 .f32
  m : Vec F S512x1 .f32
  l : Vec F S512x1 .f32
  acc : Vec F S512x1024 .f32

/-- Contents nobody reads: what the buffers hold before the first point. -/
def St.junk : St F := ⟨VO1_3.read (Elt F) VO1_3.junk, VS1_0.read (Elt F) VS1_0.junk, VS1_1.read (Elt F) VS1_1.junk, VS1_2.read (Elt F) VS1_2.junk⟩

/-! ## Each case's stored pieces cover the buffer they are stored into -/

theorem cover1_A_out (c : Dev nD) (t : Fin cfg1.N) (hc0 : cond1_0 (grid1.coords t)) (hc1 : cond1_1 (grid1.coords t)) (hc2 : cond1_2 (grid1.coords t)) (s : St F) (y : S1x512x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1 S1x512x1024.size (by sl_kernel_rfl) y

theorem cover1_A_m (c : Dev nD) (t : Fin cfg1.N) (hc0 : cond1_0 (grid1.coords t)) (hc1 : cond1_1 (grid1.coords t)) (hc2 : cond1_2 (grid1.coords t)) (s : St F) (y : S512x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1 S512x1.size (by sl_kernel_rfl) y

theorem cover1_A_l (c : Dev nD) (t : Fin cfg1.N) (hc0 : cond1_0 (grid1.coords t)) (hc1 : cond1_1 (grid1.coords t)) (hc2 : cond1_2 (grid1.coords t)) (s : St F) (y : S512x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1 S512x1.size (by sl_kernel_rfl) y

theorem cover1_A_acc (c : Dev nD) (t : Fin cfg1.N) (hc0 : cond1_0 (grid1.coords t)) (hc1 : cond1_1 (grid1.coords t)) (hc2 : cond1_2 (grid1.coords t)) (s : St F) (y : S512x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1 S512x1024.size (by sl_kernel_rfl) y

theorem cover1_B_m (c : Dev nD) (t : Fin cfg1.N) (hc0 : cond1_0 (grid1.coords t)) (hc1 : cond1_1 (grid1.coords t)) (hc2 : ¬cond1_2 (grid1.coords t)) (s : St F) (y : S512x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1 S512x1.size (by sl_kernel_rfl) y

theorem cover1_B_l (c : Dev nD) (t : Fin cfg1.N) (hc0 : cond1_0 (grid1.coords t)) (hc1 : cond1_1 (grid1.coords t)) (hc2 : ¬cond1_2 (grid1.coords t)) (s : St F) (y : S512x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1 S512x1.size (by sl_kernel_rfl) y

theorem cover1_B_acc (c : Dev nD) (t : Fin cfg1.N) (hc0 : cond1_0 (grid1.coords t)) (hc1 : cond1_1 (grid1.coords t)) (hc2 : ¬cond1_2 (grid1.coords t)) (s : St F) (y : S512x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1 S512x1024.size (by sl_kernel_rfl) y

theorem cover1_C_m (c : Dev nD) (t : Fin cfg1.N) (hc0 : ¬cond1_0 (grid1.coords t)) (hc1 : cond1_1 (grid1.coords t)) (hc2 : ¬cond1_2 (grid1.coords t)) (s : St F) (y : S512x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1 S512x1.size (by sl_kernel_rfl) y

theorem cover1_C_l (c : Dev nD) (t : Fin cfg1.N) (hc0 : ¬cond1_0 (grid1.coords t)) (hc1 : cond1_1 (grid1.coords t)) (hc2 : ¬cond1_2 (grid1.coords t)) (s : St F) (y : S512x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1 S512x1.size (by sl_kernel_rfl) y

theorem cover1_C_acc (c : Dev nD) (t : Fin cfg1.N) (hc0 : ¬cond1_0 (grid1.coords t)) (hc1 : cond1_1 (grid1.coords t)) (hc2 : ¬cond1_2 (grid1.coords t)) (s : St F) (y : S512x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1 S512x1024.size (by sl_kernel_rfl) y

theorem cover1_D_out (c : Dev nD) (t : Fin cfg1.N) (hc0 : ¬cond1_0 (grid1.coords t)) (hc1 : cond1_1 (grid1.coords t)) (hc2 : cond1_2 (grid1.coords t)) (s : St F) (y : S1x512x1024.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1 S1x512x1024.size (by sl_kernel_rfl) y

theorem cover1_D_m (c : Dev nD) (t : Fin cfg1.N) (hc0 : ¬cond1_0 (grid1.coords t)) (hc1 : cond1_1 (grid1.coords t)) (hc2 : cond1_2 (grid1.coords t)) (s : St F) (y : S512x1.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1 S512x1.size (by sl_kernel_rfl) y

theorem cover1_D_l (c : Dev nD) (t : Fin cfg1.N) (hc0 : ¬cond1_0 (grid1.coords t)) (hc1 : cond1_1 (grid1.coords t)) (hc2 : cond1_2 (grid1.coords t)) (s : St F) (y : S512x1.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1 S512x1.size (by sl_kernel_rfl) y

theorem cover1_D_acc (c : Dev nD) (t : Fin cfg1.N) (hc0 : ¬cond1_0 (grid1.coords t)) (hc1 : cond1_1 (grid1.coords t)) (hc2 : cond1_2 (grid1.coords t)) (s : St F) (y : S512x1024.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1 S512x1024.size (by sl_kernel_rfl) y

/-! ## The state after a point, case by case -/

/-- The state after a grid point of case A, from the state before it: each buffer the case stores into at its stored
    pieces read back, the others as they were. -/
def stepA (c : Dev nD) (t : Fin cfg1.N) (hc0 : cond1_0 (grid1.coords t)) (hc1 : cond1_1 (grid1.coords t)) (hc2 : cond1_2 (grid1.coords t)) (s : St F) : St F :=
  ⟨VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1)⟩

/-- The state after a grid point of case B, from the state before it: each buffer the case stores into at its stored
    pieces read back, the others as they were. -/
def stepB (c : Dev nD) (t : Fin cfg1.N) (hc0 : cond1_0 (grid1.coords t)) (hc1 : cond1_1 (grid1.coords t)) (hc2 : ¬cond1_2 (grid1.coords t)) (s : St F) : St F :=
  ⟨s.out,
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1)⟩

/-- The state after a grid point of case C, from the state before it: each buffer the case stores into at its stored
    pieces read back, the others as they were. -/
def stepC (c : Dev nD) (t : Fin cfg1.N) (hc0 : ¬cond1_0 (grid1.coords t)) (hc1 : cond1_1 (grid1.coords t)) (hc2 : ¬cond1_2 (grid1.coords t)) (s : St F) : St F :=
  ⟨s.out,
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1)⟩

/-- The state after a grid point of case D, from the state before it: each buffer the case stores into at its stored
    pieces read back, the others as they were. -/
def stepD (c : Dev nD) (t : Fin cfg1.N) (hc0 : ¬cond1_0 (grid1.coords t)) (hc1 : cond1_1 (grid1.coords t)) (hc2 : cond1_2 (grid1.coords t)) (s : St F) : St F :=
  ⟨VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1),
   VS1_0.read (Elt F) (VS1_0.writes (Elt F) VS1_0.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1),
   VS1_1.read (Elt F) (VS1_1.writes (Elt F) VS1_1.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1),
   VS1_2.read (Elt F) (VS1_2.writes (Elt F) VS1_2.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1)⟩

/-- The state after point t from the state before it: the case the closed forms of the three conditions select. -/
def stepAt (c : Dev nD) (t : Fin cfg1.N) (s : St F) : St F :=
  if h0 : t.val % 4 = 0 then
    if h2 : t.val % 4 = t.val / 4 % 4 then
      stepA V c t ((hcond1_0 t).mpr h0) ((hcond1_1 t).mpr (by omega)) ((hcond1_2 t).mpr h2) s
    else
      stepB V c t ((hcond1_0 t).mpr h0) ((hcond1_1 t).mpr (by omega)) (fun h => h2 ((hcond1_2 t).mp h)) s
  else if h1 : t.val % 4 ≤ t.val / 4 % 4 then
    if h2 : t.val % 4 = t.val / 4 % 4 then
      stepD V c t (fun h => h0 ((hcond1_0 t).mp h)) ((hcond1_1 t).mpr h1) ((hcond1_2 t).mpr h2) s
    else
      stepC V c t (fun h => h0 ((hcond1_0 t).mp h)) ((hcond1_1 t).mpr h1) (fun h => h2 ((hcond1_2 t).mp h)) s
  else s

/-- The state after the point of number n. -/
def stAt (c : Dev nD) : (n : ℕ) → n < cfg1.N → St F
  | 0, hn => stepAt V c ⟨0, hn⟩ St.junk
  | n + 1, hn => stepAt V c ⟨n + 1, hn⟩ (stAt c n (Nat.lt_of_succ_lt hn))

/-- The state before point t: junk before the first, else what the point before left. -/
def stPrev (c : Dev nD) (t : Fin cfg1.N) : St F :=
  if h : t.val = 0 then St.junk else stAt V c (t.val - 1) (Nat.lt_of_le_of_lt (Nat.sub_le _ _) t.isLt)

theorem stAt_eq (c : Dev nD) (t : Fin cfg1.N) : stAt V c t.val t.isLt = stepAt V c t (stPrev V c t) := by
  obtain ⟨n, hn⟩ := t
  cases n with
  | zero => rfl
  | succ n => unfold stPrev; rw [dif_neg (Nat.succ_ne_zero n)]; rfl

/-! ## The invariant -/

/-- The invariant before the point of number n: before the first, the scoped buffers no window stages at anything and
    the generator register at some state; afterwards the same with the three scratch buffers at what the point before
    left in them. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stAt V c n hn).m ∗ owns (c : Thread nD τ) scM1_1 fullShare (stAt V c n hn).l
      ∗ owns (c : Thread nD τ) scM1_2 fullShare (stAt V c n hn).acc) ∗ (∃ r, prngReg c r))

/-- The launch's invariant with the scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ (∃ d, owns (c : Thread nD τ) scM1_0 fullShare d) ∗ (∃ d, owns (c : Thread nD τ) scM1_1 fullShare d)
      ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stAt V c n hn).m ∗ owns (c : Thread nD τ) scM1_1 fullShare (stAt V c n hn).l
      ∗ owns (c : Thread nD τ) scM1_2 fullShare (stAt V c n hn).acc) ∗ (∃ r, prngReg c r)) := rfl

theorem PhiS_pos (c : Dev nD) (t : Fin cfg1.N) (hz : t.val ≠ 0) :
    PhiS V c t.val (Nat.le_of_lt t.isLt) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stPrev V c t).m ∗ owns (c : Thread nD τ) scM1_1 fullShare (stPrev V c t).l
      ∗ owns (c : Thread nD τ) scM1_2 fullShare (stPrev V c t).acc) ∗ (∃ r, prngReg c r)) := by
  obtain ⟨n, hn⟩ := t
  cases n with
  | zero => exact absurd rfl hz
  | succ n => unfold stPrev; rw [dif_neg (Nat.succ_ne_zero n)]; rfl

/-! ## The proof data -/

/-- The proof data of the attention pipeline on core c: the arrays as the region finds them; after the body at point t
    each input's buffer at its block and the output's at the state's first component; the invariant above; nothing owed;
    the shared input array's share dealt among the three input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).out
  Φ t := PhiS V c t.val (Nat.le_of_lt_succ t.isLt)
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).out := by dsimp only [dat1]

/-- Each input window's current staging buffer holds its block at every point, fetched there or not: unfetched, the
    block index has not moved (the key and value windows keep their block beyond the diagonal). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.KernelIdeal.Hand

end
-- ==== Proof.SharedArrays.lean ====
/-
  The attention pipeline's four windows stand on two arrays only: its three input windows all read the one array of
  projected rows, its output window writes another.  So at the pipeline's entry the TensorCore's unscoped buffers give
  up TWO whole buffers, not four, and the full share of the shared one is dealt among the three input windows (two read
  tokens and the remainder, Hand.q1); at the exit the three parts are joined back into the full share.  Both directions
  are stated at a valuation of the unscoped buffers, beside the unscoped buffers that are no window's array.
-/
import proofs.«159224_j12807592476992_2_alg».proof.Proof.Gen.KernelIdeal.Launch
import proofs.«159224_j12807592476992_2_alg».proof.Proof.AttnShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

/-- The four windows' arrays are two buffers. -/
theorem image_arrRef1 : Finset.univ.image (Pipeline.arrRef spec1) = {main_v6, main_v7} := by decide

/-- The distinct buffers behind the windows' arrays, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v6) ↦{fullShare} V main_v6) ∗ (((c.tc : Thread nD τ).loc main_v7) ↦{fullShare} V main_v7)) := by
  unfold Pipeline.arrBufs
  rw [image_arrRef1, BI.bigSep_insert (by decide), BI.bigSep_singleton]
  rfl

/-- The unscoped buffers are the buffers behind the windows' arrays and the rest. -/
theorem split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) :=
  Pipeline.PerCore.unscopedBufs_split₀ (P := Unit) (fun _ _ => cfg1) () c winFacts₀1.arr_unscoped V

/-- The pipeline's arrays under the dealt shares, window by window: three parts of the shared input array's
    share and the output array whole, each a whole buffer at the valuation's contents. -/
theorem arrays1_eq (c : Dev nD) (dat : Dat τ (Elt F) Unit ℕ (UR sig nD τ) ℕ cfg1 c) (hq : dat.q = q1)
    (V : (b : Ref sig .tc) → Buf (Elt F) ((c.tc : Thread nD τ).loc b))
    (G : (w : Fin cfg1.W) → Buf (Elt F) ((cfg1.win w).arr.view.loc (c.tc : Thread nD τ)))
    (hG : ∀ w, G w = V (Pipeline.arrRef spec1 w)) :
    (dat.arrays G : sProp 𝕄)
      = iprop((((c.tc : Thread nD τ).loc main_v6) ↦{Transfers.shareTok fullShare 2 0} V main_v6)
          ∗ (((c.tc : Thread nD τ).loc main_v6) ↦{Transfers.shareTok fullShare 2 1} V main_v6)
          ∗ (((c.tc : Thread nD τ).loc main_v6) ↦{Transfers.shareDrop fullShare 2} V main_v6)
          ∗ (((c.tc : Thread nD τ).loc main_v7) ↦{fullShare} V main_v7)) := by
  unfold Dat.arrays
  rw [bigSep_W1]
  have h0 : dat.share 0 = Transfers.shareTok fullShare 2 0 := by
    unfold Dat.share; rw [hq]; rfl
  have h1 : dat.share 1 = Transfers.shareTok fullShare 2 1 := by
    unfold Dat.share; rw [hq]; rfl
  have h2 : dat.share 2 = Transfers.shareDrop fullShare 2 := by
    unfold Dat.share; rw [hq]; rfl
  have h3 : dat.share 3 = fullShare := by
    unfold Dat.share; rfl
  rw [h0, h1, h2, h3, hG 0, hG 1, hG 2, hG 3, (arr_whole1 0).set_eq_univ, (arr_whole1 3).set_eq_univ]

/-- A conjunction over two indices, written out. -/
theorem bigSep_Fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The shared input array's full share dealt into two read tokens and the remainder; -/
theorem deal6_split (c : Dev nD) (f : Buf (Elt F) ((c.tc : Thread nD τ).loc main_v6)) :
    ((((c.tc : Thread nD τ).loc main_v6) ↦{fullShare} f) : sProp 𝕄)
      ⊢ iprop((((c.tc : Thread nD τ).loc main_v6) ↦{Transfers.shareTok fullShare 2 0} f)
          ∗ (((c.tc : Thread nD τ).loc main_v6) ↦{Transfers.shareTok fullShare 2 1} f)
          ∗ (((c.tc : Thread nD τ).loc main_v6) ↦{Transfers.shareDrop fullShare 2} f)) := by
  have hd := Transfers.pointsTo_toks_split (ℓ := (c.tc : Thread nD τ).loc main_v6) (S := Finset.univ) (f := f)
    (Ix := Unit) (Name := ℕ) (U := UR sig nD τ) (Lvl := ℕ) fullShare 2
  rw [bigSep_Fin2] at hd
  refine hd.trans ?_
  iintro ⟨Hd, Ht0, Ht1⟩
  isplitl [Ht0]; · iexact Ht0
  isplitl [Ht1]; · iexact Ht1
  iexact Hd

/-- and joined back. -/
theorem deal6_join (c : Dev nD) (f : Buf (Elt F) ((c.tc : Thread nD τ).loc main_v6)) :
    iprop((((c.tc : Thread nD τ).loc main_v6) ↦{Transfers.shareTok fullShare 2 0} f)
          ∗ (((c.tc : Thread nD τ).loc main_v6) ↦{Transfers.shareTok fullShare 2 1} f)
          ∗ (((c.tc : Thread nD τ).loc main_v6) ↦{Transfers.shareDrop fullShare 2} f))
      ⊢ ((((c.tc : Thread nD τ).loc main_v6) ↦{fullShare} f) : sProp 𝕄) := by
  have hd := Transfers.pointsTo_toks_join (ℓ := (c.tc : Thread nD τ).loc main_v6) (S := Finset.univ) (f := f)
    (Ix := Unit) (Name := ℕ) (U := UR sig nD τ) (Lvl := ℕ) fullShare 2
  rw [bigSep_Fin2] at hd
  refine BIBase.Entails.trans ?_ hd
  iintro ⟨Ht0, Ht1, Hd⟩
  isplitl [Hd]; · iexact Hd
  isplitl [Ht0]; · iexact Ht0
  iexact Ht1

/-- ENTRY: a core's unscoped buffers at contents V are the attention pipeline's arrays at contents read off V,
    the shared input array's share dealt among its three windows, and the unscoped rest. -/
theorem arrays1_of_unscopedBufs (c : Dev nD) (dat : Dat τ (Elt F) Unit ℕ (UR sig nD τ) ℕ cfg1 c) (hq : dat.q = q1)
    (V : (b : Ref sig .tc) → Buf (Elt F) ((c.tc : Thread nD τ).loc b))
    (G : (w : Fin cfg1.W) → Buf (Elt F) ((cfg1.win w).arr.view.loc (c.tc : Thread nD τ)))
    (hG : ∀ w, G w = V (Pipeline.arrRef spec1 w)) :
    (unscopedBufs c V : sProp 𝕄) ⊢ iprop(dat.arrays G ∗ Pipeline.unscopedRest spec1 c V) := by
  rw [split1 c V, arrBufs1_eq c V, arrays1_eq c dat hq V G hG]
  iintro ⟨⟨H6, H7⟩, Hrest⟩
  have hs := deal6_split c (V main_v6)
  ihave H := hs $$ H6
  icases H with ⟨Ht0, Ht1, Hd⟩
  isplitr [Hrest]
  · isplitl [Ht0]; · iexact Ht0
    isplitl [Ht1]; · iexact Ht1
    isplitl [Hd]; · iexact Hd
    iexact H7
  iexact Hrest

/-- EXIT: the attention pipeline's arrays at contents G, the dealt shares joined back, and the unscoped rest at V
    are the core's unscoped buffers at any valuation that has the arrays at G and agrees with V off them. -/
theorem unscopedBufs_of_arrays1 (c : Dev nD) (dat : Dat τ (Elt F) Unit ℕ (UR sig nD τ) ℕ cfg1 c) (hq : dat.q = q1)
    (V V' : (b : Ref sig .tc) → Buf (Elt F) ((c.tc : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [split1 c V', arrBufs1_eq c V', arrays1_eq c dat hq V' G hG, hR]
  iintro ⟨⟨Ht0, Ht1, Hd, H7⟩, Hrest⟩
  isplitr [Hrest]
  · isplitr [H7]
    · iapply (deal6_join c (V' main_v6))
      isplitl [Ht0]; · iexact Ht0
      isplitl [Ht1]; · iexact Ht1
      iexact Hd
    iexact H7
  iexact Hrest

end Cert.KernelIdeal.Hand
end
-- ==== Proof.Run.lean ====
/-
  The run of the main function as four segments: a stretch of host operations (the weights concatenated, transposed and
  rounded; the input reshaped and rounded), the projection kernel's region, a second stretch (one reshape), and the
  attention kernel's region.  Between two segments the TensorCore holds every unscoped buffer at a known valuation:
  W0 at the launch, W1 after the first stretch, W2 after the projection region (its output array at the fold of the
  write-backs of all 32 points), W3 after the reshape, W4 after the attention region (its output array at the fold of
  the write-backs of all 64 points; the one array its three input windows read is never written).  Each region takes
  its windows' arrays out of the unscoped buffers at its entry and puts them back at its exit; for the attention region
  the shared input array's share is dealt among the three input windows and joined back (SharedArrays).  The result:
  given the attention body's obligation, every fair execution from a memory with zero counters terminates and the final
  memory holds W4 at every unscoped buffer; the four arguments are read back to the launch memory and the result array
  to the attention pipeline's last write-back fold.
-/
import proofs.«159224_j12807592476992_2_alg».proof.Proof.Region0
import proofs.«159224_j12807592476992_2_alg».proof.Proof.Region1State
import proofs.«159224_j12807592476992_2_alg».proof.Proof.SharedArrays
import proofs.«159224_j12807592476992_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The buffers' contents at each boundary between two segments of the main function -/

/-- Core c's buffers when the program is launched. -/
abbrev W0 : Dev nD → Valuation τ sig (Elt F) := fun c b => (s₀ m ρ).mem ((c : Dev nD), b)
/-- After the first stretch of host operations: what the projection region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the projection region: each of its arrays at what the pipeline leaves there (an input as entered, the output
    with every block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the projection region's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at the entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. Its three input windows read one array, which no point writes; so the only buffer the
    region changes is its output window's array, left at the fold of the write-backs of all points. -/
def W4 (c : Dev nD) : Valuation τ sig (Elt F) :=
  Function.update (W3 m ρ c) (Proc.devRef .tc main_v7) ((dat1 (V3 m ρ) c).arrAt 3 cfg1.N)
abbrev V4 : (c : Dev nD) → (b : Ref sig .tc) → Buf (Elt F) ((c : Thread nD τ).loc b) := fun c b => W4 m ρ c b

theorem W4_main_v7 (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _

/-- At the attention region's exit each window's array holds what the pipeline leaves: an input window's array is
    never written and is not the output's, the output window's is the updated one. -/
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v6 (by decide)).symm
  | ⟨1, _⟩ => (((dat1 (V3 m ρ) c).arrAt_in 1 rfl _).trans (A_eq1 (V3 m ρ) c 1)).trans (W4_of_ne m ρ c main_v6 (by decide)).symm
  | ⟨2, _⟩ => (((dat1 (V3 m ρ) c).arrAt_in 2 rfl _).trans (A_eq1 (V3 m ρ) c 2)).trans (W4_of_ne m ρ c main_v6 (by decide)).symm
  | ⟨3, _⟩ => (W4_main_v7 m ρ c).symm
/-- Every buffer that is no window's array holds what it held at the entry. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The arguments end as launched: no host operation writes one and no region has one among its arrays -/

theorem W4_of_arg (c : Dev nD) (b : Ref sig .tc) (h7 : b ≠ main_v7) (h1 : b ∉ hostOps1_W) (h0 : ∀ w, Pipeline.arrRef spec0 w ≠ b)
    (hh : b ∉ hostOps0_W) : W4 m ρ c (Proc.devRef .tc b) = m ((c : Thread nD τ).loc b) :=
  calc W4 m ρ c (Proc.devRef .tc b)
    _ = W3 m ρ c (Proc.devRef .tc b) := W4_of_ne m ρ c b h7
    _ = W2 m ρ c (Proc.devRef .tc b) := StableHlo.after_of_writes_sub hostOps1 _ hostOps1_writes h1
    _ = W1 m ρ c (Proc.devRef .tc b) := W2_of_ne m ρ c b h0
    _ = W0 m ρ c (Proc.devRef .tc b) := StableHlo.after_of_writes_sub hostOps0 _ hostOps0_writes hh
    _ = m ((c : Thread nD τ).loc b) := rfl

theorem W4_main_arg0 (c : Dev nD) : W4 m ρ c (Proc.devRef .tc main_arg0) = m ((c : Thread nD τ).loc main_arg0) :=
  W4_of_arg m ρ c main_arg0 (by decide) (by decide) (by decide) (by decide)
theorem W4_main_arg1 (c : Dev nD) : W4 m ρ c (Proc.devRef .tc main_arg1) = m ((c : Thread nD τ).loc main_arg1) :=
  W4_of_arg m ρ c main_arg1 (by decide) (by decide) (by decide) (by decide)
theorem W4_main_arg2 (c : Dev nD) : W4 m ρ c (Proc.devRef .tc main_arg2) = m ((c : Thread nD τ).loc main_arg2) :=
  W4_of_arg m ρ c main_arg2 (by decide) (by decide) (by decide) (by decide)
theorem W4_main_arg3 (c : Dev nD) : W4 m ρ c (Proc.devRef .tc main_arg3) = m ((c : Thread nD τ).loc main_arg3) :=
  W4_of_arg m ρ c main_arg3 (by decide) (by decide) (by decide) (by decide)

/-! # The proof data of the two pipelines and the thread state between segments -/

/-- No pipeline has a prefetched table: the admissible contents are trivial. -/
abbrev adm : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- What every segment carries beside the buffers: the generator register at some state, and that the core owes nothing. -/
abbrev R (c : Dev nD) : sProp 𝕄 := iprop((∃ r, prngReg c r) ∗ ∃ W, owes (c : Thread nD τ) (0 : CellTallies nD τ sig Unit) W)
/-- A stretch of host operations as a segment, run over every unscoped buffer from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the generator register at some state. -/
abbrev Tₙ (c : Dev nD) : sProp 𝕄 := iprop(StableHlo.held (c : Thread nD τ) (Pipeline.ucRefs τ sig) (W4 m ρ c) ∗ ∃ r, prngReg c r)

section Inv
variable (V : (c : Dev nD) → (b : Ref sig .tc) → Buf (Elt F) ((c : Thread nD τ).loc b))

/-- After any point the attention pipeline's invariant gives back what the launch handed it: the contents the three
    scratch buffers were left at are forgotten. -/
theorem PhiS_out (c : Dev nD) : ∀ (n : ℕ) (h : n ≤ cfg1.N), n ≠ 0 → PhiS V c n h ⊢ (Pipeline.ΦA spec1 c : sProp 𝕄)
  | 0, _, hz => absurd rfl hz
  | n + 1, hn, _ => by
    rw [PhiS_succ V c n hn, PhiA1_eq]
    iintro ⟨⟨H0, H1, H2, H3, H4, HS0, HS1, HS2⟩, Hg⟩
    isplitr [Hg]
    · isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iexists _; iexact HS2
    iexact Hg

/-- In particular after the last. -/
theorem Phi_last1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact PhiS_out V c _ _ (by rw [Fin.val_last]; have : cfg1.N = 64 := N_1; omega)

/-- Before the first point the invariant is what the launch hands the region. -/
theorem Phi_first1 (c : Dev nD) : (Pipeline.ΦA spec1 c : sProp 𝕄) ⊢ (dat1 V c).Φ 0 := by
  rw [show (dat1 V c).Φ 0 = PhiS V c 0 (Nat.zero_le _) from rfl, PhiS_zero V c 0 _ rfl]
end Inv

/-! # The two regions as segments -/

set_option backward.isDefEq.respectTransparency.types false in
/-- The projection region over the thread state: entered from every unscoped buffer at W1, left at W2. Its three arrays
    are taken out of the unscoped buffers at the entry and put back, at what the pipeline leaves, at the exit; the
    generator register goes into the pipeline's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Attn
-- The attention body's obligation at every point, on every core, at any entry contents: a hypothesis of what follows.
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The attention region over the thread state: entered from every unscoped buffer at W3, left at W4 (what the launch
    reads at the end). Its windows stand on two buffers: at the entry the shared input array's share is dealt among the
    three input windows, at the exit the parts are joined back. The invariant starts as the scoped rest and the
    generator register, and after the last point gives them back, the scratch buffers' contents forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs c (pdats m ρ 1 c) (q_eq1 (V3 m ρ) c) (V3 m ρ c)
      ((pdats m ρ 1 c).arrAt · 0) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_first1 (V3 m ρ) c)
    unfold Pipeline.ΦA
    iintro ⟨Hp, -, Hr⟩
    isplitl [Hr]; · iexact Hr
    iexact Hp
  hout c := by
    rw [Pipeline.ownSems0_none]
    refine BIBase.Entails.trans (Phi_last1 (V3 m ρ) c) ?_
    unfold Pipeline.ΦA
    iintro ⟨Hr, Hp⟩
    isplitl [Hp]; · iexact Hp
    isplitr; · iempintro
    iexact Hr
  hexit c := by
    have hjoin := unscopedBufs_of_arrays1 c (pdats m ρ 1 c) (q_eq1 (V3 m ρ) c) (V3 m ρ c) (V4 m ρ c)
      ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The main function as four segments, and the launch -/

/-- The main function's four segments in order: each stretch of host operations from the contents at its boundary, each
    kernel call as its region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hb1) ]
/-- The main function is the run of these segments. -/
theorem main_run (c : Dev nD) : main (F := F) c = Pipeline.Seg.run (segs m ρ hb1) := (main_chain c).trans (by chain_rfl)

include hb1 in
set_option backward.isDefEq.respectTransparency.types false in
/-- The launch over the four segments, the last thread state read against the final memory (the attention body's
    obligation being the hypothesis of this section). -/
theorem run_segs : θ_run defs (onTc (τ := τ) (main (F := F))) ⟨m, fun _ => 0, ρ⟩
      (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Attn

/-- THE RUN, GIVEN the attention body's obligation at every point (hb1). From any memory with every counter at zero,
    every weakly fair execution of the main function on the TensorCores terminates without a fault, and in every final
    state each unscoped buffer holds the contents W4 gives it. -/
theorem run (hb1 : ∀ (V : (c : Dev nD) → (b : Ref sig .tc) → Buf (Elt F) ((c : Thread nD τ).loc b)) (c : Dev nD),
      BodyObligation (dat1 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 m ρ c b) :=
  run_segs m ρ hb1

end Cert.KernelIdeal.Hand

end
-- ==== Proof.Region1Body.lean ====
/-
  The attention region's body obligation: at every grid point, from the invariant (the three scratch buffers at the
  state the point before left) and the four windows' current buffers (each input at its block; the output at what it
  holds), the body runs to the invariant at the next point and the buffers at what the proof data says.  Five cases by
  the closed forms of the three conditions.  The output window's buffer is stored only at the point whose key block
  is the query block's own; at the earlier points of the group it is handed back untouched, and at the later ones it
  still holds that store — which is what the write-back after the group's last point moves.
-/
import proofs.«159224_j12807592476992_2_alg».proof.Proof.Region1State

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Where the windows are idle, and when the output is written back -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- The output window is live exactly where the body stores into it. -/
theorem live1_3 : ∀ t : Fin cfg1.N, cond1_2 (grid1.coords t) → cfg1.idle 3 (grid1.coords t) = false := by decide +kernel
theorem idle1_3 : ∀ t : Fin cfg1.N, ¬cond1_2 (grid1.coords t) → cfg1.idle 3 (grid1.coords t) = true := by decide +kernel
/-- It is written back after the last key block of a group only. -/
theorem noflush1_3 (t : Fin cfg1.N) (h : t.val % 4 ≠ 3) : (cfg1.win 3).flush t = false := by
  rcases hb : (cfg1.win 3).flush t with _ | _
  · rfl
  · exact absurd ((flush1_3 t).mp hb) h

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]

/-! ## What the output window's buffer holds beyond the diagonal -/

/-- The point before t. -/
def pred1 (t : Fin cfg1.N) : Fin cfg1.N := ⟨t.val - 1, Nat.lt_of_le_of_lt (Nat.sub_le _ _) t.isLt⟩

theorem stPrev_pos (c : Dev nD) (t : Fin cfg1.N) (ht : t.val ≠ 0) : stPrev V c t = stAt V c (pred1 t).val (pred1 t).isLt := by
  unfold stPrev; rw [dif_neg ht]; rfl

/-- Beyond the diagonal nothing is stored: the state is the one the point before left. -/
theorem stAt_E (c : Dev nD) (t : Fin cfg1.N) (h1 : ¬ t.val % 4 ≤ t.val / 4 % 4) : stAt V c t.val t.isLt = stPrev V c t := by
  rw [stAt_eq]; unfold stepAt
  rw [dif_neg (fun h0 => h1 (by omega)), dif_neg h1]

theorem before1_3_pos (c : Dev nD) (t : Fin cfg1.N) (ht : t.val ≠ 0) (hfl : (cfg1.win 3).flush (pred1 t) = false) (d) :
    (dat1 V c).before 3 t d = (dat1 V c).left 3 (pred1 t) d := by
  have h := (dat1 V c).before_of_pos 3 t ht ((cfg1.win 3).fetch_out rfl t) d
  rw [show (cfg1.win 3).flush ⟨t.val - 1, Nat.lt_of_le_of_lt (Nat.sub_le _ _) t.isLt⟩ = (cfg1.win 3).flush (pred1 t) from rfl, hfl,
    if_neg Bool.false_ne_true] at h
  exact h

/-- An uncut window's buffer kept from a live point holds all of what the body left there. -/
theorem kept1_3 (c : Dev nD) (t : Fin cfg1.N) (d) : (dat1 V c).kept 3 t d = (dat1 V c).after 3 t := by
  unfold Dat.kept
  rw [Pipeline.fill_of_clip_none 3 (cfg1.grid.coords t) (fun _ => rfl) d ((dat1 V c).after 3 t), Pipeline.Window.fill_cut]

/-- At a point beyond the diagonal the output window's buffer holds the state's first component, whatever it held
    before the group's store: by induction on the point's number, back to the point on the diagonal. -/
theorem before1_3_E (c : Dev nD) : ∀ (n : ℕ) (t : Fin cfg1.N), t.val = n → ¬ t.val % 4 ≤ t.val / 4 % 4 →
    ∀ d, (dat1 V c).before 3 t d = (stAt V c t.val t.isLt).out := by
  intro n
  induction n using Nat.strong_induction_on with
  | _ n ih =>
    intro t hn h1 d
    have hN : t.val < 64 := lt_of_lt_of_eq t.isLt (show cfg1.N = 64 from N_1)
    have ht : t.val ≠ 0 := by omega
    have hpv : (pred1 t).val = t.val - 1 := rfl
    rw [before1_3_pos V c t ht (noflush1_3 (pred1 t) (by rw [hpv]; omega)) d, stAt_E V c t h1, stPrev_pos V c t ht]
    unfold Dat.left
    by_cases h2' : (pred1 t).val % 4 = (pred1 t).val / 4 % 4
    · rw [live1_3 (pred1 t) ((hcond1_2 (pred1 t)).mpr h2')]
      show (dat1 V c).kept 3 (pred1 t) d = _
      rw [kept1_3, after1_3]
    · rw [idle1_3 (pred1 t) (fun h => h2' ((hcond1_2 (pred1 t)).mp h))]
      exact ih (t.val - 1) (by omega) (pred1 t) rfl (by rw [hpv] at h2' ⊢; omega) d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 4 = 0
  · by_cases h2 : t.val % 4 = t.val / 4 % 4
    · -- the first key block, on the diagonal: reset, visit, write
      have hc0 : cond1_0 (grid1.coords t) := (hcond1_0 t).mpr h0
      have hc1 : cond1_1 (grid1.coords t) := (hcond1_1 t).mpr (by omega)
      have hc2 : cond1_2 (grid1.coords t) := (hcond1_2 t).mpr h2
      rw [show (dat1 V c).leavesExact 3 t = owns (c : Thread nD τ) (ms1_3 t) fullShare ((dat1 V c).after 3 t) from by
        unfold Dat.leavesExact; rw [live1_3 t hc2], after1_3]
      rw [stAt_eq V c t]; unfold stepAt; rw [dif_pos h0, dif_pos h2]; unfold stepA; dsimp only
      by_cases hz : t.val = 0
      · rw [PhiS_castSucc V c t, PhiS_zero V c _ _ hz, PhiA1_eq]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_A_m V c t hc0 hc1 hc2 (stPrev V c t))
            isplitl [HS1]
            · unfold owns; iexists _; isplitr
              swap; · iexact HS1
              ipureintro; exact View.read_writes_of_cover _ _ _ _ _ (cover1_A_l V c t hc0 hc1 hc2 (stPrev V c t))
            unfold owns; iexists _; isplitr
            swap; · iexact HS2
            ipureintro; exact View.read_writes_of_cover _ _ _ _ _ (cover1_A_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_A_out V c t hc0 hc1 hc2 (stPrev V c t))
      · rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_A_m V c t hc0 hc1 hc2 (stPrev V c t))
            isplitl [HS1]
            · unfold owns; iexists _; isplitr
              swap; · iexact HS1
              ipureintro; exact View.read_writes_of_cover _ _ _ _ _ (cover1_A_l V c t hc0 hc1 hc2 (stPrev V c t))
            unfold owns; iexists _; isplitr
            swap; · iexact HS2
            ipureintro; exact View.read_writes_of_cover _ _ _ _ _ (cover1_A_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_A_out V c t hc0 hc1 hc2 (stPrev V c t))
    · -- the first key block, below the diagonal: reset, visit
      have hc0 : cond1_0 (grid1.coords t) := (hcond1_0 t).mpr h0
      have hc1 : cond1_1 (grid1.coords t) := (hcond1_1 t).mpr (by omega)
      have hc2 : ¬cond1_2 (grid1.coords t) := fun h => h2 ((hcond1_2 t).mp h)
      rw [Dat.leavesExact_idle (dat1 V c) 3 t (idle1_3 t hc2) (noflush1_3 t (by omega))]
      rw [stAt_eq V c t]; unfold stepAt; rw [dif_pos h0, dif_neg h2]; unfold stepB; dsimp only
      by_cases hz : t.val = 0
      · exfalso; rw [hz] at h2; exact h2 rfl
      · rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_B_m V c t hc0 hc1 hc2 (stPrev V c t))
            isplitl [HS1]
            · unfold owns; iexists _; isplitr
              swap; · iexact HS1
              ipureintro; exact View.read_writes_of_cover _ _ _ _ _ (cover1_B_l V c t hc0 hc1 hc2 (stPrev V c t))
            unfold owns; iexists _; isplitr
            swap; · iexact HS2
            ipureintro; exact View.read_writes_of_cover _ _ _ _ _ (cover1_B_acc V c t hc0 hc1 hc2 (stPrev V c t))
          · iexact Hg
        isplitl [Ho]; · iexact Ho
        isplitl [H0]; · iexact H0
        isplitl [H1]; · iexact H1
        isplitl [H2]; · iexact H2
        iexists d3; iexact H3
  · by_cases h1 : t.val % 4 ≤ t.val / 4 % 4
    · have hz : t.val ≠ 0 := fun hz => h0 (by rw [hz])
      by_cases h2 : t.val % 4 = t.val / 4 % 4
      · -- a later key block, on the diagonal: visit, write
        have hc0 : ¬cond1_0 (grid1.coords t) := fun h => h0 ((hcond1_0 t).mp h)
        have hc1 : cond1_1 (grid1.coords t) := (hcond1_1 t).mpr h1
        have hc2 : cond1_2 (grid1.coords t) := (hcond1_2 t).mpr h2
        rw [show (dat1 V c).leavesExact 3 t = owns (c : Thread nD τ) (ms1_3 t) fullShare ((dat1 V c).after 3 t) from by
          unfold Dat.leavesExact; rw [live1_3 t hc2], after1_3]
        rw [stAt_eq V c t]; unfold stepAt; rw [dif_neg h0, dif_pos h1, dif_pos h2]; unfold stepD; dsimp only
        rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_D_m V c t hc0 hc1 hc2 (stPrev V c t))
            isplitl [HS1]
            · unfold owns; iexists _; isplitr
              swap; · iexact HS1
              ipureintro; exact View.read_writes_of_cover _ _ _ _ _ (cover1_D_l V c t hc0 hc1 hc2 (stPrev V c t))
            unfold owns; iexists _; isplitr
            swap; · iexact HS2
            ipureintro; exact View.read_writes_of_cover _ _ _ _ _ (cover1_D_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_out V c t hc0 hc1 hc2 (stPrev V c t))
      · -- a later key block, below the diagonal: visit
        have hc0 : ¬cond1_0 (grid1.coords t) := fun h => h0 ((hcond1_0 t).mp h)
        have hc1 : cond1_1 (grid1.coords t) := (hcond1_1 t).mpr h1
        have hc2 : ¬cond1_2 (grid1.coords t) := fun h => h2 ((hcond1_2 t).mp h)
        rw [Dat.leavesExact_idle (dat1 V c) 3 t (idle1_3 t hc2) (noflush1_3 t (by omega))]
        rw [stAt_eq V c t]; unfold stepAt; rw [dif_neg h0, dif_pos h1, dif_neg h2]; unfold stepC; dsimp only
        rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_C_m V c t hc0 hc1 hc2 (stPrev V c t))
            isplitl [HS1]
            · unfold owns; iexists _; isplitr
              swap; · iexact HS1
              ipureintro; exact View.read_writes_of_cover _ _ _ _ _ (cover1_C_l V c t hc0 hc1 hc2 (stPrev V c t))
            unfold owns; iexists _; isplitr
            swap; · iexact HS2
            ipureintro; exact View.read_writes_of_cover _ _ _ _ _ (cover1_C_acc V c t hc0 hc1 hc2 (stPrev V c t))
          · iexact Hg
        isplitl [Ho]; · iexact Ho
        isplitl [H0]; · iexact H0
        isplitl [H1]; · iexact H1
        isplitl [H2]; · iexact H2
        iexists d3; iexact H3
    · -- beyond the diagonal: nothing
      have hz : t.val ≠ 0 := fun hz => h0 (by rw [hz])
      have hc0 : ¬cond1_0 (grid1.coords t) := fun h => h0 ((hcond1_0 t).mp h)
      have hc1 : ¬cond1_1 (grid1.coords t) := fun h => h1 ((hcond1_1 t).mp h)
      have hc2 : ¬cond1_2 (grid1.coords t) := fun h => h1 (le_of_eq ((hcond1_2 t).mp h))
      simp only [before1_3_E V c t.val t rfl h1]
      by_cases hf3 : t.val % 4 = 3
      · -- the group's last point: the buffer, still holding the diagonal point's store, is written back
        rw [show (dat1 V c).leavesExact 3 t = owns (c : Thread nD τ) (ms1_3 t) fullShare ((stAt V c t.val t.isLt).out) from by
          unfold Dat.leavesExact; rw [idle1_3 t hc2, (flush1_3 t).mpr hf3, after1_3]]
        rw [stAt_E V c t h1, PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc (stPrev V c t).out Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexact H3
      · rw [Dat.leavesExact_idle (dat1 V c) 3 t (idle1_3 t hc2) (noflush1_3 t hf3)]
        simp only [before1_3_E V c t.val t rfl h1]
        rw [stAt_E V c t h1, PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc (stPrev V c t).out Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Bits.Region0.lean ====
/-
  The projection kernel's half of the frame: the first of the program's two kernel regions multiplies a block of 256
  rows of the input (8192 rows of 1024 entries) by the whole 1024 × 3072 matrix of stacked, transposed weights and
  stores the 256 × 3072 product, at each of 32 grid points.  Stated here at a parameter V, the contents of the
  TensorCore's buffers when the region is entered: the block each window holds at a point, what the body leaves in the
  output window's buffer (one store of the product of the two input blocks, covering the buffer), the body's triple,
  the region's proof data and the body obligation at every point.
-/
import proofs.«159224_j12807592476992_2_alg».proof.Proof.Gen.Kernel.Launch
import proofs.«159224_j12807592476992_2_alg».proof.Proof.Gen.Kernel.Skeleton
import proofs.«159224_j12807592476992_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S256x3072 := Rect.unit (s := S256x3072) ![0, 0] S256x3072.size inb_S256x3072_S256x3072_0_0

/-- The output window's buffer after the body: its one store, of the product of the two input blocks. -/
def out0_2 (x0 : Vec F S256x1024 .bf16) (x1 : Vec F S1024x3072 .bf16) : Vec F S256x3072 .bf16 :=
  View.canon [⟨r0_2, k0_pay1 (View.ld x0 r0_0) (View.ld x1 r0_1)⟩]

/-- The one store covers the buffer. -/
theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

set_option maxHeartbeats 1000000 in
/-- The body on whole staging memrefs, the inputs' at contents x0 and x1 and the output's at anything, runs to the
    continuation holding the inputs' as they were and the output's at the product. -/
theorem sound_kernel0 (c : Dev nD) (E : Set ℕ) (i : grid0.Coords)
    (arg1 : Memref sig .tc .vmem S256x1024 .bf16) (harg1 : arg1.IsWhole)
    (arg2 : Memref sig .tc .vmem S1024x3072 .bf16) (harg2 : arg2.IsWhole)
    (arg3 : Memref sig .tc .vmem S256x3072 .bf16) (harg3 : arg3.IsWhole)
    (x0 : Vec F S256x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the body obligation -/

/-- Each input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection pipeline on core c: the arrays as the region finds them; after the body at point t
    each input's buffer at its block and the output's at the product of the two blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AttnConds.lean ====
/-
  The attention kernel's three conditionals, as propositions about a grid point (batch, query block, key block): the
  running state is reset when the key block is the first, a key block is visited when it is not beyond the query
  block, and the result is written when the key block is the query block's own.  Each is decided over the 64 grid
  points in closed form: the point's number t has key block t mod 4 and query block (t / 4) mod 4.
-/
import proofs.«159224_j12807592476992_2_alg».proof.Proof.Gen.Kernel.Launch
import proofs.«159224_j12807592476992_2_alg».proof.Proof.Gen.Kernel.Skeleton
import proofs.«159224_j12807592476992_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The key block is the first one. -/
abbrev cond1_0 (i : grid1.Coords) : Prop := (Scalar.cmpi .ne (Scalar.extui (Scalar.cmpi .eq (BitVec.ofNat 32 (i 2).val) 0#32)) 0#32) = 1#1
/-- The key block is not beyond the query block. -/
abbrev cond1_1 (i : grid1.Coords) : Prop := (Scalar.cmpi .ne (Scalar.extui (Scalar.cmpi .sle (BitVec.ofNat 32 (i 2).val) (BitVec.ofNat 32 (i 1).val))) 0#32) = 1#1
/-- The key block is the query block's own. -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)
theorem hcond1_2 : ∀ t : Fin cfg1.N, cond1_2 (grid1.coords t) ↔ t.val % 4 = (t.val / 4) % 4 :=
  (by decide +kernel : ∀ t : Fin grid1.N, cond1_2 (grid1.coords t) ↔ t.val % 4 = (t.val / 4) % 4)

end Cert.Kernel.Hand

end
-- ==== Proof.Bits.AttnRunA.lean ====
/-
  The attention kernel's body at a grid point whose key block is the first AND the query block's own (query block 0):
  the running state is reset (maximum -∞, sum 0, weighted sum 0), updated with the block's scores, and the quotient of
  the weighted sum by the sum is stored whole into the output window's buffer.
-/
import proofs.«159224_j12807592476992_2_alg».proof.Proof.Bits.AttnConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : cond1_0 i) (hc1 : cond1_1 i) (hc2 : cond1_2 i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, ⟨%ds2, %fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.Kernel.Hand

end
-- ==== Proof.Bits.AttnRunB.lean ====
/-
  The attention kernel's body at a grid point whose key block is the first but not the query block's own: the running
  state is reset and then updated with the block's scores; the output window's buffer is not touched.
-/
import proofs.«159224_j12807592476992_2_alg».proof.Proof.Bits.AttnConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : cond1_0 i) (hc1 : cond1_1 i) (hc2 : ¬cond1_2 i)
    (x0 x1 x2 : Vec F S1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, %hfs0, HS0⟩, ⟨%ds1, %fs1, %hfs1, HS1⟩, ⟨%ds2, %fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.Bits.AttnRunC.lean ====
/-
  The attention kernel's body at a grid point whose key block is neither the first nor the query block's own but is
  visited: the running maximum, the running sum and the running weighted sum are each loaded, updated with the
  block's scores and stored back whole; the output window's buffer is not touched.
-/
import proofs.«159224_j12807592476992_2_alg».proof.Proof.Bits.AttnConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : cond1_1 i) (hc2 : ¬cond1_2 i)
    (x0 x1 x2 : Vec F S1x512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.Bits.AttnRunD.lean ====
/-
  The attention kernel's body at a grid point whose key block is the query block's own but not the first: the running
  state is updated with the block's scores and the quotient of the weighted sum by the sum is stored whole into the
  output window's buffer.
-/
import proofs.«159224_j12807592476992_2_alg».proof.Proof.Bits.AttnConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : cond1_1 i) (hc2 : cond1_2 i)
    (x0 x1 x2 : Vec F S1x512x1024 .bf16) (xs0 xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun xi3 E K => ?run⟩
  case run =>
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.Kernel.Hand

end
-- ==== Proof.Bits.AttnRunE.lean ====
/-
  The attention kernel's body at a grid point whose key block lies beyond the query block: every conditional is
  skipped and no buffer is touched.
-/
import proofs.«159224_j12807592476992_2_alg».proof.Proof.Bits.AttnConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬cond1_0 i) (hc1 : ¬cond1_1 i) (hc2 : ¬cond1_2 i)
    (x0 x1 x2 : Vec F S1x512x1024 .bf16) (xs0 xs1 : Vec F S512x1 .f32) (xs2 : Vec F S512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  ·
    simp only [cc1__attn_kernel_eq_skeleton, k1_part1_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.Bits.AttnShares.lean ====
/-
  The attention pipeline reads ONE array through its three input windows (the queries, keys and values are three column
  bands of the projected rows), so the array's full share is dealt among them: a quarter each to the first two windows,
  the remaining half to the third; the output window's array is held whole.
-/
import proofs.«159224_j12807592476992_2_alg».proof.Proof.Gen.Kernel.Launch
import Idealize.ShloMosaic.Lib.Transfers

noncomputable section

namespace Cert.Kernel.Hand

open Cert.Kernel Cert.Kernel.Gen
open Idealize.ShloMosaic Idealize.SL Idealize.SL.RA

/-- How the shared input array's full share is dealt among the three input windows; the output's array whole. -/
def q1 : Fin cfg1.W → PosShare TreeShare
  | ⟨0, _⟩ => Transfers.shareTok fullShare 2 0
  | ⟨1, _⟩ => Transfers.shareTok fullShare 2 1
  | ⟨2, _⟩ => Transfers.shareDrop fullShare 2
  | ⟨3, _⟩ => fullShare

end Cert.Kernel.Hand

end
-- ==== Proof.Bits.Region1State.lean ====
/-
  The attention region's state, invariant and proof data, at a parameter V (the contents of the TensorCore's buffers when
  the region is entered).  The kernel keeps three scratch buffers between grid points — the running maximum, the running
  sum and the running weighted sum of one query block — and writes the output window's buffer only at the point whose
  key block is the query block's own, the window being written back after the last key block.  So the state after a
  point is four arrays (output buffer, maximum, sum, weighted sum), defined by recursion on the point's number: the
  body's case at the point, run from the state the point before left.  The invariant before a point holds the three
  scratch buffers at that state; the proof data's "after" of the output window is the state's first component.
-/
import proofs.«159224_j12807592476992_2_alg».proof.Proof.Bits.AttnRunA
import proofs.«159224_j12807592476992_2_alg».proof.Proof.Bits.AttnRunB
import proofs.«159224_j12807592476992_2_alg».proof.Proof.Bits.AttnRunC
import proofs.«159224_j12807592476992_2_alg».proof.Proof.Bits.AttnRunD
import proofs.«159224_j12807592476992_2_alg».proof.Proof.Bits.AttnRunE
import proofs.«159224_j12807592476992_2_alg».proof.Proof.Bits.AttnShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point t, as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The views through which the contents of the output window's buffer and of the scratch buffers are stated. -/
abbrev VO1_3 : View sig .tc .vmem S1x512x1024 .f32 := (Memref.whole cc1_stg3_0 : Memref sig .tc .vmem S1x512x1024 .f32).view
abbrev VS1_0 : View sig .tc .vmem S512x1 .f32 := scM1_0.view
abbrev VS1_1 : View sig .tc .vmem S512x1 .f32 := scM1_1.view
abbrev VS1_2 : View sig .tc .vmem S512x1024 .f32 := scM1_2.view

/-- The four arrays the attention kernel's body reads or leaves besides its input blocks: the output window's buffer,
    the running maximum, the running sum and the running weighted sum. -/
structure St (F : FTy → Type) where
  out : Vec F S1x512x1024 .f32
  m : Vec F S512x1 .f32
  l : Vec F S512x1 .f32
  acc : Vec F S512x1024 .f32

/-- Contents nobody reads: what the buffers hold before the first point. -/
def St.junk : St F := ⟨VO1_3.read (Elt F) VO1_3.junk, VS1_0.read (Elt F) VS1_0.junk, VS1_1.read (Elt F) VS1_1.junk, VS1_2.read (Elt F) VS1_2.junk⟩

/-! ## Each case's stored pieces cover the buffer they are stored into -/

theorem cover1_A_out (c : Dev nD) (t : Fin cfg1.N) (hc0 : cond1_0 (grid1.coords t)) (hc1 : cond1_1 (grid1.coords t)) (hc2 : cond1_2 (grid1.coords t)) (s : St F) (y : S1x512x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1 S1x512x1024.size (by sl_kernel_rfl) y

theorem cover1_A_m (c : Dev nD) (t : Fin cfg1.N) (hc0 : cond1_0 (grid1.coords t)) (hc1 : cond1_1 (grid1.coords t)) (hc2 : cond1_2 (grid1.coords t)) (s : St F) (y : S512x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1 S512x1.size (by sl_kernel_rfl) y

theorem cover1_A_l (c : Dev nD) (t : Fin cfg1.N) (hc0 : cond1_0 (grid1.coords t)) (hc1 : cond1_1 (grid1.coords t)) (hc2 : cond1_2 (grid1.coords t)) (s : St F) (y : S512x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1 S512x1.size (by sl_kernel_rfl) y

theorem cover1_A_acc (c : Dev nD) (t : Fin cfg1.N) (hc0 : cond1_0 (grid1.coords t)) (hc1 : cond1_1 (grid1.coords t)) (hc2 : cond1_2 (grid1.coords t)) (s : St F) (y : S512x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1 S512x1024.size (by sl_kernel_rfl) y

theorem cover1_B_m (c : Dev nD) (t : Fin cfg1.N) (hc0 : cond1_0 (grid1.coords t)) (hc1 : cond1_1 (grid1.coords t)) (hc2 : ¬cond1_2 (grid1.coords t)) (s : St F) (y : S512x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1 S512x1.size (by sl_kernel_rfl) y

theorem cover1_B_l (c : Dev nD) (t : Fin cfg1.N) (hc0 : cond1_0 (grid1.coords t)) (hc1 : cond1_1 (grid1.coords t)) (hc2 : ¬cond1_2 (grid1.coords t)) (s : St F) (y : S512x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1 S512x1.size (by sl_kernel_rfl) y

theorem cover1_B_acc (c : Dev nD) (t : Fin cfg1.N) (hc0 : cond1_0 (grid1.coords t)) (hc1 : cond1_1 (grid1.coords t)) (hc2 : ¬cond1_2 (grid1.coords t)) (s : St F) (y : S512x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1 S512x1024.size (by sl_kernel_rfl) y

theorem cover1_C_m (c : Dev nD) (t : Fin cfg1.N) (hc0 : ¬cond1_0 (grid1.coords t)) (hc1 : cond1_1 (grid1.coords t)) (hc2 : ¬cond1_2 (grid1.coords t)) (s : St F) (y : S512x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1 S512x1.size (by sl_kernel_rfl) y

theorem cover1_C_l (c : Dev nD) (t : Fin cfg1.N) (hc0 : ¬cond1_0 (grid1.coords t)) (hc1 : cond1_1 (grid1.coords t)) (hc2 : ¬cond1_2 (grid1.coords t)) (s : St F) (y : S512x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1 S512x1.size (by sl_kernel_rfl) y

theorem cover1_C_acc (c : Dev nD) (t : Fin cfg1.N) (hc0 : ¬cond1_0 (grid1.coords t)) (hc1 : cond1_1 (grid1.coords t)) (hc2 : ¬cond1_2 (grid1.coords t)) (s : St F) (y : S512x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1 S512x1024.size (by sl_kernel_rfl) y

theorem cover1_D_out (c : Dev nD) (t : Fin cfg1.N) (hc0 : ¬cond1_0 (grid1.coords t)) (hc1 : cond1_1 (grid1.coords t)) (hc2 : cond1_2 (grid1.coords t)) (s : St F) (y : S1x512x1024.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1 S1x512x1024.size (by sl_kernel_rfl) y

theorem cover1_D_m (c : Dev nD) (t : Fin cfg1.N) (hc0 : ¬cond1_0 (grid1.coords t)) (hc1 : cond1_1 (grid1.coords t)) (hc2 : cond1_2 (grid1.coords t)) (s : St F) (y : S512x1.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1 S512x1.size (by sl_kernel_rfl) y

theorem cover1_D_l (c : Dev nD) (t : Fin cfg1.N) (hc0 : ¬cond1_0 (grid1.coords t)) (hc1 : cond1_1 (grid1.coords t)) (hc2 : cond1_2 (grid1.coords t)) (s : St F) (y : S512x1.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1 S512x1.size (by sl_kernel_rfl) y

theorem cover1_D_acc (c : Dev nD) (t : Fin cfg1.N) (hc0 : ¬cond1_0 (grid1.coords t)) (hc1 : cond1_1 (grid1.coords t)) (hc2 : cond1_2 (grid1.coords t)) (s : St F) (y : S512x1024.Idx) :
    ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1 S512x1024.size (by sl_kernel_rfl) y

/-! ## The state after a point, case by case -/

/-- The state after a grid point of case A, from the state before it: each buffer the case stores into at its stored
    pieces read back, the others as they were. -/
def stepA (c : Dev nD) (t : Fin cfg1.N) (hc0 : cond1_0 (grid1.coords t)) (hc1 : cond1_1 (grid1.coords t)) (hc2 : cond1_2 (grid1.coords t)) (s : St F) : St F :=
  ⟨VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.1)⟩

/-- The state after a grid point of case B, from the state before it: each buffer the case stores into at its stored
    pieces read back, the others as they were. -/
def stepB (c : Dev nD) (t : Fin cfg1.N) (hc0 : cond1_0 (grid1.coords t)) (hc1 : cond1_1 (grid1.coords t)) (hc2 : ¬cond1_2 (grid1.coords t)) (s : St F) : St F :=
  ⟨s.out,
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.1)⟩

/-- The state after a grid point of case C, from the state before it: each buffer the case stores into at its stored
    pieces read back, the others as they were. -/
def stepC (c : Dev nD) (t : Fin cfg1.N) (hc0 : ¬cond1_0 (grid1.coords t)) (hc1 : cond1_1 (grid1.coords t)) (hc2 : ¬cond1_2 (grid1.coords t)) (s : St F) : St F :=
  ⟨s.out,
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1)⟩

/-- The state after a grid point of case D, from the state before it: each buffer the case stores into at its stored
    pieces read back, the others as they were. -/
def stepD (c : Dev nD) (t : Fin cfg1.N) (hc0 : ¬cond1_0 (grid1.coords t)) (hc1 : cond1_1 (grid1.coords t)) (hc2 : cond1_2 (grid1.coords t)) (s : St F) : St F :=
  ⟨VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).1),
   VS1_0.read (Elt F) (VS1_0.writes (Elt F) VS1_0.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.1),
   VS1_1.read (Elt F) (VS1_1.writes (Elt F) VS1_1.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.1),
   VS1_2.read (Elt F) (VS1_2.writes (Elt F) VS1_2.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) s.m s.l s.acc).2.2.2.1)⟩

/-- The state after point t from the state before it: the case the closed forms of the three conditions select. -/
def stepAt (c : Dev nD) (t : Fin cfg1.N) (s : St F) : St F :=
  if h0 : t.val % 4 = 0 then
    if h2 : t.val % 4 = t.val / 4 % 4 then
      stepA V c t ((hcond1_0 t).mpr h0) ((hcond1_1 t).mpr (by omega)) ((hcond1_2 t).mpr h2) s
    else
      stepB V c t ((hcond1_0 t).mpr h0) ((hcond1_1 t).mpr (by omega)) (fun h => h2 ((hcond1_2 t).mp h)) s
  else if h1 : t.val % 4 ≤ t.val / 4 % 4 then
    if h2 : t.val % 4 = t.val / 4 % 4 then
      stepD V c t (fun h => h0 ((hcond1_0 t).mp h)) ((hcond1_1 t).mpr h1) ((hcond1_2 t).mpr h2) s
    else
      stepC V c t (fun h => h0 ((hcond1_0 t).mp h)) ((hcond1_1 t).mpr h1) (fun h => h2 ((hcond1_2 t).mp h)) s
  else s

/-- The state after the point of number n. -/
def stAt (c : Dev nD) : (n : ℕ) → n < cfg1.N → St F
  | 0, hn => stepAt V c ⟨0, hn⟩ St.junk
  | n + 1, hn => stepAt V c ⟨n + 1, hn⟩ (stAt c n (Nat.lt_of_succ_lt hn))

/-- The state before point t: junk before the first, else what the point before left. -/
def stPrev (c : Dev nD) (t : Fin cfg1.N) : St F :=
  if h : t.val = 0 then St.junk else stAt V c (t.val - 1) (Nat.lt_of_le_of_lt (Nat.sub_le _ _) t.isLt)

theorem stAt_eq (c : Dev nD) (t : Fin cfg1.N) : stAt V c t.val t.isLt = stepAt V c t (stPrev V c t) := by
  obtain ⟨n, hn⟩ := t
  cases n with
  | zero => rfl
  | succ n => unfold stPrev; rw [dif_neg (Nat.succ_ne_zero n)]; rfl

/-! ## The invariant -/

/-- The invariant before the point of number n: before the first, the scoped buffers no window stages at anything and
    the generator register at some state; afterwards the same with the three scratch buffers at what the point before
    left in them. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stAt V c n hn).m ∗ owns (c : Thread nD τ) scM1_1 fullShare (stAt V c n hn).l
      ∗ owns (c : Thread nD τ) scM1_2 fullShare (stAt V c n hn).acc) ∗ (∃ r, prngReg c r))

/-- The launch's invariant with the scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ (∃ d, owns (c : Thread nD τ) scM1_0 fullShare d) ∗ (∃ d, owns (c : Thread nD τ) scM1_1 fullShare d)
      ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stAt V c n hn).m ∗ owns (c : Thread nD τ) scM1_1 fullShare (stAt V c n hn).l
      ∗ owns (c : Thread nD τ) scM1_2 fullShare (stAt V c n hn).acc) ∗ (∃ r, prngReg c r)) := rfl

theorem PhiS_pos (c : Dev nD) (t : Fin cfg1.N) (hz : t.val ≠ 0) :
    PhiS V c t.val (Nat.le_of_lt t.isLt) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (stPrev V c t).m ∗ owns (c : Thread nD τ) scM1_1 fullShare (stPrev V c t).l
      ∗ owns (c : Thread nD τ) scM1_2 fullShare (stPrev V c t).acc) ∗ (∃ r, prngReg c r)) := by
  obtain ⟨n, hn⟩ := t
  cases n with
  | zero => exact absurd rfl hz
  | succ n => unfold stPrev; rw [dif_neg (Nat.succ_ne_zero n)]; rfl

/-! ## The proof data -/

/-- The proof data of the attention pipeline on core c: the arrays as the region finds them; after the body at point t
    each input's buffer at its block and the output's at the state's first component; the invariant above; nothing owed;
    the shared input array's share dealt among the three input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).out
  Φ t := PhiS V c t.val (Nat.le_of_lt_succ t.isLt)
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).out := by dsimp only [dat1]

/-- Each input window's current staging buffer holds its block at every point, fetched there or not: unfetched, the
    block index has not moved (the key and value windows keep their block beyond the diagonal). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.Kernel.Hand

end
-- ==== Proof.Bits.SharedArrays.lean ====
/-
  The attention pipeline's four windows stand on two arrays only: its three input windows all read the one array of
  projected rows, its output window writes another.  So at the pipeline's entry the TensorCore's unscoped buffers give
  up TWO whole buffers, not four, and the full share of the shared one is dealt among the three input windows (two read
  tokens and the remainder, Hand.q1); at the exit the three parts are joined back into the full share.  Both directions
  are stated at a valuation of the unscoped buffers, beside the unscoped buffers that are no window's array.
-/
import proofs.«159224_j12807592476992_2_alg».proof.Proof.Gen.Kernel.Launch
import proofs.«159224_j12807592476992_2_alg».proof.Proof.Bits.AttnShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The four windows' arrays are two buffers. -/
theorem image_arrRef1 : Finset.univ.image (Pipeline.arrRef spec1) = {main_v6, main_v7} := by decide

/-- The distinct buffers behind the windows' arrays, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v6) ↦{fullShare} V main_v6) ∗ (((c.tc : Thread nD τ).loc main_v7) ↦{fullShare} V main_v7)) := by
  unfold Pipeline.arrBufs
  rw [image_arrRef1, BI.bigSep_insert (by decide), BI.bigSep_singleton]
  rfl

/-- The unscoped buffers are the buffers behind the windows' arrays and the rest. -/
theorem split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) :=
  Pipeline.PerCore.unscopedBufs_split₀ (P := Unit) (fun _ _ => cfg1) () c winFacts₀1.arr_unscoped V

/-- The pipeline's arrays under the dealt shares, window by window: three parts of the shared input array's
    share and the output array whole, each a whole buffer at the valuation's contents. -/
theorem arrays1_eq (c : Dev nD) (dat : Dat τ (Elt F) Unit ℕ (UR sig nD τ) ℕ cfg1 c) (hq : dat.q = q1)
    (V : (b : Ref sig .tc) → Buf (Elt F) ((c.tc : Thread nD τ).loc b))
    (G : (w : Fin cfg1.W) → Buf (Elt F) ((cfg1.win w).arr.view.loc (c.tc : Thread nD τ)))
    (hG : ∀ w, G w = V (Pipeline.arrRef spec1 w)) :
    (dat.arrays G : sProp 𝕄)
      = iprop((((c.tc : Thread nD τ).loc main_v6) ↦{Transfers.shareTok fullShare 2 0} V main_v6)
          ∗ (((c.tc : Thread nD τ).loc main_v6) ↦{Transfers.shareTok fullShare 2 1} V main_v6)
          ∗ (((c.tc : Thread nD τ).loc main_v6) ↦{Transfers.shareDrop fullShare 2} V main_v6)
          ∗ (((c.tc : Thread nD τ).loc main_v7) ↦{fullShare} V main_v7)) := by
  unfold Dat.arrays
  rw [bigSep_W1]
  have h0 : dat.share 0 = Transfers.shareTok fullShare 2 0 := by
    unfold Dat.share; rw [hq]; rfl
  have h1 : dat.share 1 = Transfers.shareTok fullShare 2 1 := by
    unfold Dat.share; rw [hq]; rfl
  have h2 : dat.share 2 = Transfers.shareDrop fullShare 2 := by
    unfold Dat.share; rw [hq]; rfl
  have h3 : dat.share 3 = fullShare := by
    unfold Dat.share; rfl
  rw [h0, h1, h2, h3, hG 0, hG 1, hG 2, hG 3, (arr_whole1 0).set_eq_univ, (arr_whole1 3).set_eq_univ]

/-- A conjunction over two indices, written out. -/
theorem bigSep_Fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The shared input array's full share dealt into two read tokens and the remainder; -/
theorem deal6_split (c : Dev nD) (f : Buf (Elt F) ((c.tc : Thread nD τ).loc main_v6)) :
    ((((c.tc : Thread nD τ).loc main_v6) ↦{fullShare} f) : sProp 𝕄)
      ⊢ iprop((((c.tc : Thread nD τ).loc main_v6) ↦{Transfers.shareTok fullShare 2 0} f)
          ∗ (((c.tc : Thread nD τ).loc main_v6) ↦{Transfers.shareTok fullShare 2 1} f)
          ∗ (((c.tc : Thread nD τ).loc main_v6) ↦{Transfers.shareDrop fullShare 2} f)) := by
  have hd := Transfers.pointsTo_toks_split (ℓ := (c.tc : Thread nD τ).loc main_v6) (S := Finset.univ) (f := f)
    (Ix := Unit) (Name := ℕ) (U := UR sig nD τ) (Lvl := ℕ) fullShare 2
  rw [bigSep_Fin2] at hd
  refine hd.trans ?_
  iintro ⟨Hd, Ht0, Ht1⟩
  isplitl [Ht0]; · iexact Ht0
  isplitl [Ht1]; · iexact Ht1
  iexact Hd

/-- and joined back. -/
theorem deal6_join (c : Dev nD) (f : Buf (Elt F) ((c.tc : Thread nD τ).loc main_v6)) :
    iprop((((c.tc : Thread nD τ).loc main_v6) ↦{Transfers.shareTok fullShare 2 0} f)
          ∗ (((c.tc : Thread nD τ).loc main_v6) ↦{Transfers.shareTok fullShare 2 1} f)
          ∗ (((c.tc : Thread nD τ).loc main_v6) ↦{Transfers.shareDrop fullShare 2} f))
      ⊢ ((((c.tc : Thread nD τ).loc main_v6) ↦{fullShare} f) : sProp 𝕄) := by
  have hd := Transfers.pointsTo_toks_join (ℓ := (c.tc : Thread nD τ).loc main_v6) (S := Finset.univ) (f := f)
    (Ix := Unit) (Name := ℕ) (U := UR sig nD τ) (Lvl := ℕ) fullShare 2
  rw [bigSep_Fin2] at hd
  refine BIBase.Entails.trans ?_ hd
  iintro ⟨Ht0, Ht1, Hd⟩
  isplitl [Hd]; · iexact Hd
  isplitl [Ht0]; · iexact Ht0
  iexact Ht1

/-- ENTRY: a core's unscoped buffers at contents V are the attention pipeline's arrays at contents read off V,
    the shared input array's share dealt among its three windows, and the unscoped rest. -/
theorem arrays1_of_unscopedBufs (c : Dev nD) (dat : Dat τ (Elt F) Unit ℕ (UR sig nD τ) ℕ cfg1 c) (hq : dat.q = q1)
    (V : (b : Ref sig .tc) → Buf (Elt F) ((c.tc : Thread nD τ).loc b))
    (G : (w : Fin cfg1.W) → Buf (Elt F) ((cfg1.win w).arr.view.loc (c.tc : Thread nD τ)))
    (hG : ∀ w, G w = V (Pipeline.arrRef spec1 w)) :
    (unscopedBufs c V : sProp 𝕄) ⊢ iprop(dat.arrays G ∗ Pipeline.unscopedRest spec1 c V) := by
  rw [split1 c V, arrBufs1_eq c V, arrays1_eq c dat hq V G hG]
  iintro ⟨⟨H6, H7⟩, Hrest⟩
  have hs := deal6_split c (V main_v6)
  ihave H := hs $$ H6
  icases H with ⟨Ht0, Ht1, Hd⟩
  isplitr [Hrest]
  · isplitl [Ht0]; · iexact Ht0
    isplitl [Ht1]; · iexact Ht1
    isplitl [Hd]; · iexact Hd
    iexact H7
  iexact Hrest

/-- EXIT: the attention pipeline's arrays at contents G, the dealt shares joined back, and the unscoped rest at V
    are the core's unscoped buffers at any valuation that has the arrays at G and agrees with V off them. -/
theorem unscopedBufs_of_arrays1 (c : Dev nD) (dat : Dat τ (Elt F) Unit ℕ (UR sig nD τ) ℕ cfg1 c) (hq : dat.q = q1)
    (V V' : (b : Ref sig .tc) → Buf (Elt F) ((c.tc : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [split1 c V', arrBufs1_eq c V', arrays1_eq c dat hq V' G hG, hR]
  iintro ⟨⟨Ht0, Ht1, Hd, H7⟩, Hrest⟩
  isplitr [Hrest]
  · isplitr [H7]
    · iapply (deal6_join c (V' main_v6))
      isplitl [Ht0]; · iexact Ht0
      isplitl [Ht1]; · iexact Ht1
      iexact Hd
    iexact H7
  iexact Hrest

end Cert.Kernel.Hand
end
-- ==== Proof.Bits.Run.lean ====
/-
  The run of the main function as four segments: a stretch of host operations (the weights concatenated, transposed and
  rounded; the input reshaped and rounded), the projection kernel's region, a second stretch (one reshape), and the
  attention kernel's region.  Between two segments the TensorCore holds every unscoped buffer at a known valuation:
  W0 at the launch, W1 after the first stretch, W2 after the projection region (its output array at the fold of the
  write-backs of all 32 points), W3 after the reshape, W4 after the attention region (its output array at the fold of
  the write-backs of all 64 points; the one array its three input windows read is never written).  Each region takes
  its windows' arrays out of the unscoped buffers at its entry and puts them back at its exit; for the attention region
  the shared input array's share is dealt among the three input windows and joined back (SharedArrays).  The result:
  given the attention body's obligation, every fair execution from a memory with zero counters terminates and the final
  memory holds W4 at every unscoped buffer; the four arguments are read back to the launch memory and the result array
  to the attention pipeline's last write-back fold.
-/
import proofs.«159224_j12807592476992_2_alg».proof.Proof.Bits.Region0
import proofs.«159224_j12807592476992_2_alg».proof.Proof.Bits.Region1State
import proofs.«159224_j12807592476992_2_alg».proof.Proof.Bits.SharedArrays
import proofs.«159224_j12807592476992_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary between two segments of the main function -/

/-- Core c's buffers when the program is launched. -/
abbrev W0 : Dev nD → Valuation τ sig (Elt F) := fun c b => (s₀ m ρ).mem ((c : Dev nD), b)
/-- After the first stretch of host operations: what the projection region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the projection region: each of its arrays at what the pipeline leaves there (an input as entered, the output
    with every block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the projection region's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at the entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. Its three input windows read one array, which no point writes; so the only buffer the
    region changes is its output window's array, left at the fold of the write-backs of all points. -/
def W4 (c : Dev nD) : Valuation τ sig (Elt F) :=
  Function.update (W3 m ρ c) (Proc.devRef .tc main_v7) ((dat1 (V3 m ρ) c).arrAt 3 cfg1.N)
abbrev V4 : (c : Dev nD) → (b : Ref sig .tc) → Buf (Elt F) ((c : Thread nD τ).loc b) := fun c b => W4 m ρ c b

theorem W4_main_v7 (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _

/-- At the attention region's exit each window's array holds what the pipeline leaves: an input window's array is
    never written and is not the output's, the output window's is the updated one. -/
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v6 (by decide)).symm
  | ⟨1, _⟩ => (((dat1 (V3 m ρ) c).arrAt_in 1 rfl _).trans (A_eq1 (V3 m ρ) c 1)).trans (W4_of_ne m ρ c main_v6 (by decide)).symm
  | ⟨2, _⟩ => (((dat1 (V3 m ρ) c).arrAt_in 2 rfl _).trans (A_eq1 (V3 m ρ) c 2)).trans (W4_of_ne m ρ c main_v6 (by decide)).symm
  | ⟨3, _⟩ => (W4_main_v7 m ρ c).symm
/-- Every buffer that is no window's array holds what it held at the entry. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The arguments end as launched: no host operation writes one and no region has one among its arrays -/

theorem W4_of_arg (c : Dev nD) (b : Ref sig .tc) (h7 : b ≠ main_v7) (h1 : b ∉ hostOps1_W) (h0 : ∀ w, Pipeline.arrRef spec0 w ≠ b)
    (hh : b ∉ hostOps0_W) : W4 m ρ c (Proc.devRef .tc b) = m ((c : Thread nD τ).loc b) :=
  calc W4 m ρ c (Proc.devRef .tc b)
    _ = W3 m ρ c (Proc.devRef .tc b) := W4_of_ne m ρ c b h7
    _ = W2 m ρ c (Proc.devRef .tc b) := StableHlo.after_of_writes_sub hostOps1 _ hostOps1_writes h1
    _ = W1 m ρ c (Proc.devRef .tc b) := W2_of_ne m ρ c b h0
    _ = W0 m ρ c (Proc.devRef .tc b) := StableHlo.after_of_writes_sub hostOps0 _ hostOps0_writes hh
    _ = m ((c : Thread nD τ).loc b) := rfl

theorem W4_main_arg0 (c : Dev nD) : W4 m ρ c (Proc.devRef .tc main_arg0) = m ((c : Thread nD τ).loc main_arg0) :=
  W4_of_arg m ρ c main_arg0 (by decide) (by decide) (by decide) (by decide)
theorem W4_main_arg1 (c : Dev nD) : W4 m ρ c (Proc.devRef .tc main_arg1) = m ((c : Thread nD τ).loc main_arg1) :=
  W4_of_arg m ρ c main_arg1 (by decide) (by decide) (by decide) (by decide)
theorem W4_main_arg2 (c : Dev nD) : W4 m ρ c (Proc.devRef .tc main_arg2) = m ((c : Thread nD τ).loc main_arg2) :=
  W4_of_arg m ρ c main_arg2 (by decide) (by decide) (by decide) (by decide)
theorem W4_main_arg3 (c : Dev nD) : W4 m ρ c (Proc.devRef .tc main_arg3) = m ((c : Thread nD τ).loc main_arg3) :=
  W4_of_arg m ρ c main_arg3 (by decide) (by decide) (by decide) (by decide)

/-! # The proof data of the two pipelines and the thread state between segments -/

/-- No pipeline has a prefetched table: the admissible contents are trivial. -/
abbrev adm : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits on another: no level is assigned. -/
abbrev L : GSem nD τ sig → Finset Unit := fun _ => ∅
abbrev lv : GSem nD τ sig → Unit → ℕ := fun _ _ => 0
/-- What every segment carries beside the buffers: the generator register at some state, and that the core owes nothing. -/
abbrev R (c : Dev nD) : sProp 𝕄 := iprop((∃ r, prngReg c r) ∗ ∃ W, owes (c : Thread nD τ) (0 : CellTallies nD τ sig Unit) W)
/-- A stretch of host operations as a segment, run over every unscoped buffer from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the generator register at some state. -/
abbrev Tₙ (c : Dev nD) : sProp 𝕄 := iprop(StableHlo.held (c : Thread nD τ) (Pipeline.ucRefs τ sig) (W4 m ρ c) ∗ ∃ r, prngReg c r)

section Inv
variable (V : (c : Dev nD) → (b : Ref sig .tc) → Buf (Elt F) ((c : Thread nD τ).loc b))

/-- After any point the attention pipeline's invariant gives back what the launch handed it: the contents the three
    scratch buffers were left at are forgotten. -/
theorem PhiS_out (c : Dev nD) : ∀ (n : ℕ) (h : n ≤ cfg1.N), n ≠ 0 → PhiS V c n h ⊢ (Pipeline.ΦA spec1 c : sProp 𝕄)
  | 0, _, hz => absurd rfl hz
  | n + 1, hn, _ => by
    rw [PhiS_succ V c n hn, PhiA1_eq]
    iintro ⟨⟨H0, H1, H2, H3, H4, HS0, HS1, HS2⟩, Hg⟩
    isplitr [Hg]
    · isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iexists _; iexact HS2
    iexact Hg

/-- In particular after the last. -/
theorem Phi_last1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact PhiS_out V c _ _ (by rw [Fin.val_last]; have : cfg1.N = 64 := N_1; omega)

/-- Before the first point the invariant is what the launch hands the region. -/
theorem Phi_first1 (c : Dev nD) : (Pipeline.ΦA spec1 c : sProp 𝕄) ⊢ (dat1 V c).Φ 0 := by
  rw [show (dat1 V c).Φ 0 = PhiS V c 0 (Nat.zero_le _) from rfl, PhiS_zero V c 0 _ rfl]
end Inv

/-! # The two regions as segments -/

set_option backward.isDefEq.respectTransparency.types false in
/-- The projection region over the thread state: entered from every unscoped buffer at W1, left at W2. Its three arrays
    are taken out of the unscoped buffers at the entry and put back, at what the pipeline leaves, at the exit; the
    generator register goes into the pipeline's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Attn
-- The attention body's obligation at every point, on every core, at any entry contents: a hypothesis of what follows.
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The attention region over the thread state: entered from every unscoped buffer at W3, left at W4 (what the launch
    reads at the end). Its windows stand on two buffers: at the entry the shared input array's share is dealt among the
    three input windows, at the exit the parts are joined back. The invariant starts as the scoped rest and the
    generator register, and after the last point gives them back, the scratch buffers' contents forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays1_of_unscopedBufs c (pdats m ρ 1 c) (q_eq1 (V3 m ρ) c) (V3 m ρ c)
      ((pdats m ρ 1 c).arrAt · 0) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_first1 (V3 m ρ) c)
    unfold Pipeline.ΦA
    iintro ⟨Hp, -, Hr⟩
    isplitl [Hr]; · iexact Hr
    iexact Hp
  hout c := by
    rw [Pipeline.ownSems0_none]
    refine BIBase.Entails.trans (Phi_last1 (V3 m ρ) c) ?_
    unfold Pipeline.ΦA
    iintro ⟨Hr, Hp⟩
    isplitl [Hp]; · iexact Hp
    isplitr; · iempintro
    iexact Hr
  hexit c := by
    have hjoin := unscopedBufs_of_arrays1 c (pdats m ρ 1 c) (q_eq1 (V3 m ρ) c) (V3 m ρ c) (V4 m ρ c)
      ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The main function as four segments, and the launch -/

/-- The main function's four segments in order: each stretch of host operations from the contents at its boundary, each
    kernel call as its region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hb1) ]
/-- The main function is the run of these segments. -/
theorem main_run (c : Dev nD) : main (F := F) c = Pipeline.Seg.run (segs m ρ hb1) := (main_chain c).trans (by chain_rfl)

include hb1 in
set_option backward.isDefEq.respectTransparency.types false in
/-- The launch over the four segments, the last thread state read against the final memory (the attention body's
    obligation being the hypothesis of this section). -/
theorem run_segs : θ_run defs (onTc (τ := τ) (main (F := F))) ⟨m, fun _ => 0, ρ⟩
      (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ hb1)
    (fun c Q => by rw [main_run m ρ hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Attn

/-- THE RUN, GIVEN the attention body's obligation at every point (hb1). From any memory with every counter at zero,
    every weakly fair execution of the main function on the TensorCores terminates without a fault, and in every final
    state each unscoped buffer holds the contents W4 gives it. -/
theorem run (hb1 : ∀ (V : (c : Dev nD) → (b : Ref sig .tc) → Buf (Elt F) ((c : Thread nD τ).loc b)) (c : Dev nD),
      BodyObligation (dat1 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 m ρ c b) :=
  run_segs m ρ hb1

end Cert.Kernel.Hand

end
-- ==== Proof.Bits.Region1Body.lean ====
/-
  The attention region's body obligation: at every grid point, from the invariant (the three scratch buffers at the
  state the point before left) and the four windows' current buffers (each input at its block; the output at what it
  holds), the body runs to the invariant at the next point and the buffers at what the proof data says.  Five cases by
  the closed forms of the three conditions.  The output window's buffer is stored only at the point whose key block
  is the query block's own; at the earlier points of the group it is handed back untouched, and at the later ones it
  still holds that store — which is what the write-back after the group's last point moves.
-/
import proofs.«159224_j12807592476992_2_alg».proof.Proof.Bits.Region1State

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, and when the output is written back -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- The output window is live exactly where the body stores into it. -/
theorem live1_3 : ∀ t : Fin cfg1.N, cond1_2 (grid1.coords t) → cfg1.idle 3 (grid1.coords t) = false := by decide +kernel
theorem idle1_3 : ∀ t : Fin cfg1.N, ¬cond1_2 (grid1.coords t) → cfg1.idle 3 (grid1.coords t) = true := by decide +kernel
/-- It is written back after the last key block of a group only. -/
theorem noflush1_3 (t : Fin cfg1.N) (h : t.val % 4 ≠ 3) : (cfg1.win 3).flush t = false := by
  rcases hb : (cfg1.win 3).flush t with _ | _
  · rfl
  · exact absurd ((flush1_3 t).mp hb) h

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]

/-! ## What the output window's buffer holds beyond the diagonal -/

/-- The point before t. -/
def pred1 (t : Fin cfg1.N) : Fin cfg1.N := ⟨t.val - 1, Nat.lt_of_le_of_lt (Nat.sub_le _ _) t.isLt⟩

theorem stPrev_pos (c : Dev nD) (t : Fin cfg1.N) (ht : t.val ≠ 0) : stPrev V c t = stAt V c (pred1 t).val (pred1 t).isLt := by
  unfold stPrev; rw [dif_neg ht]; rfl

/-- Beyond the diagonal nothing is stored: the state is the one the point before left. -/
theorem stAt_E (c : Dev nD) (t : Fin cfg1.N) (h1 : ¬ t.val % 4 ≤ t.val / 4 % 4) : stAt V c t.val t.isLt = stPrev V c t := by
  rw [stAt_eq]; unfold stepAt
  rw [dif_neg (fun h0 => h1 (by omega)), dif_neg h1]

theorem before1_3_pos (c : Dev nD) (t : Fin cfg1.N) (ht : t.val ≠ 0) (hfl : (cfg1.win 3).flush (pred1 t) = false) (d) :
    (dat1 V c).before 3 t d = (dat1 V c).left 3 (pred1 t) d := by
  have h := (dat1 V c).before_of_pos 3 t ht ((cfg1.win 3).fetch_out rfl t) d
  rw [show (cfg1.win 3).flush ⟨t.val - 1, Nat.lt_of_le_of_lt (Nat.sub_le _ _) t.isLt⟩ = (cfg1.win 3).flush (pred1 t) from rfl, hfl,
    if_neg Bool.false_ne_true] at h
  exact h

/-- An uncut window's buffer kept from a live point holds all of what the body left there. -/
theorem kept1_3 (c : Dev nD) (t : Fin cfg1.N) (d) : (dat1 V c).kept 3 t d = (dat1 V c).after 3 t := by
  unfold Dat.kept
  rw [Pipeline.fill_of_clip_none 3 (cfg1.grid.coords t) (fun _ => rfl) d ((dat1 V c).after 3 t), Pipeline.Window.fill_cut]

/-- At a point beyond the diagonal the output window's buffer holds the state's first component, whatever it held
    before the group's store: by induction on the point's number, back to the point on the diagonal. -/
theorem before1_3_E (c : Dev nD) : ∀ (n : ℕ) (t : Fin cfg1.N), t.val = n → ¬ t.val % 4 ≤ t.val / 4 % 4 →
    ∀ d, (dat1 V c).before 3 t d = (stAt V c t.val t.isLt).out := by
  intro n
  induction n using Nat.strong_induction_on with
  | _ n ih =>
    intro t hn h1 d
    have hN : t.val < 64 := lt_of_lt_of_eq t.isLt (show cfg1.N = 64 from N_1)
    have ht : t.val ≠ 0 := by omega
    have hpv : (pred1 t).val = t.val - 1 := rfl
    rw [before1_3_pos V c t ht (noflush1_3 (pred1 t) (by rw [hpv]; omega)) d, stAt_E V c t h1, stPrev_pos V c t ht]
    unfold Dat.left
    by_cases h2' : (pred1 t).val % 4 = (pred1 t).val / 4 % 4
    · rw [live1_3 (pred1 t) ((hcond1_2 (pred1 t)).mpr h2')]
      show (dat1 V c).kept 3 (pred1 t) d = _
      rw [kept1_3, after1_3]
    · rw [idle1_3 (pred1 t) (fun h => h2' ((hcond1_2 (pred1 t)).mp h))]
      exact ih (t.val - 1) (by omega) (pred1 t) rfl (by rw [hpv] at h2' ⊢; omega) d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 4 = 0
  · by_cases h2 : t.val % 4 = t.val / 4 % 4
    · -- the first key block, on the diagonal: reset, visit, write
      have hc0 : cond1_0 (grid1.coords t) := (hcond1_0 t).mpr h0
      have hc1 : cond1_1 (grid1.coords t) := (hcond1_1 t).mpr (by omega)
      have hc2 : cond1_2 (grid1.coords t) := (hcond1_2 t).mpr h2
      rw [show (dat1 V c).leavesExact 3 t = owns (c : Thread nD τ) (ms1_3 t) fullShare ((dat1 V c).after 3 t) from by
        unfold Dat.leavesExact; rw [live1_3 t hc2], after1_3]
      rw [stAt_eq V c t]; unfold stepAt; rw [dif_pos h0, dif_pos h2]; unfold stepA; dsimp only
      by_cases hz : t.val = 0
      · rw [PhiS_castSucc V c t, PhiS_zero V c _ _ hz, PhiA1_eq]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_A_m V c t hc0 hc1 hc2 (stPrev V c t))
            isplitl [HS1]
            · unfold owns; iexists _; isplitr
              swap; · iexact HS1
              ipureintro; exact View.read_writes_of_cover _ _ _ _ _ (cover1_A_l V c t hc0 hc1 hc2 (stPrev V c t))
            unfold owns; iexists _; isplitr
            swap; · iexact HS2
            ipureintro; exact View.read_writes_of_cover _ _ _ _ _ (cover1_A_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_A_out V c t hc0 hc1 hc2 (stPrev V c t))
      · rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_A_m V c t hc0 hc1 hc2 (stPrev V c t))
            isplitl [HS1]
            · unfold owns; iexists _; isplitr
              swap; · iexact HS1
              ipureintro; exact View.read_writes_of_cover _ _ _ _ _ (cover1_A_l V c t hc0 hc1 hc2 (stPrev V c t))
            unfold owns; iexists _; isplitr
            swap; · iexact HS2
            ipureintro; exact View.read_writes_of_cover _ _ _ _ _ (cover1_A_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_A_out V c t hc0 hc1 hc2 (stPrev V c t))
    · -- the first key block, below the diagonal: reset, visit
      have hc0 : cond1_0 (grid1.coords t) := (hcond1_0 t).mpr h0
      have hc1 : cond1_1 (grid1.coords t) := (hcond1_1 t).mpr (by omega)
      have hc2 : ¬cond1_2 (grid1.coords t) := fun h => h2 ((hcond1_2 t).mp h)
      rw [Dat.leavesExact_idle (dat1 V c) 3 t (idle1_3 t hc2) (noflush1_3 t (by omega))]
      rw [stAt_eq V c t]; unfold stepAt; rw [dif_pos h0, dif_neg h2]; unfold stepB; dsimp only
      by_cases hz : t.val = 0
      · exfalso; rw [hz] at h2; exact h2 rfl
      · rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_B_m V c t hc0 hc1 hc2 (stPrev V c t))
            isplitl [HS1]
            · unfold owns; iexists _; isplitr
              swap; · iexact HS1
              ipureintro; exact View.read_writes_of_cover _ _ _ _ _ (cover1_B_l V c t hc0 hc1 hc2 (stPrev V c t))
            unfold owns; iexists _; isplitr
            swap; · iexact HS2
            ipureintro; exact View.read_writes_of_cover _ _ _ _ _ (cover1_B_acc V c t hc0 hc1 hc2 (stPrev V c t))
          · iexact Hg
        isplitl [Ho]; · iexact Ho
        isplitl [H0]; · iexact H0
        isplitl [H1]; · iexact H1
        isplitl [H2]; · iexact H2
        iexists d3; iexact H3
  · by_cases h1 : t.val % 4 ≤ t.val / 4 % 4
    · have hz : t.val ≠ 0 := fun hz => h0 (by rw [hz])
      by_cases h2 : t.val % 4 = t.val / 4 % 4
      · -- a later key block, on the diagonal: visit, write
        have hc0 : ¬cond1_0 (grid1.coords t) := fun h => h0 ((hcond1_0 t).mp h)
        have hc1 : cond1_1 (grid1.coords t) := (hcond1_1 t).mpr h1
        have hc2 : cond1_2 (grid1.coords t) := (hcond1_2 t).mpr h2
        rw [show (dat1 V c).leavesExact 3 t = owns (c : Thread nD τ) (ms1_3 t) fullShare ((dat1 V c).after 3 t) from by
          unfold Dat.leavesExact; rw [live1_3 t hc2], after1_3]
        rw [stAt_eq V c t]; unfold stepAt; rw [dif_neg h0, dif_pos h1, dif_pos h2]; unfold stepD; dsimp only
        rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_D_m V c t hc0 hc1 hc2 (stPrev V c t))
            isplitl [HS1]
            · unfold owns; iexists _; isplitr
              swap; · iexact HS1
              ipureintro; exact View.read_writes_of_cover _ _ _ _ _ (cover1_D_l V c t hc0 hc1 hc2 (stPrev V c t))
            unfold owns; iexists _; isplitr
            swap; · iexact HS2
            ipureintro; exact View.read_writes_of_cover _ _ _ _ _ (cover1_D_acc V c t hc0 hc1 hc2 (stPrev V c t))
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_out V c t hc0 hc1 hc2 (stPrev V c t))
      · -- a later key block, below the diagonal: visit
        have hc0 : ¬cond1_0 (grid1.coords t) := fun h => h0 ((hcond1_0 t).mp h)
        have hc1 : cond1_1 (grid1.coords t) := (hcond1_1 t).mpr h1
        have hc2 : ¬cond1_2 (grid1.coords t) := fun h => h2 ((hcond1_2 t).mp h)
        rw [Dat.leavesExact_idle (dat1 V c) 3 t (idle1_3 t hc2) (noflush1_3 t (by omega))]
        rw [stAt_eq V c t]; unfold stepAt; rw [dif_neg h0, dif_pos h1, dif_neg h2]; unfold stepC; dsimp only
        rw [PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]
            · unfold owns; iexists _; isplitr
              swap; · iexact HS0
              ipureintro; exact View.read_writes_of_cover _ _ _ _ _ (cover1_C_m V c t hc0 hc1 hc2 (stPrev V c t))
            isplitl [HS1]
            · unfold owns; iexists _; isplitr
              swap; · iexact HS1
              ipureintro; exact View.read_writes_of_cover _ _ _ _ _ (cover1_C_l V c t hc0 hc1 hc2 (stPrev V c t))
            unfold owns; iexists _; isplitr
            swap; · iexact HS2
            ipureintro; exact View.read_writes_of_cover _ _ _ _ _ (cover1_C_acc V c t hc0 hc1 hc2 (stPrev V c t))
          · iexact Hg
        isplitl [Ho]; · iexact Ho
        isplitl [H0]; · iexact H0
        isplitl [H1]; · iexact H1
        isplitl [H2]; · iexact H2
        iexists d3; iexact H3
    · -- beyond the diagonal: nothing
      have hz : t.val ≠ 0 := fun hz => h0 (by rw [hz])
      have hc0 : ¬cond1_0 (grid1.coords t) := fun h => h0 ((hcond1_0 t).mp h)
      have hc1 : ¬cond1_1 (grid1.coords t) := fun h => h1 ((hcond1_1 t).mp h)
      have hc2 : ¬cond1_2 (grid1.coords t) := fun h => h1 (le_of_eq ((hcond1_2 t).mp h))
      simp only [before1_3_E V c t.val t rfl h1]
      by_cases hf3 : t.val % 4 = 3
      · -- the group's last point: the buffer, still holding the diagonal point's store, is written back
        rw [show (dat1 V c).leavesExact 3 t = owns (c : Thread nD τ) (ms1_3 t) fullShare ((stAt V c t.val t.isLt).out) from by
          unfold Dat.leavesExact; rw [idle1_3 t hc2, (flush1_3 t).mpr hf3, after1_3]]
        rw [stAt_E V c t h1, PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc (stPrev V c t).out Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexact H3
      · rw [Dat.leavesExact_idle (dat1 V c) 3 t (idle1_3 t hc2) (noflush1_3 t hf3)]
        simp only [before1_3_E V c t.val t rfl h1]
        rw [stAt_E V c t h1, PhiS_castSucc V c t, PhiS_pos V c t hz]
        iintro ⟨⟨⟨HE1, HE2, HE3, HE4, HE5, HS0, HS1, HS2⟩, Hg⟩, Ho, ⟨%d0, H0⟩, ⟨%d1, H1⟩, ⟨%d2, H2⟩, ⟨%d3, H3⟩⟩
        iapply (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 (iblk1 V c 0 t) (iblk1 V c 1 t) (iblk1 V c 2 t) (stPrev V c t).m (stPrev V c t).l (stPrev V c t).acc (stPrev V c t).out Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HE1 HE2 HE3 HE4 HE5 HS0 HS1 HS2 Hg]
        · isplitl [HE1 HE2 HE3 HE4 HE5 HS0 HS1 HS2]
          · isplitl [HE1]; · iexact HE1
            isplitl [HE2]; · iexact HE2
            isplitl [HE3]; · iexact HE3
            isplitl [HE4]; · iexact HE4
            isplitl [HE5]; · iexact HE5
            isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Frames.lean ====
/-
  The two kernel programs' frames and the idealization's one recorded rewrite.  Each program is run as four segments
  (host operations, the projection region, a reshape, the attention region); the run ends with every unscoped buffer
  at a valuation that, at an argument's buffer, walks back to the launch memory: no host operation and no region writes
  an argument.  The program as printed and its idealization differ in one scalar constant only, so the same text proves
  both runs.  The idealization names the mask fill -∞: at the ideal instance the named constant denotes the value the
  certificate's table gives it.
-/
import proofs.«159224_j12807592476992_2_alg».proof.Defs
import proofs.«159224_j12807592476992_2_alg».proof.Proof.Run
import proofs.«159224_j12807592476992_2_alg».proof.Proof.Region1Body
import proofs.«159224_j12807592476992_2_alg».proof.Proof.Bits.Run
import proofs.«159224_j12807592476992_2_alg».proof.Proof.Bits.Region1Body
import Idealize.ShloMosaic.PureOps.IdealRules

noncomputable section

namespace Cert.Proof.Frames

open Idealize.ShloMosaic Idealize.SL.Sem

theorem frame_k [Cert.Kernel.Facts] [Cert.Pre_finite_inputs.Facts] : Cert.frame_Kernel := fun m ρ _ =>
  (θ_run (Cert.Kernel.defs) _ _).mono (fun r h c =>
    ⟨(h c _ (Cert.Kernel.Hand.mem_uc Cert.Kernel.main_arg0 (by decide))).trans (Cert.Kernel.Hand.W4_main_arg0 m ρ c),
     (h c _ (Cert.Kernel.Hand.mem_uc Cert.Kernel.main_arg1 (by decide))).trans (Cert.Kernel.Hand.W4_main_arg1 m ρ c),
     (h c _ (Cert.Kernel.Hand.mem_uc Cert.Kernel.main_arg2 (by decide))).trans (Cert.Kernel.Hand.W4_main_arg2 m ρ c),
     (h c _ (Cert.Kernel.Hand.mem_uc Cert.Kernel.main_arg3 (by decide))).trans (Cert.Kernel.Hand.W4_main_arg3 m ρ c)⟩)
    (Cert.Kernel.Hand.run (fun V c => Cert.Kernel.Hand.body_obligation1 V c) m ρ)

theorem frame_ki [Cert.KernelIdeal.Facts] [Cert.Pre_finite_inputs.Facts] : Cert.frame_KernelIdeal := fun m ρ _ =>
  (θ_run (Cert.KernelIdeal.defs) _ _).mono (fun r h c =>
    ⟨(h c _ (Cert.KernelIdeal.Hand.mem_uc Cert.KernelIdeal.main_arg0 (by decide))).trans (Cert.KernelIdeal.Hand.W4_main_arg0 m ρ c),
     (h c _ (Cert.KernelIdeal.Hand.mem_uc Cert.KernelIdeal.main_arg1 (by decide))).trans (Cert.KernelIdeal.Hand.W4_main_arg1 m ρ c),
     (h c _ (Cert.KernelIdeal.Hand.mem_uc Cert.KernelIdeal.main_arg2 (by decide))).trans (Cert.KernelIdeal.Hand.W4_main_arg2 m ρ c),
     (h c _ (Cert.KernelIdeal.Hand.mem_uc Cert.KernelIdeal.main_arg3 (by decide))).trans (Cert.KernelIdeal.Hand.W4_main_arg3 m ρ c)⟩)
    (Cert.KernelIdeal.Hand.run (fun V c => Cert.KernelIdeal.Hand.body_obligation1 V c) m ρ)

/-- The one rewrite: the finite mask fill is named -∞, and the named constant is that value at the ideal instance. -/
theorem preserves : Cert.preserves_Kernel_KernelIdeal :=
  IdealRules.named_const.statement Cert.KernelIdeal.κ "neg_big" .f32 0xFF333332#32 ⊥ rfl

end Cert.Proof.Frames

end
-- ==== Proof.RefFrame.lean ====
/-
  The reference program runs to the end and leaves its four argument arrays as they were: this is the second half of
  what its run says (the first half names the result), kept here on its own.
-/
import proofs.«159224_j12807592476992_2_alg».proof.Defs
import proofs.«159224_j12807592476992_2_alg».proof.Proof.Gen.ReferenceIdeal.Run

noncomputable section

namespace Cert.ReferenceIdeal.RefValue

open Idealize.ShloMosaic Idealize.SL.Sem

/-- Every execution of the reference program terminates with the argument arrays unchanged. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.AttnSpec.lean ====
/-
  Causal self-attention over an input x : f32[4, 2048, 1024] and three weight matrices of f32[1024, 1024], written as
  plain functions on the extended reals, index by index.  Two descriptions of one result:

  * the direct one: project rows of x by each weight matrix, take the inner products of projected query and key rows,
    divide by 32 (the square root of the width 1024) on and below the diagonal and put -∞ above it, subtract the row
    maximum, exponentiate, divide by the row sum, and average the projected value rows with these weights;
  * the blockwise one: the key rows of a query row are visited 512 at a time, from block 0 up to the block holding the
    diagonal, keeping a running maximum m, a running sum l of exponentials taken relative to m, and a running weighted
    sum acc of value rows relative to m; each visit rescales l and acc by exp (m_old - m_new) before adding the block's
    terms, and the result is acc / l after the last visited block.

  That the two agree when every entry of x and of the weights is a real number is the mathematics of this certificate:
  exp (a - b) * exp (c - a) = exp (c - b) on the reals turns the rescaled running sums into sums relative to the final
  maximum, entries above the diagonal are -∞ and contribute exp (-∞) = 0 to both sums, and a quotient of two finite sums
  is the sum of the quotients.
-/
import Idealize.ShloMosaic.PureOps.Ideal
import Idealize.ShloMosaic.Lib.ValueIdx

noncomputable section

open scoped BigOperators

namespace Cert.AttnSpec

open Idealize.ShloMosaic Idealize.ShloMosaic.ValueIdx

/-- An array of shape [4, 2048, 1024] of extended reals. -/
abbrev X : Type := (⟨3, ![4, 2048, 1024]⟩ : Shape).Idx → EReal
/-- An array of shape [1024, 1024] of extended reals. -/
abbrev W : Type := (⟨2, ![1024, 1024]⟩ : Shape).Idx → EReal

/-- One projected entry: row (b, s) of x against row o of a weight matrix. -/
def proj (x : X) (w : W) (b : Fin 4) (s : Fin 2048) (o : Fin 1024) : EReal :=
  ∑ i : Fin 1024, x (ix3 b s i) * w (ix2 o i)

/-- The masked, scaled score of query row q against key row k of batch b: the inner product of the two projected
    rows times 1/32 on and below the diagonal, -∞ above it. -/
def score (x : X) (wq wk : W) (b : Fin 4) (q k : Fin 2048) : EReal :=
  if k.val ≤ q.val then (∑ d : Fin 1024, proj x wq b q d * proj x wk b k d) * ((1 / 32 : ℝ) : EReal) else ⊥

/-! ## The direct description -/

/-- The largest score of a query row. -/
def rowMax (x : X) (wq wk : W) (b : Fin 4) (q : Fin 2048) : EReal :=
  Finset.univ.sup fun k : Fin 2048 => score x wq wk b q k

/-- The sum over a query row of the exponentials of the scores relative to the row maximum. -/
def rowSum (x : X) (wq wk : W) (b : Fin 4) (q : Fin 2048) : EReal :=
  ∑ k : Fin 2048, Ideal.exp (score x wq wk b q k - rowMax x wq wk b q)

/-- Entry (b, q, d) of the attention output: the value rows averaged with the softmax weights of query row q. -/
def softmaxOut (x : X) (wq wk wv : W) (b : Fin 4) (q : Fin 2048) (d : Fin 1024) : EReal :=
  ∑ k : Fin 2048, Ideal.div (Ideal.exp (score x wq wk b q k - rowMax x wq wk b q)) (rowSum x wq wk b q) * proj x wv b k d

/-! ## The blockwise description -/

/-- Row r of query block qi. -/
def qRow (qi : Fin 4) (r : Fin 512) : Fin 2048 := ⟨qi.val * 512 + r.val, by omega⟩

/-- Column c of key block j (blocks are numbered 0 to 3; a larger number is read modulo 4 and never used). -/
def kRow (j : ℕ) (c : Fin 512) : Fin 2048 := ⟨(j % 4) * 512 + c.val, by omega⟩

section Flash

variable (x : X) (wq wk wv : W) (b : Fin 4) (qi : Fin 4) (r : Fin 512)

/-- The score of row r of query block qi against column c of key block j. -/
def blockScore (j : ℕ) (c : Fin 512) : EReal := score x wq wk b (qRow qi r) (kRow j c)

/-- The running maximum after the first j key blocks. -/
def flashM : ℕ → EReal
  | 0 => ⊥
  | j + 1 => max (flashM j) (Finset.univ.sup fun c : Fin 512 => blockScore x wq wk b qi r j c)

/-- The running sum of exponentials, relative to the running maximum, after the first j key blocks. -/
def flashL : ℕ → EReal
  | 0 => 0
  | j + 1 => Ideal.exp (flashM x wq wk b qi r j - flashM x wq wk b qi r (j + 1)) * flashL j
      + ∑ c : Fin 512, Ideal.exp (blockScore x wq wk b qi r j c - flashM x wq wk b qi r (j + 1))

/-- The running weighted sum of value entries in column d, relative to the running maximum, after the first j key
    blocks. -/
def flashAcc (d : Fin 1024) : ℕ → EReal
  | 0 => 0
  | j + 1 => Ideal.exp (flashM x wq wk b qi r j - flashM x wq wk b qi r (j + 1)) * flashAcc d j
      + ∑ c : Fin 512, Ideal.exp (blockScore x wq wk b qi r j c - flashM x wq wk b qi r (j + 1)) * proj x wv b (kRow j c) d

/-- Entry (b, 512 qi + r, d) as the blockwise description computes it: the quotient after key blocks 0 to qi. -/
def flashOut (d : Fin 1024) : EReal :=
  Ideal.div (flashAcc x wq wk wv b qi r d (qi.val + 1)) (flashL x wq wk b qi r (qi.val + 1))

end Flash

end Cert.AttnSpec

end
-- ==== Proof.RefSpec.lean ====
/-
  The reference program's result, read at an index, is the direct description of causal attention.

  The program projects the rows of x by three weight matrices (three inner products over the width 1024), takes the
  inner products of projected query and key rows, keeps them on and below the diagonal and puts -∞ above it, divides by
  the square root of 1024, subtracts the row maximum, exponentiates, divides by the row sum and averages the projected
  value rows with the quotients.  Each step is read at an index (b, q, k) or (b, q, d):

  * the square root of the constant 1024 is the real 32, since 32 * 32 = 1024, and a division by the real 32 is a
    multiplication by 1/32 on every extended real; -∞ times the positive 1/32 is -∞;
  * the mask compares row and column numbers below 2048 as 32-bit signed words, which is the comparison of the numbers;
  * the maximum over a row started from -∞ is the supremum of the row, and max (-∞) m = m;
  * the sum over a row started from 0 is the sum of the row.
-/
import proofs.«159224_j12807592476992_2_alg».proof.Proof.Gen.ReferenceIdeal.Read
import proofs.«159224_j12807592476992_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx
  Cert.AttnSpec

/-- The type of the input x and of every [4, 2048, 1024] intermediate. -/
abbrev A3 : Type := (⟨S4x2048x1024, .f32⟩ : BufTy).Contents (Elt Ideal)
/-- The type of a weight matrix. -/
abbrev A2 : Type := (⟨S1024x1024, .f32⟩ : BufTy).Contents (Elt Ideal)

/-! ## The three projections -/

/-- The first product, at (b, s, o), is row (b, s) of x against row o of the first weight matrix. -/
theorem v0_eq (x0 : A3) (x1 : A2) (b : Fin 4) (s : Fin 2048) (o : Fin 1024) :
    val_main_v0 (F := Ideal) x0 x1 (ix3 b s o) = proj x0 x1 b s o := by
  rw [val_main_v0_apply]
  unfold proj
  refine Finset.sum_congr rfl fun k _ => ?_
  have el : lidx_main_v0 (ix3 b s o) k = ix3 b s k :=
    funext fun a => Fin.ext (by match a with | ⟨0, _⟩ => rfl | ⟨1, _⟩ => rfl | ⟨2, _⟩ => rfl)
  have er : ridx_main_v0 (ix3 b s o) k = ix2 o k :=
    funext fun a => Fin.ext (by match a with | ⟨0, _⟩ => rfl | ⟨1, _⟩ => rfl)
  rw [el, er]

/-- The second product, at (b, s, o), is row (b, s) of x against row o of the second weight matrix. -/
theorem v1_eq (x0 : A3) (x2 : A2) (b : Fin 4) (s : Fin 2048) (o : Fin 1024) :
    val_main_v1 (F := Ideal) x0 x2 (ix3 b s o) = proj x0 x2 b s o := by
  rw [val_main_v1_apply]
  unfold proj
  refine Finset.sum_congr rfl fun k _ => ?_
  have el : lidx_main_v1 (ix3 b s o) k = ix3 b s k :=
    funext fun a => Fin.ext (by match a with | ⟨0, _⟩ => rfl | ⟨1, _⟩ => rfl | ⟨2, _⟩ => rfl)
  have er : ridx_main_v1 (ix3 b s o) k = ix2 o k :=
    funext fun a => Fin.ext (by match a with | ⟨0, _⟩ => rfl | ⟨1, _⟩ => rfl)
  rw [el, er]

/-- The third product, at (b, s, o), is row (b, s) of x against row o of the third weight matrix. -/
theorem v2_eq (x0 : A3) (x3 : A2) (b : Fin 4) (s : Fin 2048) (o : Fin 1024) :
    val_main_v2 (F := Ideal) x0 x3 (ix3 b s o) = proj x0 x3 b s o := by
  rw [val_main_v2_apply]
  unfold proj
  refine Finset.sum_congr rfl fun k _ => ?_
  have el : lidx_main_v2 (ix3 b s o) k = ix3 b s k :=
    funext fun a => Fin.ext (by match a with | ⟨0, _⟩ => rfl | ⟨1, _⟩ => rfl | ⟨2, _⟩ => rfl)
  have er : ridx_main_v2 (ix3 b s o) k = ix2 o k :=
    funext fun a => Fin.ext (by match a with | ⟨0, _⟩ => rfl | ⟨1, _⟩ => rfl)
  rw [el, er]

/-! ## The scores before the mask -/

/-- The product of projected queries and keys, at (b, q, k), is the inner product of projected query row q and
    projected key row k of batch b. -/
theorem v3_eq (x0 : A3) (x1 x2 : A2) (b : Fin 4) (q k : Fin 2048) :
    val_main_v3 (F := Ideal) x0 x1 x2 (ix3 b q k) = ∑ d : Fin 1024, proj x0 x1 b q d * proj x0 x2 b k d := by
  rw [val_main_v3_apply]
  refine Finset.sum_congr rfl fun d _ => ?_
  have el : lidx_main_v3 (ix3 b q k) d = ix3 b q d :=
    funext fun a => Fin.ext (by match a with | ⟨0, _⟩ => rfl | ⟨1, _⟩ => rfl | ⟨2, _⟩ => rfl)
  have er : ridx_main_v3 (ix3 b q k) d = ix3 b k d :=
    funext fun a => Fin.ext (by match a with | ⟨0, _⟩ => rfl | ⟨1, _⟩ => rfl | ⟨2, _⟩ => rfl)
  rw [el, er, v0_eq, v1_eq]

/-! ## The mask -/

/-- A number below 2048, as a 32-bit word read signed, is the number. -/
theorem toInt_ofNat_small (n : Nat) (h : n < 2048) : (BitVec.ofNat 32 n).toInt = (n : Int) := by
  have hn : (BitVec.ofNat 32 n).toNat = n := by rw [BitVec.toNat_ofNat]; omega
  rw [BitVec.toInt_eq_toNat_of_lt (by rw [hn]; omega), hn]

/-- The signed comparison "row + 0 ≥ column" of two numbers below 2048 as words is the comparison of the numbers. -/
theorem sge_ofNat (q k : Nat) (hq : q < 2048) (hk : k < 2048) :
    IntOp.cmpi .sge (IntOp.addi (BitVec.ofNat 32 q) 0#32) (BitVec.ofNat 32 k) = if k ≤ q then 1#1 else 0#1 := by
  have e : IntOp.addi (BitVec.ofNat 32 q) 0#32 = BitVec.ofNat 32 q := by
    unfold IntOp.addi; exact BitVec.add_zero _
  rw [e]
  by_cases h : k ≤ q
  · rw [if_pos h, IntOp.cmpi_sge, toInt_ofNat_small q hq, toInt_ofNat_small k hk]; exact_mod_cast h
  · rw [if_neg h]
    refine eq_zero_of_ne_one fun hc => h ?_
    rw [IntOp.cmpi_sge, toInt_ofNat_small q hq, toInt_ofNat_small k hk] at hc; exact_mod_cast hc

/-- The lower-triangular mask, at (q, k), is 1 exactly when column k is at most row q. -/
theorem tril_eq (q k : Fin 2048) :
    val_main_v5 (F := Ideal) (ix2 q k) = if k.val ≤ q.val then 1#1 else 0#1 := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  rw [sge_ofNat q.val k.val q.isLt k.isLt]
  by_cases h : k.val ≤ q.val
  · rw [if_pos h]; exact select_one _ _
  · rw [if_neg h]; exact select_zero _ _

/-! ## The constants -/

/-- The pattern of -∞. -/
theorem ofBits_neg_inf : Ideal.ofBits .f32 0xFF800000#32 = (⊥ : EReal) := by
  simp [Ideal.ofBits, Ideal.ieee]

/-- The pattern of 1024.0 denotes the real 1024. -/
theorem ofBits_1024 : Ideal.ofBits .f32 0x44800000#32 = ((1024 : ℝ) : EReal) := by
  simp [Ideal.ofBits, Ideal.ieee, -EReal.coe_mul]; norm_num

/-- The square root of 1024 is 32, since 32 * 32 = 1024. -/
theorem sqrt_1024 : Ideal.sqrt ((1024 : ℝ) : EReal) = ((32 : ℝ) : EReal) := by
  rw [Ideal.sqrt_coe, if_neg (by norm_num)]
  exact congrArg _ ((Real.sqrt_eq_iff_mul_self_eq (by norm_num) (by norm_num)).mpr (by norm_num))

/-- The divisor, at every index, is the real 32. -/
theorem v8_eq (i : S4x2048x2048.Idx) : val_main_v8 (F := Ideal) i = ((32 : ℝ) : EReal) := by
  rw [val_main_v8_apply, val_main_v7_apply, val_main_cst_0_apply, Ideal.hostUnary_sqrt_def, Ideal.ofBits_def, ofBits_1024,
    sqrt_1024]

/-! ## The masked, scaled scores -/

/-- The masked score, at (b, q, k): the inner product on and below the diagonal, -∞ above it. -/
theorem v6_eq (x0 : A3) (x1 x2 : A2) (b : Fin 4) (q k : Fin 2048) :
    val_main_v6 (F := Ideal) x0 x1 x2 (ix3 b q k)
      = if k.val ≤ q.val then ∑ d : Fin 1024, proj x0 x1 b q d * proj x0 x2 b k d else ⊥ := by
  have e1 : idx_main_call1_v1 (ix3 b q k) = ix2 q k :=
    funext fun a => Fin.ext (by match a with | ⟨0, _⟩ => rfl | ⟨1, _⟩ => rfl)
  rw [val_main_v6_apply, val_main_call1_v1_apply, e1, tril_eq, v3_eq, val_main_call1_v2_apply, val_main_call1_v0_apply,
    val_main_cst_apply, Ideal.ofBits_def, ofBits_neg_inf]
  by_cases h : k.val ≤ q.val
  · rw [if_pos h, if_pos h]; exact select_one _ _
  · rw [if_neg h, if_neg h]; exact select_zero _ _

/-- The scaled score, at (b, q, k), is the score of the direct description. -/
theorem v9_eq (x0 : A3) (x1 x2 : A2) (b : Fin 4) (q k : Fin 2048) :
    val_main_v9 (F := Ideal) x0 x1 x2 (ix3 b q k) = score x0 x1 x2 b q k := by
  rw [val_main_v9_apply, v6_eq, v8_eq, Ideal.hostDivf_def, Ideal.div_coe (by norm_num : (32 : ℝ) ≠ 0)]
  unfold score
  by_cases h : k.val ≤ q.val
  · rw [if_pos h, if_pos h]
  · rw [if_neg h, if_neg h]; exact EReal.bot_mul_coe_of_pos (by norm_num)

/-! ## The row maximum -/

/-- Result index (b, q) of the reduction over the last axis, with k put back on that axis, is (b, q, k). -/
theorem lift_ix3 (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  fin_cases c <;> rfl

/-- The maximum over a row of scaled scores, started from -∞, is the row maximum of the direct description. -/
theorem v10_eq (x0 : A3) (x1 x2 : A2) (b : Fin 4) (q : Fin 2048) :
    val_main_v10 (F := Ideal) x0 x1 x2 (ix2 b q) = rowMax x0 x1 x2 b q := by
  have hy : ∀ k : Fin 2048, val_main_v9 (F := Ideal) x0 x1 x2 (ix3 b q k) = score x0 x1 x2 b q k :=
    fun k => v9_eq x0 x1 x2 b q k
  unfold val_main_v10
  generalize val_main_v9 (F := Ideal) x0 x1 x2 = y at hy ⊢
  have h : S4x2048x2048.Reduces [2] S4x2048 := by decide
  refine (Host.reduce_eq_fold_single (FloatOps.maximumf (F := Ideal) (φ := .f32)) y (val_main_cst_1 (F := Ideal))
    reducesTo_S4x2048x2048_S4x2048_d2 h h_S_ (ix2 b q)).trans ?_
  have hf : (y ∘ h.lift (ix2 b q)) = fun k : Fin 2048 => score x0 x1 x2 b q k :=
    funext fun k => (congrArg y (lift_ix3 h b q k)).trans (hy _)
  have hi : val_main_cst_1 (F := Ideal) (Shape.Idx.first h_S_) = (⊥ : EReal) := by
    rw [val_main_cst_1_apply, Ideal.ofBits_def, ofBits_neg_inf]
  exact congrArg₂ (fun (i : EReal) f => Finset.fold max i f (Finset.univ : Finset (Fin 2048))) hi hf

/-- Taking the maximum with -∞ once more changes nothing. -/
theorem v12_eq (x0 : A3) (x1 x2 : A2) (b : Fin 4) (q : Fin 2048) :
    val_main_v12 (F := Ideal) x0 x1 x2 (ix2 b q) = rowMax x0 x1 x2 b q := by
  rw [val_main_v12_apply, v10_eq, val_main_v11_apply, val_main_cst_2_apply, Ideal.ofBits_def, ofBits_neg_inf,
    Ideal.maximumf_def]
  exact max_bot_left _

/-- The row maximum broadcast along the row. -/
theorem v14_eq (x0 : A3) (x1 x2 : A2) (b : Fin 4) (q k : Fin 2048) :
    val_main_v14 (F := Ideal) x0 x1 x2 (ix3 b q k) = rowMax x0 x1 x2 b q := by
  have e14 : idx_main_v14 (ix3 b q k) = ix3 b q (0 : Fin 1) :=
    funext fun a => Fin.ext (by match a with | ⟨0, _⟩ => rfl | ⟨1, _⟩ => rfl | ⟨2, _⟩ => rfl)
  have e13 : idx_main_v13 (ix3 b q (0 : Fin 1)) = ix2 b q :=
    funext fun a => Fin.ext (by match a with | ⟨0, _⟩ => rfl | ⟨1, _⟩ => rfl)
  rw [val_main_v14_apply, e14, val_main_v13_apply, e13, v12_eq]

/-! ## The exponentials and their row sum -/

/-- The exponential of a scaled score relative to its row maximum. -/
theorem v16_eq (x0 : A3) (x1 x2 : A2) (b : Fin 4) (q k : Fin 2048) :
    val_main_v16 (F := Ideal) x0 x1 x2 (ix3 b q k) = Ideal.exp (score x0 x1 x2 b q k - rowMax x0 x1 x2 b q) := by
  rw [val_main_v16_apply, val_main_v15_apply, v9_eq, v14_eq, Ideal.hostUnary_exp_def, Ideal.subf_def]

/-- The sum over a row of the exponentials, started from 0, is the row sum of the direct description. -/
theorem v17_eq (x0 : A3) (x1 x2 : A2) (b : Fin 4) (q : Fin 2048) :
    val_main_v17 (F := Ideal) x0 x1 x2 (ix2 b q) = rowSum x0 x1 x2 b q := by
  rw [val_main_v17_apply, val_main_cst_3_apply, Ideal.ofBits_def, Ideal.ofBits_zero_f32, zero_add]
  unfold rowSum
  refine Finset.sum_congr rfl fun k _ => ?_
  have e : idx_main_v17 (ix2 b q) k = ix3 b q k :=
    funext fun a => Fin.ext (by match a with | ⟨0, _⟩ => rfl | ⟨1, _⟩ => rfl | ⟨2, _⟩ => rfl)
  rw [e, v16_eq]

/-- The row sum broadcast along the row. -/
theorem v19_eq (x0 : A3) (x1 x2 : A2) (b : Fin 4) (q k : Fin 2048) :
    val_main_v19 (F := Ideal) x0 x1 x2 (ix3 b q k) = rowSum x0 x1 x2 b q := by
  have e19 : idx_main_v19 (ix3 b q k) = ix3 b q (0 : Fin 1) :=
    funext fun a => Fin.ext (by match a with | ⟨0, _⟩ => rfl | ⟨1, _⟩ => rfl | ⟨2, _⟩ => rfl)
  have e18 : idx_main_v18 (ix3 b q (0 : Fin 1)) = ix2 b q :=
    funext fun a => Fin.ext (by match a with | ⟨0, _⟩ => rfl | ⟨1, _⟩ => rfl)
  rw [val_main_v19_apply, e19, val_main_v18_apply, e18, v17_eq]

/-- The softmax weight of key row k for query row q. -/
theorem v20_eq (x0 : A3) (x1 x2 : A2) (b : Fin 4) (q k : Fin 2048) :
    val_main_v20 (F := Ideal) x0 x1 x2 (ix3 b q k)
      = Ideal.div (Ideal.exp (score x0 x1 x2 b q k - rowMax x0 x1 x2 b q)) (rowSum x0 x1 x2 b q) := by
  rw [val_main_v20_apply, v16_eq, v19_eq, Ideal.hostDivf_def]

/-! ## The result -/

/-- The reference's result, read at (b, q, d), is the direct description of the attention output. -/
theorem result_eq (x0 : A3) (x1 x2 x3 : A2) (b : Fin 4) (q : Fin 2048) (d : Fin 1024) :
    Cert.ReferenceIdeal.Read.val_main_v21 (F := Ideal) x0 x1 x2 x3 (Idealize.ShloMosaic.ValueIdx.ix3 b q d)
      = Cert.AttnSpec.softmaxOut x0 x1 x2 x3 b q d := by
  rw [val_main_v21_apply]
  unfold softmaxOut
  refine Finset.sum_congr rfl fun k _ => ?_
  have el : lidx_main_v21 (ix3 b q d) k = ix3 b q k :=
    funext fun a => Fin.ext (by match a with | ⟨0, _⟩ => rfl | ⟨1, _⟩ => rfl | ⟨2, _⟩ => rfl)
  have er : ridx_main_v21 (ix3 b q d) k = ix3 b k d :=
    funext fun a => Fin.ext (by match a with | ⟨0, _⟩ => rfl | ⟨1, _⟩ => rfl | ⟨2, _⟩ => rfl)
  rw [el, er, v20_eq, v2_eq]

end Cert.ReferenceIdeal.RefValue

end
-- ==== Proof.AlgRef.lean ====
/-
  The common result of the two programs: the attention output as one whole-array function of the four argument arrays,
  entry (b, q, d) the value rows of batch b averaged with the softmax weights of query row q.  The reference's run ends
  with its result buffer at that function of its arguments.
-/
import proofs.«159224_j12807592476992_2_alg».proof.Proof.RefSpec
import proofs.«159224_j12807592476992_2_alg».proof.Proof.AttnSpec
import Idealize.ShloMosaic.Lib.ValueIdx

noncomputable section

namespace Cert.Proof.Alg

open Idealize.ShloMosaic Idealize.ShloMosaic.TcCoe Idealize.SL.Sem Idealize.ShloMosaic.ValueIdx Cert.AttnSpec

/-- The attention output as a whole array. -/
def attnOut (x : X) (wq wk wv : W) : (⟨3, ![4, 2048, 1024]⟩ : Shape).Idx → EReal :=
  fun i => softmaxOut x wq wk wv (i 0) (i 1) (i 2)

theorem attnOut_apply (x : X) (wq wk wv : W) (b : Fin 4) (q : Fin 2048) (d : Fin 1024) :
    attnOut x wq wk wv (ix3 b q d) = softmaxOut x wq wk wv b q d := rfl

/-- The reference's result, as its generated run names it, is the attention output of its arguments. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v21 (F := Ideal) m' c
      = attnOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  funext i
  obtain ⟨b, q, d, rfl⟩ : ∃ (b : Fin 4) (q : Fin 2048) (d : Fin 1024), i = ix3 b q d := ⟨i 0, i 1, i 2, eq_ix3 i⟩
  rw [Cert.ReferenceIdeal.Read.val_main_v21_eq]
  exact Cert.ReferenceIdeal.RefValue.result_eq _ _ _ _ b q d

end Cert.Proof.Alg

end
-- ==== Proof.Region0Value.lean ====
/-
  What the projection region leaves in its output array, index by index.

  The body's payload is a matrix product into a zero accumulator: at (a, o) it is the sum over k of the left block at
  (a, k) times the right block at (k, o).  The 32 grid points write the 32 blocks of 256 rows of the output array, each
  the product of the same 256 rows of the left array with the whole right array; row a of the output lies in block
  a / 256, so after the region the output array at (a, o) is the sum over k of the left array at (a, k) times the right
  array at (k, o).
-/
import proofs.«159224_j12807592476992_2_alg».proof.Proof.Region0
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an index -/

/-- Left operand index of the product at output (a, o) and contraction coordinate k: row a. -/
theorem pay1_lhs_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl
/-- and column k. -/
theorem pay1_lhs_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
/-- Right operand index: row k, -/
theorem pay1_rhs_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
/-- column o. -/
theorem pay1_rhs_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl

/-- A product of a 256 × 1024 block and a 1024 × 3072 block into the zero accumulator, at (a, o). -/
theorem matmul0_apply (v0 : FVec Ideal S256x1024 .bf16) (v2 : FVec Ideal S1024x3072 .bf16) (a : Fin 256) (o : Fin 3072) :
    FloatOps.matmul dot_S256x1024_S1024x3072_S256x3072_1_0_0_1_n_n none v0 v2 (constant S256x3072 .f32 0x00000000#32) (ix2 a o)
      = ∑ k : Fin 1024, v0 (ix2 a k) * v2 (ix2 k o) := by
  refine (Ideal.matmul_constant_zero_apply dot_S256x1024_S1024x3072_S256x3072_1_0_0_1_n_n none v0 v2 (ix2 a o)).trans ?_
  rw [← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 a o) ((ValueIdx.contrEquiv1 dot_S256x1024_S1024x3072_S256x3072_1_0_0_1_n_n 1024 rfl rfl).symm k) = ix2 a k :=
    funext fun c => Fin.ext (by
      match c with
      | ⟨0, _⟩ => exact pay1_lhs_0 _ _
      | ⟨1, _⟩ => exact (pay1_lhs_1 _ _).trans hk)
  have er : dot_S256x1024_S1024x3072_S256x3072_1_0_0_1_n_n.rhsIdx (ix2 a o) ((ValueIdx.contrEquiv1 dot_S256x1024_S1024x3072_S256x3072_1_0_0_1_n_n 1024 rfl rfl).symm k) = ix2 k o :=
    funext fun c => Fin.ext (by
      match c with
      | ⟨0, _⟩ => exact (pay1_rhs_0 _ _).trans hk
      | ⟨1, _⟩ => exact pay1_rhs_1 _ _)
  rw [el, er]

/-- The body's payload at (a, o): the inner product of row a of the left block and column o of the right block. -/
theorem k0_pay1_apply (v0 : Vec Ideal S256x1024 .bf16) (v2 : Vec Ideal S1024x3072 .bf16) (a : Fin 256) (o : Fin 3072) :
    Gen.k0_pay1 v0 v2 (ix2 a o) = ∑ k : Fin 1024, v0 (ix2 a k) * v2 (ix2 k o) := by
  unfold Gen.k0_pay1
  rw [shapeCast_self, shapeCast_self]
  exact matmul0_apply v0 v2 a o

/-! ## From the blocks to the output array -/

section Array

variable (V : (c : Dev nD) → (b : Ref sig .tc) → Buf (Elt Ideal) ((c : Thread nD τ).loc b))

theorem hz2 : (![0, 0] : Fin 2 → Nat) = fun _ => 0 := funext fun a => by fin_cases a <;> rfl

/-- The product of an 8192 × 1024 array and a 1024 × 3072 array, index by index. -/
def matProd (L : S8192x1024.Idx → EReal) (R : S1024x3072.Idx → EReal) : S8192x3072.Idx → EReal := fun i =>
  ∑ k : Fin 1024, L (ix2 (⟨(i 0).val, (i 0).isLt⟩ : Fin 8192) k) * R (ix2 k (⟨(i 1).val, (i 1).isLt⟩ : Fin 3072))

/-- The product at (a, o). -/
theorem matProd_apply (L : S8192x1024.Idx → EReal) (R : S1024x3072.Idx → EReal) (a : Fin 8192) (o : Fin 3072) :
    matProd L R (ix2 a o) = ∑ k : Fin 1024, L (ix2 a k) * R (ix2 k o) := rfl

/-- The product of the left and right arrays as the region finds them: what the output array holds after the region. -/
def prod0 (c : Dev nD) : S8192x3072.Idx → EReal := matProd (V c main_v4) (V c main_v2)

/-- The printed index maps, decided over the grid: at point t the left and the output windows hold block (t, 0), the
    right window block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 256 t to 256 t + 255 of the left array. -/
theorem iblk0_0_apply (c : Dev nD) (t : Fin cfg0.N) (a : Fin 256) (k : Fin 1024) (r : Fin 8192)
    (hr : r.val = t.val * 256 + a.val) :
    (iblk0 V c 0 t : Vec Ideal S256x1024 .bf16) (ix2 a k) = (V c main_v4 : S8192x1024.Idx → EReal) (ix2 r k) := by
  obtain ⟨e0, e1, -⟩ := idx_facts0 t
  unfold iblk0
  rw [View.read_apply]
  show V c main_v4 _ = V c main_v4 _
  congr 1
  funext d; apply Fin.ext
  match d with
  | ⟨0, _⟩ => show win0_0.index t 0 * 256 + 1 * a.val = r.val; rw [e0, hr]; omega
  | ⟨1, _⟩ => show win0_0.index t 1 * 1024 + 1 * k.val = k.val; rw [e1]; omega

/-- The right window's block at every point is the whole right array. -/
theorem iblk0_1_apply (c : Dev nD) (t : Fin cfg0.N) (k : Fin 1024) (o : Fin 3072) :
    (iblk0 V c 1 t : Vec Ideal S1024x3072 .bf16) (ix2 k o) = (V c main_v2 : S1024x3072.Idx → EReal) (ix2 k o) := by
  obtain ⟨-, -, e0, e1, -⟩ := idx_facts0 t
  unfold iblk0
  rw [View.read_apply]
  show V c main_v2 _ = V c main_v2 _
  congr 1
  funext d; apply Fin.ext
  match d with
  | ⟨0, _⟩ => show win0_1.index t 0 * 1024 + 1 * k.val = k.val; rw [e0]; omega
  | ⟨1, _⟩ => show win0_1.index t 1 * 3072 + 1 * o.val = o.val; rw [e1]; omega

/-- What point t writes back is block t of the product of the two arrays. -/
theorem flushed0_2_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz2]
  simp only [View.ld_unit_zero (S := S256x1024) hz2, View.ld_unit_zero (S := S1024x3072) hz2]
  obtain ⟨-, -, -, -, e20, e21⟩ := idx_facts0 t
  have hN : cfg0.N = 32 := N_0
  have ht : t.val < 32 := hN ▸ t.isLt
  funext j
  have hj0 : (j 0).val < 256 := (j 0).isLt
  have hj1 : (j 1).val < 3072 := (j 1).isLt
  have hx : (cfg0.win 2).xinj (grid0.coords t) j = ix2 (⟨(j 0).val, hj0⟩ : Fin 256) (⟨(j 1).val, hj1⟩ : Fin 3072) :=
    funext fun d => Fin.ext (by match d with | ⟨0, _⟩ => rfl | ⟨1, _⟩ => rfl)
  have hy : ((cfg0.win 2).blk t).view.emb j
      = ix2 (⟨t.val * 256 + (j 0).val, by omega⟩ : Fin 8192) (⟨(j 1).val, hj1⟩ : Fin 3072) :=
    funext fun d => Fin.ext (by
      match d with
      | ⟨0, _⟩ => show win0_2.index t 0 * 256 + 1 * (j 0).val = t.val * 256 + (j 0).val; rw [e20]; omega
      | ⟨1, _⟩ => show win0_2.index t 1 * 3072 + 1 * (j 1).val = (j 1).val; rw [e21]; omega)
  show k0_pay1 (iblk0 V c 0 t) (iblk0 V c 1 t) ((cfg0.win 2).xinj (grid0.coords t) j)
    = prod0 V c (((cfg0.win 2).blk t).view.emb j)
  rw [hx, hy]
  refine (k0_pay1_apply _ _ _ _).trans ?_
  unfold prod0
  rw [matProd_apply]
  refine Finset.sum_congr rfl fun k _ => ?_
  rw [iblk0_0_apply V c t ⟨(j 0).val, hj0⟩ k ⟨t.val * 256 + (j 0).val, by omega⟩ rfl,
    iblk0_1_apply V c t k ⟨(j 1).val, hj1⟩]

/-- An index of the output array is in point t's block iff each coordinate is in the block's range on its axis. -/
theorem mem_blk0_2 (t : Fin cfg0.N) (i : S8192x3072.Idx) :
    i ∈ ((cfg0.win 2).blk t).view.set
      ↔ ∀ a : Fin 2, win0_2.index t a * S256x3072.size a ≤ (i a).val
          ∧ (i a).val < win0_2.index t a * S256x3072.size a + S256x3072.size a := by
  show i ∈ ((View.whole main_v5).slice (win0_2.rect t)).set ↔ _
  rw [View.set_slice_whole, Rect.mem_set_unit]
  exact Iff.rfl

/-- Every index of the output array lies in the block of a point that writes back: row a in block a / 256. -/
theorem cover0_2_arr (i : S8192x3072.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 3072 := (i 1).isLt
  obtain ⟨t, ht⟩ : ∃ t : Fin cfg0.N, t.val = (i 0).val / 256 := ⟨⟨(i 0).val / 256, by rw [hN]; omega⟩, rfl⟩
  obtain ⟨-, -, -, -, e20, e21⟩ := idx_facts0 t
  refine ⟨t, flush0_2 t, ?_⟩
  rw [mem_blk0_2]
  intro a
  match a with
  | ⟨0, _⟩ =>
    show win0_2.index t 0 * 256 ≤ (i 0).val ∧ (i 0).val < win0_2.index t 0 * 256 + 256
    rw [e20, ht]; omega
  | ⟨1, _⟩ =>
    show win0_2.index t 1 * 3072 ≤ (i 1).val ∧ (i 1).val < win0_2.index t 1 * 3072 + 3072
    rw [e21]; omega

/-- After the region the output array is the product of the left and right arrays as the region found them. -/
theorem final0_2 (c : Dev nD) : (dat0 (F := Ideal) V c).arrAt 2 cfg0.N = prod0 V c :=
  (dat0 V c).arrAt_eq_of_cover 2 (prod0 V c) (fun t _ => flushed0_2_eq V c t) cover0_2_arr

/-- The output array after the region at (a, o), with the two input arrays named as plain arrays. -/
theorem arrAt0_2_apply (c : Dev nD) (L : S8192x1024.Idx → EReal) (R : S1024x3072.Idx → EReal)
    (hL : V c main_v4 = L) (hR : V c main_v2 = R) (a : Fin 8192) (o : Fin 3072) :
    ((dat0 (F := Ideal) V c).arrAt 2 cfg0.N : S8192x3072.Idx → EReal) (ix2 a o) = ∑ k : Fin 1024, L (ix2 a k) * R (ix2 k o) := by
  rw [final0_2]
  unfold prod0
  rw [hL, hR, matProd_apply]

end Array

end Cert.KernelIdeal.Hand

end
-- ==== Proof.HostLayout.lean ====
/-
  The host's layout operations around the projection kernel, read at an index.

  Before the first kernel the program stacks the three 1024 × 1024 weight matrices on top of each other (3072 × 1024),
  transposes the stack (1024 × 3072) and converts it; it flattens the input from 4 × 2048 × 1024 to 8192 × 1024 and
  converts it.  After the kernel it folds the 8192 × 3072 product back to 4 × 2048 × 3072.  At the ideal values a
  conversion is the identity.  Column o of the transposed stack is row o of the first matrix below 1024, row o - 1024
  of the second below 2048, row o - 2048 of the third from there on; row a of the flattened input is row
  (a / 2048, a mod 2048) of the input; entry (b, s, o) of the folded product is entry (2048 b + s, o) of the product.
  So the product of the flattened input and the transposed stack at (2048 b + s, 1024 j + e) is the projection of input
  row (b, s) by row e of the j-th weight matrix.
-/
import proofs.«159224_j12807592476992_2_alg».proof.KernelIdeal
import proofs.«159224_j12807592476992_2_alg».proof.Proof.AttnSpec
import Idealize.ShloMosaic.Lib.Pipeline.Value
import Idealize.ShloMosaic.Lib.ValueLayout
import Idealize.ShloMosaic.Lib.ValueIdx

noncomputable section

open scoped BigOperators

namespace Cert.KernelIdeal.HostVal

open Cert.KernelIdeal Idealize.ShloMosaic Idealize.ShloMosaic.ValueIdx Cert.AttnSpec

/-! ## The stacked, transposed weights -/

/-- The three weight matrices stacked along the rows, transposed and converted, as the program's first three host
    operations compute it. -/
def wcat (hc : Shape.Concatenates [S1024x1024, S1024x1024, S1024x1024] S3072x1024 0)
    (ht : S3072x1024.Transposes [1, 0] S1024x3072) (hb : FTy.bits .bf16 < FTy.bits .f32)
    (wq wk wv : FVec Ideal S1024x1024 .f32) : FVec Ideal S1024x3072 .bf16 :=
  truncf .bf16 (transpose S1024x3072 [1, 0]
    (concatenate S3072x1024 0 [⟨S1024x1024, wq⟩, ⟨S1024x1024, wk⟩, ⟨S1024x1024, wv⟩] hc) ht) hb

section Wcat

variable (hc : Shape.Concatenates [S1024x1024, S1024x1024, S1024x1024] S3072x1024 0)
  (ht : S3072x1024.Transposes [1, 0] S1024x3072) (hb : FTy.bits .bf16 < FTy.bits .f32)
  (wq wk wv : FVec Ideal S1024x1024 .f32)

/-- Entry (k, o) of the transposed stack is entry (o, k) of the stack. -/
theorem wcat_eq_stack (k : Fin 1024) (o : Fin 3072) :
    wcat hc ht hb wq wk wv (ix2 k o)
      = concatenate S3072x1024 0 [⟨S1024x1024, wq⟩, ⟨S1024x1024, wk⟩, ⟨S1024x1024, wv⟩] hc (ix2 o k) := by
  unfold wcat
  refine (truncf_apply _ hb (ix2 k o)).trans ?_
  exact transpose_apply [1, 0] _ ht (ix2 k o) (ix2 o k) (fun b => match b with | ⟨0, _⟩ => rfl | ⟨1, _⟩ => rfl)

/-- Below column 1024: the first matrix. -/
theorem wcat_apply_q (k e : Fin 1024) (o : Fin 3072) (ho : o.val = e.val) :
    wcat hc ht hb wq wk wv (ix2 k o) = wq (ix2 e k) := by
  rw [wcat_eq_stack]
  refine concatenate_apply_piece (t := S3072x1024) 0 ([⟨S1024x1024, wq⟩, ⟨S1024x1024, wk⟩, ⟨S1024x1024, wv⟩] : List ((s : Shape) × (s.Idx → Ideal .f32))) hc (ix2 o k) 0
    (by show 0 < 3; omega) S1024x1024 wq rfl rfl 0 rfl (ix2 e k) ?_ ?_
  · intro b hb'
    match b with
    | ⟨0, _⟩ => exact absurd rfl hb'
    | ⟨1, _⟩ => rfl
  · show 0 + e.val = o.val
    omega

/-- From column 1024 to 2047: the second matrix. -/
theorem wcat_apply_k (k e : Fin 1024) (o : Fin 3072) (ho : o.val = 1024 + e.val) :
    wcat hc ht hb wq wk wv (ix2 k o) = wk (ix2 e k) := by
  rw [wcat_eq_stack]
  refine concatenate_apply_piece (t := S3072x1024) 0 ([⟨S1024x1024, wq⟩, ⟨S1024x1024, wk⟩, ⟨S1024x1024, wv⟩] : List ((s : Shape) × (s.Idx → Ideal .f32))) hc (ix2 o k) 1
    (by show 1 < 3; omega) S1024x1024 wk rfl rfl 1024 rfl (ix2 e k) ?_ ?_
  · intro b hb'
    match b with
    | ⟨0, _⟩ => exact absurd rfl hb'
    | ⟨1, _⟩ => rfl
  · show 1024 + e.val = o.val
    omega

/-- From column 2048 on: the third matrix. -/
theorem wcat_apply_v (k e : Fin 1024) (o : Fin 3072) (ho : o.val = 2048 + e.val) :
    wcat hc ht hb wq wk wv (ix2 k o) = wv (ix2 e k) := by
  rw [wcat_eq_stack]
  refine concatenate_apply_piece (t := S3072x1024) 0 ([⟨S1024x1024, wq⟩, ⟨S1024x1024, wk⟩, ⟨S1024x1024, wv⟩] : List ((s : Shape) × (s.Idx → Ideal .f32))) hc (ix2 o k) 2
    (by show 2 < 3; omega) S1024x1024 wv rfl rfl 2048 rfl (ix2 e k) ?_ ?_
  · intro b hb'
    match b with
    | ⟨0, _⟩ => exact absurd rfl hb'
    | ⟨1, _⟩ => rfl
  · show 2048 + e.val = o.val
    omega

/-- The three cases in one statement. -/
theorem wcat_apply (k : Fin 1024) (o : Fin 3072) :
    wcat hc ht hb wq wk wv (ix2 k o)
      = if h1 : o.val < 1024 then wq (ix2 (⟨o.val, h1⟩ : Fin 1024) k)
        else if h2 : o.val < 2048 then wk (ix2 (⟨o.val - 1024, by omega⟩ : Fin 1024) k)
        else wv (ix2 (⟨o.val - 2048, by have := o.isLt; omega⟩ : Fin 1024) k) := by
  by_cases h1 : o.val < 1024
  · rw [dif_pos h1]; exact wcat_apply_q hc ht hb wq wk wv k ⟨o.val, h1⟩ o rfl
  · rw [dif_neg h1]
    by_cases h2 : o.val < 2048
    · rw [dif_pos h2]; exact wcat_apply_k hc ht hb wq wk wv k ⟨o.val - 1024, by omega⟩ o (by show o.val = 1024 + (o.val - 1024); omega)
    · rw [dif_neg h2]
      exact wcat_apply_v hc ht hb wq wk wv k ⟨o.val - 2048, by have := o.isLt; omega⟩ o
        (by show o.val = 2048 + (o.val - 2048); omega)

end Wcat

/-! ## The flattened input -/

/-- The input flattened to 8192 rows and converted, as the program's fourth and fifth host operations compute it. -/
def xflat (hs : S4x2048x1024.ShapeCasts S8192x1024) (hb : FTy.bits .bf16 < FTy.bits .f32)
    (x : FVec Ideal S4x2048x1024 .f32) : FVec Ideal S8192x1024 .bf16 :=
  truncf .bf16 (shapeCast S8192x1024 x hs) hb

/-- Row 2048 b + s of the flattened input is row (b, s) of the input. -/
theorem xflat_apply_of_eq (hs : S4x2048x1024.ShapeCasts S8192x1024) (hb : FTy.bits .bf16 < FTy.bits .f32)
    (x : FVec Ideal S4x2048x1024 .f32) (a : Fin 8192) (k : Fin 1024) (b : Fin 4) (s : Fin 2048)
    (ha : a.val = b.val * 2048 + s.val) :
    xflat hs hb x (ix2 a k) = x (ix3 b s k) := by
  unfold xflat
  refine (truncf_apply _ hb (ix2 a k)).trans ?_
  refine shapeCast_apply x hs (ix2 a k) (ix3 b s k) ?_
  rw [Shape.rowMajor_val_three, Shape.rowMajor_val_two]
  show (b.val * 2048 + s.val) * 1024 + k.val = a.val * 1024 + k.val
  rw [ha]

/-- Row a of the flattened input is row (a / 2048, a mod 2048) of the input. -/
theorem xflat_apply (hs : S4x2048x1024.ShapeCasts S8192x1024) (hb : FTy.bits .bf16 < FTy.bits .f32)
    (x : FVec Ideal S4x2048x1024 .f32) (a : Fin 8192) (k : Fin 1024) :
    xflat hs hb x (ix2 a k)
      = x (ix3 (⟨a.val / 2048, by have := a.isLt; omega⟩ : Fin 4) (⟨a.val % 2048, by omega⟩ : Fin 2048) k) :=
  xflat_apply_of_eq hs hb x a k _ _ (by show a.val = a.val / 2048 * 2048 + a.val % 2048; omega)

/-! ## The folded product -/

/-- Entry (b, s, o) of the 8192 × 3072 array folded to 4 × 2048 × 3072 is entry (2048 b + s, o). -/
theorem qkv_reshape_apply_of_eq {α : Type} (hs : S8192x3072.ShapeCasts S4x2048x3072) (y : S8192x3072.Idx → α)
    (b : Fin 4) (s : Fin 2048) (o : Fin 3072) (a : Fin 8192) (ha : a.val = b.val * 2048 + s.val) :
    shapeCast S4x2048x3072 y hs (ix3 b s o) = y (ix2 a o) := by
  refine shapeCast_apply y hs (ix3 b s o) (ix2 a o) ?_
  rw [Shape.rowMajor_val_three, Shape.rowMajor_val_two]
  show a.val * 3072 + o.val = (b.val * 2048 + s.val) * 3072 + o.val
  rw [ha]

/-- The same with the row spelt out. -/
theorem qkv_reshape_apply {α : Type} (hs : S8192x3072.ShapeCasts S4x2048x3072) (y : S8192x3072.Idx → α)
    (b : Fin 4) (s : Fin 2048) (o : Fin 3072) :
    shapeCast S4x2048x3072 y hs (ix3 b s o)
      = y (ix2 (⟨b.val * 2048 + s.val, by have := b.isLt; have := s.isLt; omega⟩ : Fin 8192) o) :=
  qkv_reshape_apply_of_eq hs y b s o _ rfl

/-! ## The product of the two is the three projections side by side -/

section Proj

variable (hc : Shape.Concatenates [S1024x1024, S1024x1024, S1024x1024] S3072x1024 0)
  (ht : S3072x1024.Transposes [1, 0] S1024x3072) (hb : FTy.bits .bf16 < FTy.bits .f32)
  (hs : S4x2048x1024.ShapeCasts S8192x1024)
  (x : FVec Ideal S4x2048x1024 .f32) (wq wk wv : FVec Ideal S1024x1024 .f32)

/-- Columns 0 to 1023 of the product: the projection by the first weight matrix. -/
theorem prod_proj_q (b : Fin 4) (s : Fin 2048) (e : Fin 1024) (a : Fin 8192) (o : Fin 3072)
    (ha : a.val = b.val * 2048 + s.val) (ho : o.val = e.val) :
    ∑ k : Fin 1024, xflat hs hb x (ix2 a k) * wcat hc ht hb wq wk wv (ix2 k o) = proj x wq b s e := by
  unfold proj
  refine Finset.sum_congr rfl fun k _ => ?_
  rw [xflat_apply_of_eq hs hb x a k b s ha, wcat_apply_q hc ht hb wq wk wv k e o ho]

/-- Columns 1024 to 2047: the projection by the second weight matrix. -/
theorem prod_proj_k (b : Fin 4) (s : Fin 2048) (e : Fin 1024) (a : Fin 8192) (o : Fin 3072)
    (ha : a.val = b.val * 2048 + s.val) (ho : o.val = 1024 + e.val) :
    ∑ k : Fin 1024, xflat hs hb x (ix2 a k) * wcat hc ht hb wq wk wv (ix2 k o) = proj x wk b s e := by
  unfold proj
  refine Finset.sum_congr rfl fun k _ => ?_
  rw [xflat_apply_of_eq hs hb x a k b s ha, wcat_apply_k hc ht hb wq wk wv k e o ho]

/-- Columns 2048 to 3071: the projection by the third weight matrix. -/
theorem prod_proj_v (b : Fin 4) (s : Fin 2048) (e : Fin 1024) (a : Fin 8192) (o : Fin 3072)
    (ha : a.val = b.val * 2048 + s.val) (ho : o.val = 2048 + e.val) :
    ∑ k : Fin 1024, xflat hs hb x (ix2 a k) * wcat hc ht hb wq wk wv (ix2 k o) = proj x wv b s e := by
  unfold proj
  refine Finset.sum_congr rfl fun k _ => ?_
  rw [xflat_apply_of_eq hs hb x a k b s ha, wcat_apply_v hc ht hb wq wk wv k e o ho]

/-- The three at once: column 1024 j + e of the product is the projection by the j-th weight matrix, named w. -/
theorem prod_proj (b : Fin 4) (s : Fin 2048) (j : Fin 3) (e : Fin 1024) (a : Fin 8192) (o : Fin 3072)
    (w : FVec Ideal S1024x1024 .f32) (hw : (j.val = 0 ∧ w = wq) ∨ (j.val = 1 ∧ w = wk) ∨ (j.val = 2 ∧ w = wv))
    (ha : a.val = b.val * 2048 + s.val) (ho : o.val = j.val * 1024 + e.val) :
    ∑ k : Fin 1024, xflat hs hb x (ix2 a k) * wcat hc ht hb wq wk wv (ix2 k o) = proj x w b s e := by
  rcases hw with ⟨hj, rfl⟩ | ⟨hj, rfl⟩ | ⟨hj, rfl⟩
  · exact prod_proj_q hc ht hb hs x _ _ _ b s e a o ha (by omega)
  · exact prod_proj_k hc ht hb hs x _ _ _ b s e a o ha (by omega)
  · exact prod_proj_v hc ht hb hs x _ _ _ b s e a o ha (by omega)

end Proj

end Cert.KernelIdeal.HostVal

end
-- ==== Proof.HostValues.lean ====
/-
  What the attention region's input array holds, in terms of the program's arguments, at the ideal values.

  Before the projection region the host flattens the input x (4 × 2048 × 1024) to 8192 rows and stacks and transposes
  the three weight matrices (1024 × 3072); the projection region leaves in its output array the product of the two
  (8192 × 3072); the host folds that product to 4 × 2048 × 3072, and this is the array the attention region's three
  input windows read.  Reading each step at an index: entry (b, s, o) of the folded array is entry (2048 b + s, o) of
  the product, which is the sum over k of x (b, s, k) times column o of the transposed stack at row k, and column
  1024 j + e of the transposed stack is row e of the j-th weight matrix.  So the array holds, at (b, s), the three
  projections of input row (b, s) side by side: by the first weight matrix in columns 0 to 1023, by the second in
  columns 1024 to 2047, by the third in columns 2048 to 3071.
-/
import proofs.«159224_j12807592476992_2_alg».proof.Proof.Run
import proofs.«159224_j12807592476992_2_alg».proof.Proof.Region0Value
import proofs.«159224_j12807592476992_2_alg».proof.Proof.HostLayout
import proofs.«159224_j12807592476992_2_alg».proof.Proof.AttnSpec

set_option maxRecDepth 16384

noncomputable section

open scoped BigOperators

namespace Cert.KernelIdeal.Hand

open Cert.KernelIdeal Cert.KernelIdeal.Gen Cert.KernelIdeal.HostVal
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The left array of the projection region: the input flattened to 8192 rows. -/
theorem V1_main_v4 (c : Dev nD) :
    (V1 (F := Ideal) m ρ c main_v4 : S8192x1024.Idx → EReal)
      = xflat shapeCasts_S4x2048x1024_S8192x1024 bitsLt_bf16_f32 (m ((c : Thread nD τ).loc main_arg0)) := by
  show StableHlo.after hostOps0 (fun b => m (c, b)) (Proc.devRef .tc main_v4) = _
  after_results
  rfl

/-- The right array of the projection region: the three weight matrices stacked and transposed. -/
theorem V1_main_v2 (c : Dev nD) :
    (V1 (F := Ideal) m ρ c main_v2 : S1024x3072.Idx → EReal)
      = wcat concatenates_S1024x1024_S1024x1024_S1024x1024_S3072x1024_d0 transposes_S3072x1024_S1024x3072_1_0 bitsLt_bf16_f32
          (m ((c : Thread nD τ).loc main_arg1)) (m ((c : Thread nD τ).loc main_arg2)) (m ((c : Thread nD τ).loc main_arg3)) := by
  show StableHlo.after hostOps0 (fun b => m (c, b)) (Proc.devRef .tc main_v2) = _
  after_results
  rfl

/-- The attention region's input array: the projection region's output array folded to 4 × 2048 × 3072. -/
theorem V3_main_v6 (c : Dev nD) :
    (V3 (F := Ideal) m ρ c main_v6 : S4x2048x3072.Idx → EReal)
      = shapeCast S4x2048x3072 (W2 (F := Ideal) m ρ c (Proc.devRef .tc main_v5) : S8192x3072.Idx → EReal) shapeCasts_S8192x3072_S4x2048x3072 := by
  show StableHlo.after hostOps1 (W2 m ρ c) (Proc.devRef .tc main_v6) = _
  after_results
  rfl

/-- The projection region's output array after the region: the product of its two input arrays as it found them. -/
theorem W2_main_v5 (c : Dev nD) :
    (W2 (F := Ideal) m ρ c (Proc.devRef .tc main_v5) : S8192x3072.Idx → EReal) = prod0 (V1 (F := Ideal) m ρ) c :=
  (W2_arr m ρ c 2).trans (final0_2 (V1 m ρ) c)

/-- Entry (b, s, o) of the attention region's input array: row 2048 b + s of the flattened input against column o of
    the stacked, transposed weights. -/
theorem qkv_at (c : Dev nD) (b : Fin 4) (s : Fin 2048) (o : Fin 3072) (a : Fin 8192) (ha : a.val = b.val * 2048 + s.val) :
    (V3 (F := Ideal) m ρ c main_v6 : S4x2048x3072.Idx → EReal) (ix3 b s o)
      = ∑ k : Fin 1024,
          xflat shapeCasts_S4x2048x1024_S8192x1024 bitsLt_bf16_f32 (m ((c : Thread nD τ).loc main_arg0)) (ix2 a k)
            * wcat concatenates_S1024x1024_S1024x1024_S1024x1024_S3072x1024_d0 transposes_S3072x1024_S1024x3072_1_0 bitsLt_bf16_f32
                (m ((c : Thread nD τ).loc main_arg1)) (m ((c : Thread nD τ).loc main_arg2)) (m ((c : Thread nD τ).loc main_arg3)) (ix2 k o) := by
  rw [V3_main_v6 m ρ c, W2_main_v5 m ρ c, qkv_reshape_apply_of_eq shapeCasts_S8192x3072_S4x2048x3072 _ b s o a ha]
  unfold prod0
  rw [matProd_apply, V1_main_v4 m ρ c, V1_main_v2 m ρ c]

/-- THE ATTENTION REGION'S INPUT ARRAY IN TERMS OF THE ARGUMENTS: at (b, s), columns 0 to 1023 hold the projection of
    input row (b, s) by the first weight matrix, columns 1024 to 2047 by the second, columns 2048 to 3071 by the third. -/
theorem qkv_eq (c : Dev nD) (b : Fin 4) (s : Fin 2048) (e : Fin 1024) :
    (V3 (F := Ideal) m ρ c main_v6 : S4x2048x3072.Idx → EReal) (ix3 b s (⟨e.val, by omega⟩ : Fin 3072))
        = AttnSpec.proj (m ((c : Thread nD τ).loc main_arg0)) (m ((c : Thread nD τ).loc main_arg1)) b s e
    ∧ (V3 (F := Ideal) m ρ c main_v6 : S4x2048x3072.Idx → EReal) (ix3 b s (⟨1024 + e.val, by omega⟩ : Fin 3072))
        = AttnSpec.proj (m ((c : Thread nD τ).loc main_arg0)) (m ((c : Thread nD τ).loc main_arg2)) b s e
    ∧ (V3 (F := Ideal) m ρ c main_v6 : S4x2048x3072.Idx → EReal) (ix3 b s (⟨2048 + e.val, by omega⟩ : Fin 3072))
        = AttnSpec.proj (m ((c : Thread nD τ).loc main_arg0)) (m ((c : Thread nD τ).loc main_arg3)) b s e := by
  have ha : (⟨b.val * 2048 + s.val, by omega⟩ : Fin 8192).val = b.val * 2048 + s.val := rfl
  refine ⟨?_, ?_, ?_⟩
  · rw [qkv_at m ρ c b s _ _ ha]
    exact prod_proj_q _ _ _ _ _ _ _ _ b s e _ _ ha rfl
  · rw [qkv_at m ρ c b s _ _ ha]
    exact prod_proj_k _ _ _ _ _ _ _ _ b s e _ _ ha rfl
  · rw [qkv_at m ρ c b s _ _ ha]
    exact prod_proj_v _ _ _ _ _ _ _ _ b s e _ _ ha rfl

end Cert.KernelIdeal.Hand

end
-- ==== Proof.LibReals.lean ====
/-
  GENERAL LEMMAS: arrays of extended reals whose every entry is a real number.

  On the extended reals multiplication distributes over addition only away from the infinities, so the
  identities that move a per-column scale across a sum are proved on real numbers.  `IsReal v` says every
  entry of `v` is the image of a real; the lemmas below say the arithmetic operations keep that property
  and give the real each result is the image of; a finite sum of reals, a host gather of a real array and an
  accumulating host scatter of real arrays are real.
-/
import Idealize.ShloMosaic.PureOps.Ideal
import Idealize.ShloMosaic.PureOps.Ideal.Laws

noncomputable section

namespace Cert.Reals

open Idealize.ShloMosaic

/-- Every entry of `v` is a real number. -/
def IsReal {ι : Type} (v : ι → EReal) : Prop := ∀ i, ∃ r : ℝ, v i = (r : EReal)

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of the larger of two reals is the larger of the images. -/
theorem coe_max (a b : ℝ) : ((max a b : ℝ) : EReal) = max (a : EReal) (b : EReal) :=
  (EReal.coe_strictMono.monotone).map_max

/-- The reciprocal square root of a positive real is the real `(√r)⁻¹`. -/
theorem rsqrt_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A finite sum of extended reals that are all reals is a real. -/
theorem sum_isReal {ι : Type} (s : Finset ι) (f : ι → EReal) (hf : ∀ j, ∃ r : ℝ, f j = (r : EReal)) :
    ∃ r : ℝ, ∑ j ∈ s, f j = (r : EReal) := by
  choose g hg using hf
  exact ⟨∑ j ∈ s, g j, by rw [coe_sum]; exact Finset.sum_congr rfl fun j _ => hg j⟩

/-- Every entry of a gathered array is an entry of the operand. -/
theorem gather_isReal {s si t : Shape} {w : Nat} (d : GatherDims s si t) (x : s.Idx → EReal) (idx : IVec si w)
    (hx : IsReal x) : IsReal (Host.gather d x idx) :=
  fun _ => hx _

/-- An accumulating scatter of real updates into a real operand is real: each entry is the operand's plus a finite
    sum of updates. -/
theorem scatterAdd_isReal {s si su : Shape} {w : Nat} (d : ScatterDims s si su) (z : FVec Ideal s .f32) (idx : IVec si w)
    (upd : FVec Ideal su .f32) (hz : IsReal z) (hu : IsReal upd) : IsReal (Host.scatterAdd d z idx upd) := by
  intro i
  unfold Host.scatterAdd
  rw [Ideal.hostScatterAdd_def]
  unfold Ideal.hostScatterAdd
  obtain ⟨r0, h0⟩ := hz i
  obtain ⟨r, hr⟩ := sum_isReal (Finset.univ.filter fun j => d.resultIdx? j idx = some i) upd hu
  exact ⟨r0 + r, by rw [h0, hr, EReal.coe_add]⟩

end Cert.Reals

end
-- ==== Proof.LibOnlineSoftmax.lean ====
/-
  GENERAL LEMMAS: the algebra of the blockwise ("online") softmax on the extended reals.

  A softmax-weighted average  (∑ₖ exp (zₖ - M) vₖ) / (∑ₖ exp (zₖ - M))  can be accumulated block by block without
  knowing the final reference point M in advance: keep a reference point m, a sum l of exponentials relative to m and a
  weighted sum acc relative to m, and whenever the reference point moves from m to m' multiply l and acc by
  exp (m - m') before adding the next block's terms, which are taken relative to m'.  Everything rests on

      exp (a - b) * exp (z - a) = exp (z - b)        (a, b real; z real or -∞, where exp (-∞) = 0),

  which turns a sum relative to a into the same sum relative to b.  The scores z are extended reals that are never +∞
  (a masked score is -∞); the reference points that matter and the weights v are real.  On the extended reals
  multiplication distributes over addition only away from the infinities, so every distributive step below is made on
  real numbers: each exponential is first shown to be the image of a real, the identity is proved there, and the
  coercion is pushed back out.

  Contents: the exponential of a shifted score is a nonnegative real (exp_sub_coe_real) and is zero for a masked score
  (exp_bot_sub); the shift identity (exp_shift) and its summed form (rescale_sum_mul, rescale_sum); the block-by-block
  invariant for arbitrary recurrences of the above shape (online_weighted_sum, online_sum); the sum of the exponentials
  is a positive real as soon as one score is real (sum_exp_pos); a quotient of two finite sums is the sum of the
  quotients (div_sum_mul, softmax_div); and when finite suprema and maxima of scores are real (sup_ne_top, sup_ne_bot,
  exists_real_of_ne).
-/
import Idealize.ShloMosaic.PureOps.Ideal
import Mathlib.Algebra.BigOperators.Ring.Finset
import Mathlib.Algebra.BigOperators.Group.Finset.Sigma
import Mathlib.Algebra.Order.BigOperators.Group.Finset
import Mathlib.Data.Finset.Lattice.Fold

noncomputable section

open scoped BigOperators

namespace Cert.OnlineSoftmax

open Idealize.ShloMosaic

/-! ## Reals inside the extended reals -/

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither +∞ nor -∞ is the image of a real. -/
theorem exists_real_of_ne {z : EReal} (ht : z ≠ ⊤) (hb : z ≠ ⊥) : ∃ r : ℝ, z = (r : EReal) :=
  ⟨z.toReal, (EReal.coe_toReal ht hb).symm⟩

/-- An extended real that is not +∞ is -∞ or the image of a real. -/
theorem bot_or_real_of_ne_top {z : EReal} (ht : z ≠ ⊤) : z = ⊥ ∨ ∃ r : ℝ, z = (r : EReal) := by
  by_cases hb : z = ⊥
  · exact Or.inl hb
  · exact Or.inr (exists_real_of_ne ht hb)

/-- A finite supremum of extended reals none of which is +∞ is not +∞. -/
theorem sup_ne_top {ι : Type} (s : Finset ι) (z : ι → EReal) (hz : ∀ i ∈ s, z i ≠ ⊤) : s.sup z ≠ ⊤ := by
  refine ne_of_lt ?_
  rw [Finset.sup_lt_iff (by exact bot_lt_top)]
  exact fun i hi => lt_top_iff_ne_top.mpr (hz i hi)

/-- A finite supremum of extended reals one of which is not -∞ is not -∞. -/
theorem sup_ne_bot {ι : Type} (s : Finset ι) (z : ι → EReal) {i : ι} (hi : i ∈ s) (hz : z i ≠ ⊥) : s.sup z ≠ ⊥ :=
  fun h => hz (le_bot_iff.mp (h ▸ Finset.le_sup (f := z) hi))

/-- The larger of a real and an extended real that is not +∞ is a real. -/
theorem max_coe_real (a : ℝ) {y : EReal} (hy : y ≠ ⊤) : ∃ r : ℝ, max (a : EReal) y = (r : EReal) := by
  refine exists_real_of_ne (ne_of_lt (max_lt (EReal.coe_lt_top a) (lt_top_iff_ne_top.mpr hy))) ?_
  exact ne_of_gt (lt_of_lt_of_le (EReal.bot_lt_coe a) (le_max_left _ _))

/-! ## Exponentials of shifted scores -/

/-- A masked score contributes nothing: exp (-∞ - y) = 0 whatever y is. -/
theorem exp_bot_sub (y : EReal) : Ideal.exp (⊥ - y) = 0 := by
  rw [EReal.bot_sub, Ideal.exp_bot]

/-- The exponential of a score that is not +∞, taken relative to a real reference point, is a nonnegative real, and
    a positive one when the score is real. -/
theorem exp_sub_coe_real {z : EReal} (hz : z ≠ ⊤) (a : ℝ) :
    ∃ e : ℝ, 0 ≤ e ∧ (z ≠ ⊥ → 0 < e) ∧ Ideal.exp (z - (a : EReal)) = (e : EReal) := by
  rcases bot_or_real_of_ne_top hz with rfl | ⟨r, rfl⟩
  · exact ⟨0, le_rfl, fun h => absurd rfl h, by rw [exp_bot_sub, EReal.coe_zero]⟩
  · exact ⟨Real.exp (r - a), (Real.exp_pos _).le, fun _ => Real.exp_pos _, by rw [← EReal.coe_sub, Ideal.exp_coe]⟩

/-- The shift identity: exp (a - b) * exp (z - a) = exp (z - b) for real a and b and a score z that is not +∞
    (for z = -∞ both sides are 0). -/
theorem exp_shift (a b : ℝ) {z : EReal} (hz : z ≠ ⊤) :
    Ideal.exp ((a : EReal) - (b : EReal)) * Ideal.exp (z - (a : EReal)) = Ideal.exp (z - (b : EReal)) := by
  rcases bot_or_real_of_ne_top hz with rfl | ⟨r, rfl⟩
  · rw [exp_bot_sub, exp_bot_sub, mul_zero]
  · rw [← EReal.coe_sub, ← EReal.coe_sub, ← EReal.coe_sub, Ideal.exp_coe, Ideal.exp_coe, Ideal.exp_coe,
      ← EReal.coe_mul, ← Real.exp_add]
    congr 2
    ring

/-- The summed shift identity with weights: a sum of weighted exponentials relative to a, multiplied by exp (a - b),
    is the same sum relative to b.  The scores are not +∞ and the weights are real. -/
theorem rescale_sum_mul {ι : Type} (s : Finset ι) (z v : ι → EReal) (hz : ∀ i, z i ≠ ⊤)
    (hv : ∀ i, ∃ r : ℝ, v i = (r : EReal)) (a b : ℝ) :
    Ideal.exp ((a : EReal) - (b : EReal)) * ∑ i ∈ s, Ideal.exp (z i - (a : EReal)) * v i
      = ∑ i ∈ s, Ideal.exp (z i - (b : EReal)) * v i := by
  choose e _ _ he using fun i => exp_sub_coe_real (hz i) a
  choose w hw using hv
  have hs : ∑ i ∈ s, Ideal.exp (z i - (a : EReal)) * v i = ((∑ i ∈ s, e i * w i : ℝ) : EReal) := by
    rw [coe_sum]
    exact Finset.sum_congr rfl fun i _ => by rw [he, hw, EReal.coe_mul]
  rw [hs, ← EReal.coe_sub, Ideal.exp_coe, ← EReal.coe_mul, Finset.mul_sum, coe_sum]
  refine Finset.sum_congr rfl fun i _ => ?_
  rw [← exp_shift a b (hz i), he, hw, ← EReal.coe_sub, Ideal.exp_coe, ← EReal.coe_mul, ← EReal.coe_mul, mul_assoc]

/-- The summed shift identity: a sum of exponentials relative to a, multiplied by exp (a - b), is the same sum
    relative to b. -/
theorem rescale_sum {ι : Type} (s : Finset ι) (z : ι → EReal) (hz : ∀ i, z i ≠ ⊤) (a b : ℝ) :
    Ideal.exp ((a : EReal) - (b : EReal)) * ∑ i ∈ s, Ideal.exp (z i - (a : EReal))
      = ∑ i ∈ s, Ideal.exp (z i - (b : EReal)) := by
  have h := rescale_sum_mul s z (fun _ => ((1 : ℝ) : EReal)) hz (fun _ => ⟨1, rfl⟩) a b
  simpa only [EReal.coe_one, mul_one] using h

/-! ## The block-by-block invariant -/

/-- The invariant of the blockwise weighted sum.  Block j has scores z j c (never +∞) and real weights v j c, for c
    in a finite type; m is any sequence of reference points that are real from the first block on; acc starts at 0
    and after each block is rescaled by exp (m j - m (j + 1)) before the block's terms relative to m (j + 1) are
    added.  Then acc j is the sum over the first j blocks of the weighted exponentials relative to m j.  (m 0 is
    unconstrained: it only ever multiplies acc 0 = 0.) -/
theorem online_weighted_sum {κ : Type} [Fintype κ] (z v : ℕ → κ → EReal) (m acc : ℕ → EReal)
    (hz : ∀ j c, z j c ≠ ⊤) (hv : ∀ j c, ∃ r : ℝ, v j c = (r : EReal)) (hm : ∀ j, ∃ r : ℝ, m (j + 1) = (r : EReal))
    (h0 : acc 0 = 0)
    (hstep : ∀ j, acc (j + 1) = Ideal.exp (m j - m (j + 1)) * acc j + ∑ c, Ideal.exp (z j c - m (j + 1)) * v j c)
    (j : ℕ) : acc j = ∑ i ∈ Finset.range j, ∑ c, Ideal.exp (z i c - m j) * v i c := by
  induction j with
  | zero => rw [h0, Finset.range_zero, Finset.sum_empty]
  | succ j ih =>
    rw [hstep j, Finset.sum_range_succ]
    congr 1
    rcases j with _ | j
    · rw [h0, mul_zero, Finset.range_zero, Finset.sum_empty]
    · obtain ⟨a, ha⟩ := hm j
      obtain ⟨b, hb⟩ := hm (j + 1)
      rw [ih, ha, hb]
      have h := rescale_sum_mul (Finset.range (j + 1) ×ˢ (Finset.univ : Finset κ)) (fun p => z p.1 p.2)
        (fun p => v p.1 p.2) (fun p => hz p.1 p.2) (fun p => hv p.1 p.2) a b
      rw [Finset.sum_product' (f := fun i c => Ideal.exp (z i c - (a : EReal)) * v i c),
        Finset.sum_product' (f := fun i c => Ideal.exp (z i c - (b : EReal)) * v i c)] at h
      exact h

/-- The invariant of the blockwise sum of exponentials: the previous lemma with every weight 1. -/
theorem online_sum {κ : Type} [Fintype κ] (z : ℕ → κ → EReal) (m l : ℕ → EReal)
    (hz : ∀ j c, z j c ≠ ⊤) (hm : ∀ j, ∃ r : ℝ, m (j + 1) = (r : EReal)) (h0 : l 0 = 0)
    (hstep : ∀ j, l (j + 1) = Ideal.exp (m j - m (j + 1)) * l j + ∑ c, Ideal.exp (z j c - m (j + 1)))
    (j : ℕ) : l j = ∑ i ∈ Finset.range j, ∑ c, Ideal.exp (z i c - m j) := by
  have h := online_weighted_sum z (fun _ _ => ((1 : ℝ) : EReal)) m l hz (fun _ _ => ⟨1, rfl⟩) hm h0
    (fun j => by simpa only [EReal.coe_one, mul_one] using hstep j) j
  simpa only [EReal.coe_one, mul_one] using h

/-! ## The final quotient -/

/-- The sum of the exponentials of scores relative to a real reference point is a positive real as soon as one score
    is real. -/
theorem sum_exp_pos {ι : Type} (s : Finset ι) (z : ι → EReal) (hz : ∀ i, z i ≠ ⊤) {i₀ : ι} (hi₀ : i₀ ∈ s)
    (h₀ : z i₀ ≠ ⊥) (a : ℝ) : ∃ L : ℝ, 0 < L ∧ ∑ i ∈ s, Ideal.exp (z i - (a : EReal)) = (L : EReal) := by
  choose e he0 hepos he using fun i => exp_sub_coe_real (hz i) a
  refine ⟨∑ i ∈ s, e i, ?_, ?_⟩
  · exact Finset.sum_pos' (fun i _ => he0 i) ⟨i₀, hi₀, hepos i₀ h₀⟩
  · rw [coe_sum]
    exact Finset.sum_congr rfl fun i _ => he i

/-- A quotient of a finite weighted sum by a nonzero real is the weighted sum of the quotients, all terms real. -/
theorem div_sum_mul {ι : Type} (s : Finset ι) (e w : ι → ℝ) {L : ℝ} (hL : L ≠ 0) :
    Ideal.div (∑ i ∈ s, (e i : EReal) * (w i : EReal)) (L : EReal)
      = ∑ i ∈ s, Ideal.div (e i : EReal) (L : EReal) * (w i : EReal) := by
  rw [Ideal.div_coe hL]
  have hl : ∑ i ∈ s, (e i : EReal) * (w i : EReal) = ((∑ i ∈ s, e i * w i : ℝ) : EReal) := by
    rw [coe_sum]
    exact Finset.sum_congr rfl fun i _ => by rw [EReal.coe_mul]
  have hr : ∑ i ∈ s, Ideal.div (e i : EReal) (L : EReal) * (w i : EReal)
      = ((∑ i ∈ s, e i * (1 / L) * w i : ℝ) : EReal) := by
    rw [coe_sum]
    exact Finset.sum_congr rfl fun i _ => by rw [Ideal.div_coe hL, EReal.coe_mul, EReal.coe_mul]
  rw [hl, hr, ← EReal.coe_mul, Finset.sum_mul]
  congr 1
  exact Finset.sum_congr rfl fun i _ => by ring

/-- The softmax quotient: the weighted sum of exponentials divided by the sum of exponentials is the sum of the
    normalized exponentials times the weights.  The scores are not +∞, one of them is real, the weights and the
    reference point are real. -/
theorem softmax_div {ι : Type} (s : Finset ι) (z v : ι → EReal) (hz : ∀ i, z i ≠ ⊤)
    (hv : ∀ i, ∃ r : ℝ, v i = (r : EReal)) {i₀ : ι} (hi₀ : i₀ ∈ s) (h₀ : z i₀ ≠ ⊥) (a : ℝ) :
    Ideal.div (∑ i ∈ s, Ideal.exp (z i - (a : EReal)) * v i) (∑ i ∈ s, Ideal.exp (z i - (a : EReal)))
      = ∑ i ∈ s, Ideal.div (Ideal.exp (z i - (a : EReal))) (∑ k ∈ s, Ideal.exp (z k - (a : EReal))) * v i := by
  obtain ⟨L, hLpos, hL⟩ := sum_exp_pos s z hz hi₀ h₀ a
  choose e _ _ he using fun i => exp_sub_coe_real (hz i) a
  choose w hw using hv
  rw [hL]
  have h := div_sum_mul s e w hLpos.ne'
  have hl : ∑ i ∈ s, Ideal.exp (z i - (a : EReal)) * v i = ∑ i ∈ s, (e i : EReal) * (w i : EReal) :=
    Finset.sum_congr rfl fun i _ => by rw [he, hw]
  rw [hl, h]
  exact Finset.sum_congr rfl fun i _ => by rw [he, hw]

end Cert.OnlineSoftmax

end
-- ==== Proof.FlashEq.lean ====
/-
  The blockwise description of causal attention equals the direct one when every input entry is a real number.

  Fix a batch b and a query row q = 512 qi + r.  With real inputs every projected entry is a real, so the score of q
  against key row k is a real for k ≤ q and -∞ for k > q; in particular it is never +∞ and it is real at k = 0.

  1. The running maximum after one or more key blocks is a real (block 0 contains key row 0), and after blocks 0 to qi
     it is the row maximum: every running maximum is a maximum of scores of the row, and every score of the row is
     either -∞ or sits in one of the blocks 0 to qi.
  2. By the block-by-block invariant of the online softmax, the running sum and the running weighted sum after blocks
     0 to qi are the sums over those blocks of the exponentials relative to the final running maximum.
  3. The key rows of blocks qi + 1 to 3 lie above the diagonal, where the exponential of the score is 0; so these
     sums are the sums over all 2048 key rows, cut into four blocks of 512.
  4. The row sum is a positive real, so the quotient of the two sums is the sum of the quotients.
-/
import proofs.«159224_j12807592476992_2_alg».proof.Proof.AttnSpec
import proofs.«159224_j12807592476992_2_alg».proof.Proof.LibReals
import proofs.«159224_j12807592476992_2_alg».proof.Proof.LibOnlineSoftmax

noncomputable section

open scoped BigOperators

namespace Cert.AttnSpec

open Idealize.ShloMosaic Idealize.ShloMosaic.ValueIdx

/-! ## Real inputs give real projections and real-or-masked scores -/

/-- A projected entry of real data is a real. -/
theorem proj_real (x : X) (w : W) (hx : Cert.Reals.IsReal x) (hw : Cert.Reals.IsReal w) (b : Fin 4) (s : Fin 2048)
    (o : Fin 1024) : ∃ p : ℝ, proj x w b s o = (p : EReal) := by
  unfold proj
  refine Cert.Reals.sum_isReal Finset.univ _ fun i => ?_
  obtain ⟨p, hp⟩ := hx (ix3 b s i)
  obtain ⟨p', hp'⟩ := hw (ix2 o i)
  exact ⟨p * p', by rw [hp, hp', EReal.coe_mul]⟩

/-- On and below the diagonal the score is a real. -/
theorem score_of_le (x : X) (wq wk : W) (hx : Cert.Reals.IsReal x) (hq : Cert.Reals.IsReal wq)
    (hk : Cert.Reals.IsReal wk) (b : Fin 4) {q k : Fin 2048} (h : k.val ≤ q.val) :
    ∃ s : ℝ, score x wq wk b q k = (s : EReal) := by
  obtain ⟨s, hs⟩ : ∃ s : ℝ, ∑ d : Fin 1024, proj x wq b q d * proj x wk b k d = (s : EReal) := by
    refine Cert.Reals.sum_isReal Finset.univ _ fun d => ?_
    obtain ⟨p, hp⟩ := proj_real x wq hx hq b q d
    obtain ⟨p', hp'⟩ := proj_real x wk hx hk b k d
    exact ⟨p * p', by rw [hp, hp', EReal.coe_mul]⟩
  refine ⟨s * (1 / 32), ?_⟩
  unfold score
  rw [if_pos h, hs, EReal.coe_mul]

/-- Above the diagonal the score is -∞. -/
theorem score_of_lt (x : X) (wq wk : W) (b : Fin 4) {q k : Fin 2048} (h : q.val < k.val) :
    score x wq wk b q k = ⊥ := by
  unfold score
  rw [if_neg (not_le.mpr h)]

/-- A score is never +∞. -/
theorem score_ne_top (x : X) (wq wk : W) (hx : Cert.Reals.IsReal x) (hq : Cert.Reals.IsReal wq)
    (hk : Cert.Reals.IsReal wk) (b : Fin 4) (q k : Fin 2048) : score x wq wk b q k ≠ ⊤ := by
  by_cases h : k.val ≤ q.val
  · obtain ⟨s, hs⟩ := score_of_le x wq wk hx hq hk b h
    rw [hs]
    exact EReal.coe_ne_top s
  · rw [score_of_lt x wq wk b (not_le.mp h)]
    exact bot_ne_top

/-- The score against key row 0 is not -∞: row 0 is on or below the diagonal of every query row. -/
theorem score_zero_ne_bot (x : X) (wq wk : W) (hx : Cert.Reals.IsReal x) (hq : Cert.Reals.IsReal wq)
    (hk : Cert.Reals.IsReal wk) (b : Fin 4) (q : Fin 2048) : score x wq wk b q ⟨0, by norm_num⟩ ≠ ⊥ := by
  obtain ⟨s, hs⟩ := score_of_le x wq wk hx hq hk b (q := q) (k := ⟨0, by norm_num⟩) (Nat.zero_le _)
  rw [hs]
  exact EReal.coe_ne_bot s

/-! ## Cutting the 2048 key rows into four blocks of 512 -/

/-- Key row k is column k mod 512 of block k div 512. -/
def blockEquiv : Fin 4 × Fin 512 ≃ Fin 2048 where
  toFun p := kRow p.1.val p.2
  invFun k := (⟨k.val / 512, by have := k.isLt; omega⟩, ⟨k.val % 512, Nat.mod_lt _ (by norm_num)⟩)
  left_inv p := by
    rcases p with ⟨i, c⟩
    have hi := i.isLt
    have hc := c.isLt
    apply Prod.ext <;> apply Fin.ext
    · show (i.val % 4 * 512 + c.val) / 512 = i.val
      omega
    · show (i.val % 4 * 512 + c.val) % 512 = c.val
      omega
  right_inv k := by
    have := k.isLt
    apply Fin.ext
    show k.val / 512 % 4 * 512 + k.val % 512 = k.val
    omega

/-- A sum over the 2048 key rows is the sum over the four blocks of the sums over their 512 columns. -/
theorem sum_blocks (g : Fin 2048 → EReal) :
    ∑ k, g k = ∑ i ∈ Finset.range 4, ∑ c : Fin 512, g (kRow i c) :=
  calc ∑ k, g k = ∑ p : Fin 4 × Fin 512, g (blockEquiv p) :=
        (Fintype.sum_equiv blockEquiv _ _ fun _ => rfl).symm
    _ = ∑ i : Fin 4, ∑ c : Fin 512, g (kRow i.val c) :=
        Fintype.sum_prod_type' (fun (i : Fin 4) (c : Fin 512) => g (kRow i.val c))
    _ = ∑ i ∈ Finset.range 4, ∑ c : Fin 512, g (kRow i c) :=
        (Finset.sum_range (fun i => ∑ c : Fin 512, g (kRow i c))).symm

/-- For a summand that vanishes above the diagonal of query row 512 qi + r, the sum over blocks 0 to qi is the sum
    over all key rows: the rows of the later blocks are all above the diagonal. -/
theorem sum_blocks_causal (qi : Fin 4) (r : Fin 512) (g : Fin 2048 → EReal)
    (hg : ∀ k : Fin 2048, (qRow qi r).val < k.val → g k = 0) :
    ∑ i ∈ Finset.range (qi.val + 1), ∑ c : Fin 512, g (kRow i c) = ∑ k, g k := by
  rw [sum_blocks]
  have hqi := qi.isLt
  refine Finset.sum_subset (fun i hi => ?_) (fun i hi hni => ?_)
  · rw [Finset.mem_range] at hi ⊢
    omega
  · rw [Finset.mem_range] at hi hni
    refine Finset.sum_eq_zero fun c _ => hg _ ?_
    have hr := r.isLt
    show qi.val * 512 + r.val < i % 4 * 512 + c.val
    omega

/-! ## The running maximum -/

section Flash

variable (x : X) (wq wk : W) (b : Fin 4) (qi : Fin 4) (r : Fin 512)

/-- The running maximum after one more block: the larger of the previous one and the block's largest score. -/
theorem flashM_succ (j : ℕ) :
    flashM x wq wk b qi r (j + 1)
      = max (flashM x wq wk b qi r j) (Finset.univ.sup fun c : Fin 512 => blockScore x wq wk b qi r j c) := rfl

/-- The running maximum does not decrease. -/
theorem flashM_mono : Monotone (flashM x wq wk b qi r) :=
  monotone_nat_of_le_succ fun j => by
    rw [flashM_succ]
    exact le_max_left _ _

/-- Every running maximum is at most the row maximum: it is a maximum of scores of the row. -/
theorem flashM_le_rowMax : ∀ j : ℕ, flashM x wq wk b qi r j ≤ rowMax x wq wk b (qRow qi r)
  | 0 => bot_le
  | j + 1 => by
    rw [flashM_succ]
    exact max_le (flashM_le_rowMax j) (Finset.sup_le fun c _ =>
      Finset.le_sup (f := fun k : Fin 2048 => score x wq wk b (qRow qi r) k) (Finset.mem_univ (kRow j c)))

/-- The row maximum is at most the running maximum after blocks 0 to qi: a score of the row is -∞ above the
    diagonal, and otherwise belongs to one of those blocks. -/
theorem rowMax_le_flashM : rowMax x wq wk b (qRow qi r) ≤ flashM x wq wk b qi r (qi.val + 1) := by
  unfold rowMax
  refine Finset.sup_le fun k _ => ?_
  by_cases h : k.val ≤ (qRow qi r).val
  · have hk := k.isLt
    have hr := r.isLt
    have hq : (qRow qi r).val = qi.val * 512 + r.val := rfl
    have hkrow : k = kRow (k.val / 512) ⟨k.val % 512, Nat.mod_lt _ (by norm_num)⟩ := by
      apply Fin.ext
      show k.val = k.val / 512 % 4 * 512 + k.val % 512
      omega
    have hj : k.val / 512 + 1 ≤ qi.val + 1 := by omega
    calc score x wq wk b (qRow qi r) k
        = blockScore x wq wk b qi r (k.val / 512) ⟨k.val % 512, Nat.mod_lt _ (by norm_num)⟩ :=
          congrArg (score x wq wk b (qRow qi r)) hkrow
      _ ≤ Finset.univ.sup fun c : Fin 512 => blockScore x wq wk b qi r (k.val / 512) c :=
          Finset.le_sup (f := fun c : Fin 512 => blockScore x wq wk b qi r (k.val / 512) c) (Finset.mem_univ _)
      _ ≤ flashM x wq wk b qi r (k.val / 512 + 1) := by
          rw [flashM_succ]
          exact le_max_right _ _
      _ ≤ flashM x wq wk b qi r (qi.val + 1) := flashM_mono x wq wk b qi r hj
  · rw [score_of_lt x wq wk b (not_le.mp h)]
    exact bot_le

/-- After blocks 0 to qi the running maximum is the row maximum. -/
theorem rowMax_eq_flashM : rowMax x wq wk b (qRow qi r) = flashM x wq wk b qi r (qi.val + 1) :=
  le_antisymm (rowMax_le_flashM x wq wk b qi r) (flashM_le_rowMax x wq wk b qi r _)

/-- With real inputs the running maximum after one or more blocks is a real: no score is +∞, and block 0 holds key
    row 0, whose score is real. -/
theorem flashM_succ_real (hx : Cert.Reals.IsReal x) (hq : Cert.Reals.IsReal wq) (hk : Cert.Reals.IsReal wk) :
    ∀ j : ℕ, ∃ a : ℝ, flashM x wq wk b qi r (j + 1) = (a : EReal)
  | 0 => by
    rw [flashM_succ]
    have h0 : flashM x wq wk b qi r 0 = ⊥ := rfl
    rw [h0, max_eq_right bot_le]
    refine Cert.OnlineSoftmax.exists_real_of_ne
      (Cert.OnlineSoftmax.sup_ne_top _ _ fun c _ => score_ne_top x wq wk hx hq hk b _ _)
      (Cert.OnlineSoftmax.sup_ne_bot _ _ (Finset.mem_univ (⟨0, by norm_num⟩ : Fin 512)) ?_)
    exact score_zero_ne_bot x wq wk hx hq hk b (qRow qi r)
  | j + 1 => by
    obtain ⟨a, ha⟩ := flashM_succ_real hx hq hk j
    rw [flashM_succ, ha]
    exact Cert.OnlineSoftmax.max_coe_real a
      (Cert.OnlineSoftmax.sup_ne_top _ _ fun c _ => score_ne_top x wq wk hx hq hk b _ _)

end Flash

/-! ## The two descriptions agree -/

theorem flashOut_eq_softmaxOut (x : X) (wq wk wv : W)
    (hx : Cert.Reals.IsReal x) (hq : Cert.Reals.IsReal wq) (hk : Cert.Reals.IsReal wk) (hv : Cert.Reals.IsReal wv)
    (b : Fin 4) (qi : Fin 4) (r : Fin 512) (d : Fin 1024) :
    flashOut x wq wk wv b qi r d = softmaxOut x wq wk wv b (qRow qi r) d := by
  have hzt : ∀ k : Fin 2048, score x wq wk b (qRow qi r) k ≠ ⊤ := fun k => score_ne_top x wq wk hx hq hk b _ k
  have hbt : ∀ (j : ℕ) (c : Fin 512), blockScore x wq wk b qi r j c ≠ ⊤ :=
    fun j c => score_ne_top x wq wk hx hq hk b _ _
  have hmr := flashM_succ_real x wq wk b qi r hx hq hk
  obtain ⟨a, ha⟩ := hmr qi.val
  -- the running sums after blocks 0 to qi are the sums over all key rows, relative to the final maximum
  have hL : flashL x wq wk b qi r (qi.val + 1)
      = ∑ k : Fin 2048, Ideal.exp (score x wq wk b (qRow qi r) k - (a : EReal)) := by
    rw [Cert.OnlineSoftmax.online_sum (blockScore x wq wk b qi r) (flashM x wq wk b qi r) (flashL x wq wk b qi r)
      hbt hmr rfl (fun _ => rfl) (qi.val + 1), ha]
    exact sum_blocks_causal qi r (fun k => Ideal.exp (score x wq wk b (qRow qi r) k - (a : EReal)))
      fun k hk' => by rw [score_of_lt x wq wk b hk', Cert.OnlineSoftmax.exp_bot_sub]
  have hA : flashAcc x wq wk wv b qi r d (qi.val + 1)
      = ∑ k : Fin 2048, Ideal.exp (score x wq wk b (qRow qi r) k - (a : EReal)) * proj x wv b k d := by
    rw [Cert.OnlineSoftmax.online_weighted_sum (blockScore x wq wk b qi r) (fun j c => proj x wv b (kRow j c) d)
      (flashM x wq wk b qi r) (flashAcc x wq wk wv b qi r d) hbt (fun j c => proj_real x wv hx hv b _ d) hmr rfl
      (fun _ => rfl) (qi.val + 1), ha]
    exact sum_blocks_causal qi r
      (fun k => Ideal.exp (score x wq wk b (qRow qi r) k - (a : EReal)) * proj x wv b k d)
      fun k hk' => by rw [score_of_lt x wq wk b hk', Cert.OnlineSoftmax.exp_bot_sub, zero_mul]
  unfold flashOut softmaxOut rowSum
  rw [hL, hA, rowMax_eq_flashM, ha]
  exact Cert.OnlineSoftmax.softmax_div Finset.univ (fun k => score x wq wk b (qRow qi r) k)
    (fun k => proj x wv b k d) hzt (fun k => proj_real x wv hx hv b k d) (Finset.mem_univ ⟨0, by norm_num⟩)
    (score_zero_ne_bot x wq wk hx hq hk b (qRow qi r)) a

end Cert.AttnSpec

end
-- ==== Proof.PreReal.lean ====
/-
  From the precondition to real-valuedness.

  The precondition says of each of the four argument arrays that every entry's absolute value is below +∞, as one
  conjunction of four "all entries" reductions.  An extended real whose absolute value max x (-x) is below +∞ is neither
  -∞ (whose negation is +∞) nor +∞, so it is a real number.
-/
import proofs.«159224_j12807592476992_2_alg».proof.Proof.Gen.Pre_finite_inputs
import proofs.«159224_j12807592476992_2_alg».proof.Proof.LibReals
import Idealize.ShloMosaic.Lib.ReduceAll
import Idealize.ShloMosaic.Lib.Pipeline.Value
import Idealize.ShloMosaic.Lib.ValueIdx

noncomputable section

namespace Cert.PreReal

open Idealize.ShloMosaic Cert.Pre_finite_inputs

/-- The empty shape has one index. -/
instance subsingleton_scalar_idx : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern of +∞. -/
theorem ofBits_pos_inf : Ideal.ofBits .f32 0x7F800000#32 = (⊤ : EReal) := by
  simp [Ideal.ofBits, Ideal.ieee]

/-- An entry that passes the test "absolute value below the broadcast +∞" is a real number. -/
theorem elem_real {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) := by
  have hv : broadcastInDim s ![] hb (constant (F := Ideal) S_ .f32 0x7F800000#32) i = (⊤ : EReal) := by
    rw [broadcastInDim_apply _ hb _ i ValueIdx.ix0 (fun a => a.elim0)]
    exact ofBits_pos_inf
  have hc : Ideal.cmp .olt (max (a i) (-(a i)))
      (broadcastInDim s ![] hb (constant (F := Ideal) S_ .f32 0x7F800000#32) i) = 1#1 := h
  rw [hv] at hc
  refine real_of_abs_lt_top _ ?_
  by_contra hn
  have hc' : BitVec.ofBool (decide (max (a i) (-(a i)) < (⊤ : EReal))) = 1#1 := hc
  rw [decide_eq_false hn] at hc'
  exact absurd hc' (by decide)

/-- Under the precondition every entry of every argument array is a real number. -/
theorem args_real [Cert.Pre_finite_inputs.Facts]
    (a0 : FVec Ideal ⟨3, ![4, 2048, 1024]⟩ .f32) (a1 a2 a3 : FVec Ideal ⟨2, ![1024, 1024]⟩ .f32)
    (h : Cert.Pre_finite_inputs.fn (F := Ideal) a0 a1 a2 a3 = fun _ => 1#1) :
    Cert.Reals.IsReal a0 ∧ Cert.Reals.IsReal a1 ∧ Cert.Reals.IsReal a2 ∧ Cert.Reals.IsReal a3 := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => elem_real _ a0 i (Host.reduce_andi_all _ _ _ _ _ h0' i),
    fun i => elem_real _ a1 i (Host.reduce_andi_all _ _ _ _ _ h1 i),
    fun i => elem_real _ a2 i (Host.reduce_andi_all _ _ _ _ _ h2 i),
    fun i => elem_real _ a3 i (Host.reduce_andi_all _ _ _ _ _ h3 i)⟩

end Cert.PreReal

end
-- ==== Proof.Region1Pieces.lean ====
/-
  What each case of the attention kernel's body leaves, as arithmetic on the input blocks and the state before it.  A
  visit of a key block replaces the running maximum m, the running sum l and the running weighted sum acc by
      m' = max (m, the row maxima of the block's masked scores),
      l' = exp (m - m') · l + the row sums of exp (scores - m'),
      acc' = exp (m - m') · acc + exp (scores - m') times the value block,
  a reset starts them from -∞, 0 and 0, and the write on the diagonal stores acc' / l'.  Every store in the body covers its
  whole buffer, so what a buffer holds afterwards is the last store's payload, and a load that follows a store reads that
  payload.
-/
import proofs.«159224_j12807592476992_2_alg».proof.Proof.Region1State
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := by funext a; fin_cases a <;> rfl
theorem hz3 : (![0, 0, 0] : Fin 3 → Nat) = fun _ => 0 := by funext a; fin_cases a <;> rfl

/-- A load through the whole rectangle of what a LAST store through it left reads that store's payload, whatever was
    stored before. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A whole scratch buffer holding an array reads back as that array. -/
theorem rdS0 (h : (scM1_0 : Memref sig .tc .vmem S512x1 .f32).IsWhole) (x : Vec F S512x1 .f32) :
    View.read (Elt F) (View.whole cc1_scratch0) (h.unread x) = x := h.read_unread x
theorem rdS1 (h : (scM1_1 : Memref sig .tc .vmem S512x1 .f32).IsWhole) (x : Vec F S512x1 .f32) :
    View.read (Elt F) (View.whole cc1_scratch1) (h.unread x) = x := h.read_unread x
theorem rdS2 (h : (scM1_2 : Memref sig .tc .vmem S512x1024 .f32).IsWhole) (x : Vec F S512x1024 .f32) :
    View.read (Elt F) (View.whole cc1_scratch2) (h.unread x) = x := h.read_unread x

/-- A visit's new running maximum. -/
def visitM (a1 a2 : BitVec 32) (x0 x1 : Vec F S1x512x1024 .bf16) (m : Vec F S512x1 .f32) : Vec F S512x1 .f32 :=
  k1_pay6 (k1_pay10 a1 a2 x0 x1 m)
/-- A visit's new running sum. -/
def visitL (a1 a2 : BitVec 32) (x0 x1 : Vec F S1x512x1024 .bf16) (m l : Vec F S512x1 .f32) : Vec F S512x1 .f32 :=
  k1_pay4 (k1_pay13 a1 a2 x0 x1 m m l)
/-- A visit's new running weighted sum. -/
def visitAcc (a1 a2 : BitVec 32) (x0 x1 x2 : Vec F S1x512x1024 .bf16) (m : Vec F S512x1 .f32) (acc : Vec F S512x1024 .f32) : Vec F S512x1024 .f32 :=
  k1_pay5 (k1_pay8 x2) (k1_pay11 a1 a2 x0 x1 m m) (k1_pay12 a1 a2 x0 x1 m) acc

theorem stepA_m (c : Dev nD) (t : Fin cfg1.N) (hc0 : cond1_0 (grid1.coords t)) (hc1 : cond1_1 (grid1.coords t)) (hc2 : cond1_2 (grid1.coords t)) (s : St F) :
    (stepA V c t hc0 hc1 hc2 s).m = visitM (BitVec.ofNat 32 (grid1.coords t 1).val) (BitVec.ofNat 32 (grid1.coords t 2).val) (iblk1 V c 0 t) (iblk1 V c 1 t) k1_pay1 := by
  unfold stepA ; (try unfold visitM); (try unfold visitL); (try unfold visitAcc); dsimp only
  rw [View.read_writes_junk_eq_canon]
  unfold kernelRun1_A; dsimp only; sl_unfold_words
  rw [View.canon_cons_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepA_l (c : Dev nD) (t : Fin cfg1.N) (hc0 : cond1_0 (grid1.coords t)) (hc1 : cond1_1 (grid1.coords t)) (hc2 : cond1_2 (grid1.coords t)) (s : St F) :
    (stepA V c t hc0 hc1 hc2 s).l = visitL (BitVec.ofNat 32 (grid1.coords t 1).val) (BitVec.ofNat 32 (grid1.coords t 2).val) (iblk1 V c 0 t) (iblk1 V c 1 t) k1_pay1 k1_pay2 := by
  unfold stepA ; (try unfold visitM); (try unfold visitL); (try unfold visitAcc); dsimp only
  rw [View.read_writes_junk_eq_canon]
  unfold kernelRun1_A; dsimp only; sl_unfold_words
  rw [View.canon_cons_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepA_acc (c : Dev nD) (t : Fin cfg1.N) (hc0 : cond1_0 (grid1.coords t)) (hc1 : cond1_1 (grid1.coords t)) (hc2 : cond1_2 (grid1.coords t)) (s : St F) :
    (stepA V c t hc0 hc1 hc2 s).acc = visitAcc (BitVec.ofNat 32 (grid1.coords t 1).val) (BitVec.ofNat 32 (grid1.coords t 2).val) (iblk1 V c 0 t) (iblk1 V c 1 t) (iblk1 V c 2 t) k1_pay1 k1_pay3 := by
  unfold stepA ; (try unfold visitM); (try unfold visitL); (try unfold visitAcc); dsimp only
  rw [View.read_writes_junk_eq_canon]
  unfold kernelRun1_A; dsimp only; sl_unfold_words
  rw [View.canon_cons_unit_zero (S := S512x1024) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepA_out (c : Dev nD) (t : Fin cfg1.N) (hc0 : cond1_0 (grid1.coords t)) (hc1 : cond1_1 (grid1.coords t)) (hc2 : cond1_2 (grid1.coords t)) (s : St F) :
    (stepA V c t hc0 hc1 hc2 s).out = k1_pay7 (visitAcc (BitVec.ofNat 32 (grid1.coords t 1).val) (BitVec.ofNat 32 (grid1.coords t 2).val) (iblk1 V c 0 t) (iblk1 V c 1 t) (iblk1 V c 2 t) k1_pay1 k1_pay3) (visitL (BitVec.ofNat 32 (grid1.coords t 1).val) (BitVec.ofNat 32 (grid1.coords t 2).val) (iblk1 V c 0 t) (iblk1 V c 1 t) k1_pay1 k1_pay2) := by
  unfold stepA ; (try unfold visitM); (try unfold visitL); (try unfold visitAcc); dsimp only
  rw [View.read_writes_junk_eq_canon]
  unfold kernelRun1_A; dsimp only; sl_unfold_words
  rw [View.canon_unit_zero (S := S1x512x1024) hz3]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepB_m (c : Dev nD) (t : Fin cfg1.N) (hc0 : cond1_0 (grid1.coords t)) (hc1 : cond1_1 (grid1.coords t)) (hc2 : ¬cond1_2 (grid1.coords t)) (s : St F) :
    (stepB V c t hc0 hc1 hc2 s).m = visitM (BitVec.ofNat 32 (grid1.coords t 1).val) (BitVec.ofNat 32 (grid1.coords t 2).val) (iblk1 V c 0 t) (iblk1 V c 1 t) k1_pay1 := by
  unfold stepB ; (try unfold visitM); (try unfold visitL); (try unfold visitAcc); dsimp only
  rw [View.read_writes_junk_eq_canon]
  unfold kernelRun1_B; dsimp only; sl_unfold_words
  rw [View.canon_cons_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepB_l (c : Dev nD) (t : Fin cfg1.N) (hc0 : cond1_0 (grid1.coords t)) (hc1 : cond1_1 (grid1.coords t)) (hc2 : ¬cond1_2 (grid1.coords t)) (s : St F) :
    (stepB V c t hc0 hc1 hc2 s).l = visitL (BitVec.ofNat 32 (grid1.coords t 1).val) (BitVec.ofNat 32 (grid1.coords t 2).val) (iblk1 V c 0 t) (iblk1 V c 1 t) k1_pay1 k1_pay2 := by
  unfold stepB ; (try unfold visitM); (try unfold visitL); (try unfold visitAcc); dsimp only
  rw [View.read_writes_junk_eq_canon]
  unfold kernelRun1_B; dsimp only; sl_unfold_words
  rw [View.canon_cons_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepB_acc (c : Dev nD) (t : Fin cfg1.N) (hc0 : cond1_0 (grid1.coords t)) (hc1 : cond1_1 (grid1.coords t)) (hc2 : ¬cond1_2 (grid1.coords t)) (s : St F) :
    (stepB V c t hc0 hc1 hc2 s).acc = visitAcc (BitVec.ofNat 32 (grid1.coords t 1).val) (BitVec.ofNat 32 (grid1.coords t 2).val) (iblk1 V c 0 t) (iblk1 V c 1 t) (iblk1 V c 2 t) k1_pay1 k1_pay3 := by
  unfold stepB ; (try unfold visitM); (try unfold visitL); (try unfold visitAcc); dsimp only
  rw [View.read_writes_junk_eq_canon]
  unfold kernelRun1_B; dsimp only; sl_unfold_words
  rw [View.canon_cons_unit_zero (S := S512x1024) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepB_out (c : Dev nD) (t : Fin cfg1.N) (hc0 : cond1_0 (grid1.coords t)) (hc1 : cond1_1 (grid1.coords t)) (hc2 : ¬cond1_2 (grid1.coords t)) (s : St F) :
    (stepB V c t hc0 hc1 hc2 s).out = s.out := rfl

theorem stepC_m (c : Dev nD) (t : Fin cfg1.N) (hc0 : ¬cond1_0 (grid1.coords t)) (hc1 : cond1_1 (grid1.coords t)) (hc2 : ¬cond1_2 (grid1.coords t)) (s : St F) :
    (stepC V c t hc0 hc1 hc2 s).m = visitM (BitVec.ofNat 32 (grid1.coords t 1).val) (BitVec.ofNat 32 (grid1.coords t 2).val) (iblk1 V c 0 t) (iblk1 V c 1 t) s.m := by
  unfold stepC ; (try unfold visitM); (try unfold visitL); (try unfold visitAcc); dsimp only
  rw [View.read_writes_junk_eq_canon]
  unfold kernelRun1_C; dsimp only; sl_unfold_words
  rw [View.canon_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepC_l (c : Dev nD) (t : Fin cfg1.N) (hc0 : ¬cond1_0 (grid1.coords t)) (hc1 : cond1_1 (grid1.coords t)) (hc2 : ¬cond1_2 (grid1.coords t)) (s : St F) :
    (stepC V c t hc0 hc1 hc2 s).l = visitL (BitVec.ofNat 32 (grid1.coords t 1).val) (BitVec.ofNat 32 (grid1.coords t 2).val) (iblk1 V c 0 t) (iblk1 V c 1 t) s.m s.l := by
  unfold stepC ; (try unfold visitM); (try unfold visitL); (try unfold visitAcc); dsimp only
  rw [View.read_writes_junk_eq_canon]
  unfold kernelRun1_C; dsimp only; sl_unfold_words
  rw [View.canon_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepC_acc (c : Dev nD) (t : Fin cfg1.N) (hc0 : ¬cond1_0 (grid1.coords t)) (hc1 : cond1_1 (grid1.coords t)) (hc2 : ¬cond1_2 (grid1.coords t)) (s : St F) :
    (stepC V c t hc0 hc1 hc2 s).acc = visitAcc (BitVec.ofNat 32 (grid1.coords t 1).val) (BitVec.ofNat 32 (grid1.coords t 2).val) (iblk1 V c 0 t) (iblk1 V c 1 t) (iblk1 V c 2 t) s.m s.acc := by
  unfold stepC ; (try unfold visitM); (try unfold visitL); (try unfold visitAcc); dsimp only
  rw [View.read_writes_junk_eq_canon]
  unfold kernelRun1_C; dsimp only; sl_unfold_words
  rw [View.canon_unit_zero (S := S512x1024) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepC_out (c : Dev nD) (t : Fin cfg1.N) (hc0 : ¬cond1_0 (grid1.coords t)) (hc1 : cond1_1 (grid1.coords t)) (hc2 : ¬cond1_2 (grid1.coords t)) (s : St F) :
    (stepC V c t hc0 hc1 hc2 s).out = s.out := rfl

theorem stepD_m (c : Dev nD) (t : Fin cfg1.N) (hc0 : ¬cond1_0 (grid1.coords t)) (hc1 : cond1_1 (grid1.coords t)) (hc2 : cond1_2 (grid1.coords t)) (s : St F) :
    (stepD V c t hc0 hc1 hc2 s).m = visitM (BitVec.ofNat 32 (grid1.coords t 1).val) (BitVec.ofNat 32 (grid1.coords t 2).val) (iblk1 V c 0 t) (iblk1 V c 1 t) s.m := by
  unfold stepD ; (try unfold visitM); (try unfold visitL); (try unfold visitAcc); dsimp only
  rw [View.read_writes_junk_eq_canon]
  unfold kernelRun1_D; dsimp only; sl_unfold_words
  rw [View.canon_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepD_l (c : Dev nD) (t : Fin cfg1.N) (hc0 : ¬cond1_0 (grid1.coords t)) (hc1 : cond1_1 (grid1.coords t)) (hc2 : cond1_2 (grid1.coords t)) (s : St F) :
    (stepD V c t hc0 hc1 hc2 s).l = visitL (BitVec.ofNat 32 (grid1.coords t 1).val) (BitVec.ofNat 32 (grid1.coords t 2).val) (iblk1 V c 0 t) (iblk1 V c 1 t) s.m s.l := by
  unfold stepD ; (try unfold visitM); (try unfold visitL); (try unfold visitAcc); dsimp only
  rw [View.read_writes_junk_eq_canon]
  unfold kernelRun1_D; dsimp only; sl_unfold_words
  rw [View.canon_unit_zero (S := S512x1) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepD_acc (c : Dev nD) (t : Fin cfg1.N) (hc0 : ¬cond1_0 (grid1.coords t)) (hc1 : cond1_1 (grid1.coords t)) (hc2 : cond1_2 (grid1.coords t)) (s : St F) :
    (stepD V c t hc0 hc1 hc2 s).acc = visitAcc (BitVec.ofNat 32 (grid1.coords t 1).val) (BitVec.ofNat 32 (grid1.coords t 2).val) (iblk1 V c 0 t) (iblk1 V c 1 t) (iblk1 V c 2 t) s.m s.acc := by
  unfold stepD ; (try unfold visitM); (try unfold visitL); (try unfold visitAcc); dsimp only
  rw [View.read_writes_junk_eq_canon]
  unfold kernelRun1_D; dsimp only; sl_unfold_words
  rw [View.canon_unit_zero (S := S512x1024) hz2]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

theorem stepD_out (c : Dev nD) (t : Fin cfg1.N) (hc0 : ¬cond1_0 (grid1.coords t)) (hc1 : cond1_1 (grid1.coords t)) (hc2 : cond1_2 (grid1.coords t)) (s : St F) :
    (stepD V c t hc0 hc1 hc2 s).out = k1_pay7 (visitAcc (BitVec.ofNat 32 (grid1.coords t 1).val) (BitVec.ofNat 32 (grid1.coords t 2).val) (iblk1 V c 0 t) (iblk1 V c 1 t) (iblk1 V c 2 t) s.m s.acc) (visitL (BitVec.ofNat 32 (grid1.coords t 1).val) (BitVec.ofNat 32 (grid1.coords t 2).val) (iblk1 V c 0 t) (iblk1 V c 1 t) s.m s.l) := by
  unfold stepD ; (try unfold visitM); (try unfold visitL); (try unfold visitAcc); dsimp only
  rw [View.read_writes_junk_eq_canon]
  unfold kernelRun1_D; dsimp only; sl_unfold_words
  rw [View.canon_unit_zero (S := S1x512x1024) hz3]
  simp only [View.readAt_eq_ld, Memref.IsWhole.read_unread, rdS0, rdS1, rdS2, View.ld_unit_zero (S := S1x512x1024) hz3, View.ld_unit_zero (S := S512x1) hz2,
    View.ld_unit_zero (S := S512x1024) hz2, View.readCov_unit_zero (S := S512x1) _ hz2, View.readCov_unit_zero (S := S512x1024) _ hz2,
    readCov_cons_unit_zero (S := S512x1) _ hz2, readCov_cons_unit_zero (S := S512x1024) _ hz2]

end Cert.KernelIdeal.Hand

end
-- ==== Proof.Region1Reads.lean ====
/-
  Where the attention region's blocks sit in the arrays.  The region runs over 64 grid points; point t has batch
  b = t / 16, query block qi = (t / 4) mod 4 and key block kv = t mod 4.  The query, key and value windows all read the
  array of shape [4, 2048, 3072] whose columns 0 to 1023, 1024 to 2047 and 2048 to 3071 hold the three projections;
  their blocks have shape [1, 512, 1024] and block indices (b, qi, 0), (b, min (kv, qi), 1) and (b, min (kv, qi), 2).
  The result window writes blocks of the same shape at block index (b, qi, 0) of the array of shape [4, 2048, 1024].
  An element of a block sits, on each axis, at the block index times the block's extent plus its own coordinate.
-/
import proofs.«159224_j12807592476992_2_alg».proof.Proof.Region1State
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The 64 grid points -/

/-- The grid has 64 points. -/
theorem pt_lt (t : Fin cfg1.N) : t.val < 64 := lt_of_lt_of_eq t.isLt N_1

/-- The batch of a grid point. -/
def ptB (t : Fin cfg1.N) : Fin 4 := ⟨t.val / 16, by have := pt_lt t; omega⟩
/-- The query block of a grid point. -/
def ptQ (t : Fin cfg1.N) : Fin 4 := ⟨t.val / 4 % 4, by omega⟩
/-- The key block of a grid point. -/
def ptK (t : Fin cfg1.N) : Fin 4 := ⟨t.val % 4, by omega⟩

/-- The coordinates of point t are (t / 16, (t / 4) mod 4, t mod 4). -/
theorem coords1 : ∀ t : Fin cfg1.N, (grid1.coords t 0).val = t.val / 16 ∧ (grid1.coords t 1).val = t.val / 4 % 4
    ∧ (grid1.coords t 2).val = t.val % 4 :=
  (by decide +kernel : ∀ t : Fin grid1.N, (grid1.coords t 0).val = t.val / 16 ∧ (grid1.coords t 1).val = t.val / 4 % 4
    ∧ (grid1.coords t 2).val = t.val % 4)

/-- The block indices of the four windows at point t. -/
theorem idx1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4)
    ∧ win1_1.index t (2 : Fin 3) = 1
    ∧ win1_2.index t (0 : Fin 3) = t.val / 16 ∧ win1_2.index t (1 : Fin 3) = min (t.val % 4) (t.val / 4 % 4)
    ∧ win1_2.index t (2 : Fin 3) = 2
    ∧ win1_3.index t (0 : Fin 3) = t.val / 16 ∧ win1_3.index t (1 : Fin 3) = t.val / 4 % 4 ∧ win1_3.index t (2 : Fin 3) = 0 :=
  (by decide +kernel : ∀ t : Fin grid1.N, _)

section Reads

variable (V : (c : Dev nD) → (b : Ref sig .tc) → Buf (Elt Ideal) ((c : Thread nD τ).loc b))

/-- The query window's block at point t: row r, column e of the block is row 512 qi + r, column e of batch b. -/
theorem iblk1_0_apply (c : Dev nD) (t : Fin cfg1.N) (r : Fin 512) (e : Fin 1024) :
    iblk1 V c 0 t (ix3 0 r e)
      = V c main_v6 (ix3 (ptB t) (⟨(ptQ t).val * 512 + r.val, by have := (ptQ t).isLt; omega⟩ : Fin 2048)
          (⟨e.val, by omega⟩ : Fin 3072)) := by
  obtain ⟨h0, h1, h2, -⟩ := idx1 t
  show V c main_v6 (((cfg1.win 0).blk t).view.emb (ix3 0 r e)) = V c main_v6 _
  refine congrArg (V c main_v6) (funext fun a => Fin.ext ?_)
  match a with
  | ⟨0, _⟩ => show win1_0.index t (0 : Fin 3) * 1 + 1 * 0 = t.val / 16; omega
  | ⟨1, _⟩ => show win1_0.index t (1 : Fin 3) * 512 + 1 * r.val = t.val / 4 % 4 * 512 + r.val; omega
  | ⟨2, _⟩ => show win1_0.index t (2 : Fin 3) * 1024 + 1 * e.val = e.val; omega

/-- The key window's block at point t: row c', column e of the block is row 512 min (kv, qi) + c', column 1024 + e. -/
theorem iblk1_1_apply (c : Dev nD) (t : Fin cfg1.N) (c' : Fin 512) (e : Fin 1024) :
    iblk1 V c 1 t (ix3 0 c' e)
      = V c main_v6 (ix3 (ptB t)
          (⟨min (ptK t).val (ptQ t).val * 512 + c'.val, by have := (ptQ t).isLt; have := (ptK t).isLt; omega⟩ : Fin 2048)
          (⟨1024 + e.val, by omega⟩ : Fin 3072)) := by
  obtain ⟨-, -, -, h0, h1, h2, -⟩ := idx1 t
  show V c main_v6 (((cfg1.win 1).blk t).view.emb (ix3 0 c' e)) = V c main_v6 _
  refine congrArg (V c main_v6) (funext fun a => Fin.ext ?_)
  match a with
  | ⟨0, _⟩ => show win1_1.index t (0 : Fin 3) * 1 + 1 * 0 = t.val / 16; omega
  | ⟨1, _⟩ =>
    show win1_1.index t (1 : Fin 3) * 512 + 1 * c'.val = min (t.val % 4) (t.val / 4 % 4) * 512 + c'.val
    omega
  | ⟨2, _⟩ => show win1_1.index t (2 : Fin 3) * 1024 + 1 * e.val = 1024 + e.val; omega

/-- The value window's block at point t: row c', column e of the block is row 512 min (kv, qi) + c', column 2048 + e. -/
theorem iblk1_2_apply (c : Dev nD) (t : Fin cfg1.N) (c' : Fin 512) (e : Fin 1024) :
    iblk1 V c 2 t (ix3 0 c' e)
      = V c main_v6 (ix3 (ptB t)
          (⟨min (ptK t).val (ptQ t).val * 512 + c'.val, by have := (ptQ t).isLt; have := (ptK t).isLt; omega⟩ : Fin 2048)
          (⟨2048 + e.val, by omega⟩ : Fin 3072)) := by
  obtain ⟨-, -, -, -, -, -, h0, h1, h2, -⟩ := idx1 t
  show V c main_v6 (((cfg1.win 2).blk t).view.emb (ix3 0 c' e)) = V c main_v6 _
  refine congrArg (V c main_v6) (funext fun a => Fin.ext ?_)
  match a with
  | ⟨0, _⟩ => show win1_2.index t (0 : Fin 3) * 1 + 1 * 0 = t.val / 16; omega
  | ⟨1, _⟩ =>
    show win1_2.index t (1 : Fin 3) * 512 + 1 * c'.val = min (t.val % 4) (t.val / 4 % 4) * 512 + c'.val
    omega
  | ⟨2, _⟩ => show win1_2.index t (2 : Fin 3) * 1024 + 1 * e.val = 2048 + e.val; omega

/-- Where the result window's block sits at point t: element (u, r, d) of the block is element
    (b, 512 qi + r, d) of the result array. -/
theorem emb1_3 (t : Fin cfg1.N) (u : Fin 1) (r : Fin 512) (d : Fin 1024) :
    ((cfg1.win 3).blk t).view.emb (ix3 u r d)
      = (ix3 (ptB t) (⟨(ptQ t).val * 512 + r.val, by have := (ptQ t).isLt; omega⟩ : Fin 2048) d : S4x2048x1024.Idx) := by
  obtain ⟨-, -, -, -, -, -, -, -, -, h0, h1, h2⟩ := idx1 t
  refine funext fun a => Fin.ext ?_
  have hu : u.val = 0 := by omega
  match a with
  | ⟨0, _⟩ => show win1_3.index t (0 : Fin 3) * 1 + 1 * u.val = t.val / 16; omega
  | ⟨1, _⟩ => show win1_3.index t (1 : Fin 3) * 512 + 1 * r.val = t.val / 4 % 4 * 512 + r.val; omega
  | ⟨2, _⟩ => show win1_3.index t (2 : Fin 3) * 1024 + 1 * d.val = d.val; omega

/-- An index of the result array is in point t's block iff each coordinate is in the block's range on its axis. -/
theorem mem_blk1_3 (t : Fin cfg1.N) (i : S4x2048x1024.Idx) :
    i ∈ ((cfg1.win 3).blk t).view.set
      ↔ ∀ a : Fin 3, win1_3.index t a * S1x512x1024.size a ≤ (i a).val
          ∧ (i a).val < win1_3.index t a * S1x512x1024.size a + S1x512x1024.size a := by
  show i ∈ ((View.whole main_v7).slice (win1_3.rect t)).set ↔ _
  rw [View.set_slice_whole, Rect.mem_set_unit]
  exact Iff.rfl

end Reads

end Cert.KernelIdeal.AttnValue

end
-- ==== Proof.AttnPayloads.lean ====
/-
  The values the attention kernel computes, read index by index on the extended reals, and the step from one visited key
  block to the next.

  For query block qi and key block kv (both below 4) the kernel forms, from the loaded [1, 512, 1024] blocks of query,
  key and value rows and the three carried arrays (running maximum, running sum, running weighted sums):
  the masked scores of the block, s(r, c) = ⟨query row r, key row c⟩ / 32 where 512 kv + c ≤ 512 qi + r and -∞
  elsewhere; the new maximum m'(r) = max (m(r), sup_c s(r, c)); the factor exp (m(r) - m'(r)); the weights
  p(r, c) = exp (s(r, c) - m'(r)); the new sum exp (m - m') l + ∑_c p(r, c); the new weighted sums
  exp (m - m') acc(r, d) + ∑_c p(r, c) v(c, d); and at the end acc(r, d) / l(r).

  Each is read here at one index: a change of layout reads one entry of its operand, a reduction along a row is a sum or a
  supremum over the 512 columns, a matrix product is the sum over the contracted coordinate, the comparison of the two
  row numbers does not wrap in 32 bits, 3D000000 denotes 1/32, FF800000 denotes -∞ and the mask's large negative
  constant is named -∞.  The last section identifies these values, for loaded blocks that hold the projected rows and
  carried arrays that hold the blockwise description's state after kv blocks, with the state after kv + 1 blocks.
-/
import proofs.«159224_j12807592476992_2_alg».proof.Proof.Gen.KernelIdeal.Skeleton
import proofs.«159224_j12807592476992_2_alg».proof.Proof.AttnSpec
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.IdealRules
import Idealize.ShloMosaic.Lib.Affine

noncomputable section

open scoped BigOperators

namespace Cert.KernelIdeal.PayVal

open Cert.KernelIdeal Cert.KernelIdeal.Gen Idealize.ShloMosaic Idealize.ShloMosaic.ValueIdx

/-! ## Layout operations of a column read at an index -/

/-- A length-a vector cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, j), the column at (i, 0). -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The stored values that only move entries -/

/-- The value block seen as a matrix: entry (c, d) is entry (0, c, d) of the loaded block. -/
theorem pay8_apply (v13 : Vec Ideal S1x512x1024 .bf16) (c : Fin 512) (d : Fin 1024) :
    k1_pay8 v13 (ix2 c d) = v13 (ix3 0 c d) := by
  unfold k1_pay8
  exact shapeCast_1ab_ab_apply v13 _ c d

/-- The new running sum is stored as it is. -/
theorem pay4_eq (v44 : FVec Ideal S512x1 .f32) : k1_pay4 v44 = v44 := by
  unfold k1_pay4
  exact shapeCast_self v44 _

/-- The new running maximum is stored as it is. -/
theorem pay6_eq (v33 : FVec Ideal S512x1 .f32) : k1_pay6 v33 = v33 := by
  unfold k1_pay6
  exact shapeCast_self v33 _

/-- The result block: entry (0, r, d) is the weighted sum at (r, d) divided by the running sum of row r. -/
theorem pay7_apply (v9 : Vec Ideal S512x1024 .f32) (v10 : Vec Ideal S512x1 .f32) (r : Fin 512) (d : Fin 1024) :
    k1_pay7 v9 v10 (ix3 0 r d) = Ideal.div (v9 (ix2 r d)) (v10 (ix2 r 0)) := by
  unfold k1_pay7
  rw [shapeCast_ab_1ab_apply, divf_apply, broadcastTo_a1_ab_apply]

/-! ## The two matrix products read at an index -/

/-- The first factor is read at the output's row. -/
theorem mmQK_lhs0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- The first factor is read at the contracted coordinate in its second place. -/
theorem mmQK_lhs1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
/-- The second factor is read at the contracted coordinate in its first place. -/
theorem mmQK_rhs0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
/-- The second factor is read at the output's column. -/
theorem mmQK_rhs1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product of a [512, 1024] matrix and a [1024, 512] matrix accumulated into zero reads, at (p, q), the sum over the
    1024 contracted coordinates of the products of row p of the first and column q of the second. -/
theorem mmQK_apply (lhs : FVec Ideal S512x1024 .bf16) (rhs : FVec Ideal S1024x512 .bf16) (p : Fin 512) (q : Fin 512) :
    matmul dot_S512x1024_S1024x512_S512x512_1_0_0_1_n_n none lhs rhs (constant (F := Ideal) S512x512 .f32 0x00000000#32) (ix2 p q)
      = ∑ k : Fin 1024, lhs (ix2 p k) * rhs (ix2 k q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact mmQK_lhs0 _ _
    | ⟨1, _⟩ => exact (mmQK_lhs1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (mmQK_rhs0 _ _).trans hk
    | ⟨1, _⟩ => exact mmQK_rhs1 _ _)
  rw [el, er]

/-- The first factor is read at the output's row. -/
theorem mmPV_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
/-- The first factor is read at the contracted coordinate in its second place. -/
theorem mmPV_lhs1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
/-- The second factor is read at the contracted coordinate in its first place. -/
theorem mmPV_rhs0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
/-- The second factor is read at the output's column. -/
theorem mmPV_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a [512, 512] matrix and a [512, 1024] matrix accumulated into zero reads, at (p, q), the sum over the
    512 contracted coordinates of the products of row p of the first and column q of the second. -/
theorem mmPV_apply (lhs : FVec Ideal S512x512 .bf16) (rhs : FVec Ideal S512x1024 .bf16) (p : Fin 512) (q : Fin 1024) :
    matmul dot_S512x512_S512x1024_S512x1024_1_0_0_1_n_n none lhs rhs (constant (F := Ideal) S512x1024 .f32 0x00000000#32) (ix2 p q)
      = ∑ k : Fin 512, lhs (ix2 p k) * rhs (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p q) ((contrEquiv1 dot_S512x512_S512x1024_S512x1024_1_0_0_1_n_n 512 rfl rfl).symm k) = ix2 p k := funext fun a => Fin.ext (by
    match a with
    | ⟨0, _⟩ => exact mmPV_lhs0 _ _
    | ⟨1, _⟩ => exact (mmPV_lhs1 _ _).trans hk)
  have er : dot_S512x512_S512x1024_S512x1024_1_0_0_1_n_n.rhsIdx (ix2 p q) ((contrEquiv1 dot_S512x512_S512x1024_S512x1024_1_0_0_1_n_n 512 rfl rfl).symm k) = ix2 k q := funext fun a => Fin.ext (by
    match a with
    | ⟨0, _⟩ => exact (mmPV_rhs0 _ _).trans hk
    | ⟨1, _⟩ => exact mmPV_rhs1 _ _)
  rw [el, er]

/-! ## Constants -/

/-- The pattern FF800000 of a 32-bit float denotes -∞. -/
theorem ofBits_neg_inf : Ideal.ofBits .f32 0xFF800000#32 = ⊥ := by simp [Ideal.ofBits, Ideal.ieee]

/-- The pattern 3D000000 of a 32-bit float denotes 2⁻⁵ = 1/32. -/
theorem ofBits_inv32 : Ideal.ofBits .f32 0x3D000000#32 = ((1 / 32 : ℝ) : EReal) := by
  simp [Ideal.ofBits, Ideal.ieee]
  first
    | (rw [← EReal.coe_mul]; congr 1; norm_num)
    | (norm_cast; norm_num)
    | (set_option pp.explicit true in trace_state; fail "inv32")

/-- -∞ as a scalar constant. -/
theorem scalar_neg_inf : (Scalar.ofBits .f32 0xFF800000#32 : Ideal .f32) = ⊥ := ofBits_neg_inf
/-- 0 as a scalar constant. -/
theorem scalar_zero : (Scalar.ofBits .f32 0x00000000#32 : Ideal .f32) = 0 := Ideal.ofBits_zero_f32
/-- 1/32 as a scalar constant. -/
theorem scalar_inv32 : (Scalar.ofBits .f32 0x3D000000#32 : Ideal .f32) = ((1 / 32 : ℝ) : EReal) := ofBits_inv32

/-- The large negative constant of the mask is named -∞. -/
theorem neg_big : Named.named (F := Ideal) κ "neg_big" (φ := .f32) 0xFF333332#32 = ⊥ :=
  IdealRules.named_const.ideal_named_scalar _ _ _ _ rfl

/-! ## The causal comparison -/

/-- Two row numbers below 2048, each written 512 times a block number plus a position in the block, compare as
    signed 32-bit words the way they compare as natural numbers: nothing wraps. -/
theorem sle_rows (qi kv : Fin 4) (r c : Fin 512) :
    Scalar.cmpi .sle (Scalar.addi (Scalar.muli (BitVec.ofNat 32 kv.val) 512#32) (BitVec.ofNat 32 c.val))
        (Scalar.addi (Scalar.muli (BitVec.ofNat 32 qi.val) 512#32) (BitVec.ofNat 32 r.val)) = 1#1
      ↔ kv.val * 512 + c.val ≤ qi.val * 512 + r.val := by
  have hkv := kv.isLt
  have hqi := qi.isLt
  have hc := c.isLt
  have hr := r.isLt
  have ha : Affine.IsInt (Scalar.addi (Scalar.muli (BitVec.ofNat 32 kv.val) 512#32) (BitVec.ofNat 32 c.val))
      ((kv.val : Int) * 512 + c.val) :=
    Affine.addi (Affine.muli (Affine.ofNat kv.val ⟨rfl, by omega⟩) (Affine.ofNat 512 ⟨rfl, by norm_num⟩)
      ⟨by omega, by omega, by omega⟩) (Affine.ofNat c.val ⟨rfl, by omega⟩) ⟨rfl, by omega, by omega⟩
  have hb : Affine.IsInt (Scalar.addi (Scalar.muli (BitVec.ofNat 32 qi.val) 512#32) (BitVec.ofNat 32 r.val))
      ((qi.val : Int) * 512 + r.val) :=
    Affine.addi (Affine.muli (Affine.ofNat qi.val ⟨rfl, by omega⟩) (Affine.ofNat 512 ⟨rfl, by norm_num⟩)
      ⟨by omega, by omega, by omega⟩) (Affine.ofNat r.val ⟨rfl, by omega⟩) ⟨rfl, by omega, by omega⟩
  constructor
  · intro h
    by_contra hn
    exact Affine.sle_fails ha hb (by omega) h
  · intro h
    exact Affine.sle_holds ha hb (by omega)

/-- The mask of a block at (r, c): set exactly when key row 512 kv + c is at most query row 512 qi + r. -/
theorem causal_mask_apply (qi kv : Fin 4) (h0 : S512x512.Iotas .tc 32 [0]) (h1 : S512x512.Iotas .tc 32 [1])
    (r c : Fin 512) :
    cmpi .sle (addi (broadcast S512x512 (Scalar.muli (BitVec.ofNat 32 kv.val) 512#32)) (iota .tc S512x512 32 [1] h1))
        (addi (broadcast S512x512 (Scalar.muli (BitVec.ofNat 32 qi.val) 512#32)) (iota .tc S512x512 32 [0] h0)) (ix2 r c)
      = if kv.val * 512 + c.val ≤ qi.val * 512 + r.val then 1#1 else 0#1 := by
  have key : cmpi .sle (addi (broadcast S512x512 (Scalar.muli (BitVec.ofNat 32 kv.val) 512#32)) (iota .tc S512x512 32 [1] h1))
        (addi (broadcast S512x512 (Scalar.muli (BitVec.ofNat 32 qi.val) 512#32)) (iota .tc S512x512 32 [0] h0)) (ix2 r c) = 1#1
      ↔ kv.val * 512 + c.val ≤ qi.val * 512 + r.val := by
    show Scalar.cmpi .sle (Scalar.addi (Scalar.muli (BitVec.ofNat 32 kv.val) 512#32) (iota .tc S512x512 32 [1] h1 (ix2 r c)))
        (Scalar.addi (Scalar.muli (BitVec.ofNat 32 qi.val) 512#32) (iota .tc S512x512 32 [0] h0 (ix2 r c))) = 1#1 ↔ _
    rw [iota_single_apply, iota_single_apply]
    exact sle_rows qi kv r c
  split
  · exact key.mpr ‹_›
  · exact eq_zero_of_ne_one fun h => ‹¬_› (key.mp h)

/-! ## The initial values of the three running quantities -/

/-- The running maximum starts at -∞. -/
theorem pay1_apply (r : Fin 512) : k1_pay1 (F := Ideal) (ix2 r 0) = ⊥ := by
  unfold k1_pay1
  rw [shapeCast_self, broadcast_apply]
  exact scalar_neg_inf

/-- The running sum starts at 0. -/
theorem pay2_apply (r : Fin 512) : k1_pay2 (F := Ideal) (ix2 r 0) = 0 := by
  unfold k1_pay2
  rw [shapeCast_self, broadcast_apply]
  exact scalar_zero

/-- The running weighted sums start at 0. -/
theorem pay3_apply (r : Fin 512) (d : Fin 1024) : k1_pay3 (F := Ideal) (ix2 r d) = 0 := by
  unfold k1_pay3
  rw [shapeCast_self, broadcast_apply]
  exact scalar_zero

/-! ## Reductions along a row of a 512 x 512 block -/

/-- Putting the column c back into the row index r gives the index (r, c). -/
theorem lift_row (h : S512x512.Reduces [1] S512) (r c : Fin 512) : h.lift (ix1 r) c = ix2 r c :=
  funext fun a => Fin.ext (by match a with | ⟨0, _⟩ => rfl | ⟨1, _⟩ => rfl)

/-- The sum along a row: at r, the sum over the 512 columns. -/
theorem rowSum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ c : Fin 512, src (ix2 r c) := by
  refine (Ideal.multiReduction_add_single src 0x00000000#32 h hφ hacc (ix1 r)).trans ?_
  show ∑ c : Fin 512, src (h.lift (ix1 r) c) = _
  exact Finset.sum_congr rfl fun c _ => congrArg src (lift_row h r c)

/-- The fold of the maximum from -∞ over a finite set is the supremum. -/
theorem fold_max_bot_eq_sup {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-- The maximum along a row, started from -∞: at r, the supremum over the 512 columns. -/
theorem rowMax_apply (src : FVec Ideal S512x512 .f32) (h : S512x512.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Finset.univ.sup fun c : Fin 512 => src (ix2 r c) := by
  refine (Ideal.multiReduction_maximumf_single src 0xFF800000#32 h hφ hacc (ix1 r)).trans ?_
  show (Finset.univ : Finset (Fin 512)).fold max (Ideal.ofBits .f32 0xFF800000#32) (fun c => src (h.lift (ix1 r) c)) = _
  rw [ofBits_neg_inf]
  refine (congrArg (fun f : Fin 512 → EReal => (Finset.univ : Finset (Fin 512)).fold max ⊥ f)
    (funext fun c => congrArg src (lift_row h r c))).trans ?_
  exact fold_max_bot_eq_sup _ _

/-! ## The scores of a block, masked above the diagonal -/

/-- The masked, scaled scores of a block: at (r, c), on and below the diagonal the inner product of query row r and
    key row c times 1/32, and -∞ above it.  (The product accumulates into zero, so no leading 0 + is left.) -/
theorem pay9_apply (qi kv : Fin 4) (v9 v11 : Vec Ideal S1x512x1024 .bf16) (r c : Fin 512) :
    k1_pay9 (BitVec.ofNat 32 qi.val) (BitVec.ofNat 32 kv.val) v9 v11 (ix2 r c)
      = if kv.val * 512 + c.val ≤ qi.val * 512 + r.val then
          (∑ e : Fin 1024, v9 (ix3 0 r e) * v11 (ix3 0 c e)) * ((1 / 32 : ℝ) : EReal)
        else ⊥ := by
  unfold k1_pay9
  rw [select_apply, causal_mask_apply]
  split
  · rw [select_one, mulf_apply, mmQK_apply, broadcast_apply, scalar_inv32]
    refine congrArg (· * ((1 / 32 : ℝ) : EReal)) (Finset.sum_congr rfl fun e _ => ?_)
    rw [shapeCast_1ab_ab_apply, transpose_ix2_apply, shapeCast_1ab_ab_apply]
  · rw [select_zero, broadcast_apply]
    exact neg_big

/-! ## The running maximum, the two exponentials and the running sums after one more block -/

/-- The new running maximum of row r: the larger of the old one and the largest score of the row in this block. -/
theorem pay10_apply (arg1 arg2 : BitVec 32) (v9 v11 : Vec Ideal S1x512x1024 .bf16) (v30 : Vec Ideal S512x1 .f32)
    (r : Fin 512) :
    k1_pay10 arg1 arg2 v9 v11 v30 (ix2 r 0)
      = max (v30 (ix2 r 0)) (Finset.univ.sup fun c : Fin 512 => k1_pay9 arg1 arg2 v9 v11 (ix2 r c)) := by
  unfold k1_pay10
  rw [maximumf_apply, shapeCast_a_a1_apply]
  exact congrArg (max (v30 (ix2 r 0))) (rowMax_apply _ _ _ _ r)

/-- The rescaling factor of row r: the exponential of the old maximum minus the new one. -/
theorem pay11_apply (arg1 arg2 : BitVec 32) (v9 v11 : Vec Ideal S1x512x1024 .bf16) (v30 v34 : Vec Ideal S512x1 .f32)
    (r : Fin 512) :
    k1_pay11 arg1 arg2 v9 v11 v30 v34 (ix2 r 0)
      = Ideal.exp (v34 (ix2 r 0) - k1_pay10 arg1 arg2 v9 v11 v30 (ix2 r 0)) := by
  unfold k1_pay11
  rfl

/-- The exponentials of the block's scores relative to the new maximum of their row. -/
theorem pay12_apply (arg1 arg2 : BitVec 32) (v9 v11 : Vec Ideal S1x512x1024 .bf16) (v30 : Vec Ideal S512x1 .f32)
    (r c : Fin 512) :
    k1_pay12 arg1 arg2 v9 v11 v30 (ix2 r c)
      = Ideal.exp (k1_pay9 arg1 arg2 v9 v11 (ix2 r c) - k1_pay10 arg1 arg2 v9 v11 v30 (ix2 r 0)) := by
  unfold k1_pay12
  show Ideal.exp (k1_pay9 arg1 arg2 v9 v11 (ix2 r c)
    - broadcastTo S512x512 (k1_pay10 arg1 arg2 v9 v11 v30) broadcasts_S512x1_S512x512 (ix2 r c)) = _
  rw [broadcastTo_a1_ab_apply]

/-- The new running sum of row r: the old one rescaled, plus the block's exponentials summed along the row. -/
theorem pay13_apply (arg1 arg2 : BitVec 32) (v9 v11 : Vec Ideal S1x512x1024 .bf16) (v30 v34 v40 : Vec Ideal S512x1 .f32)
    (r : Fin 512) :
    k1_pay13 arg1 arg2 v9 v11 v30 v34 v40 (ix2 r 0)
      = k1_pay11 arg1 arg2 v9 v11 v30 v34 (ix2 r 0) * v40 (ix2 r 0)
        + ∑ c : Fin 512, k1_pay12 arg1 arg2 v9 v11 v30 (ix2 r c) := by
  unfold k1_pay13
  rw [addf_apply, mulf_apply, shapeCast_a_a1_apply]
  exact congrArg (k1_pay11 arg1 arg2 v9 v11 v30 v34 (ix2 r 0) * v40 (ix2 r 0) + ·) (rowSum_apply _ _ _ _ r)

/-- The new running weighted sums: at (r, d), the old one rescaled by row r's factor, plus the sum over the block's
    512 key rows of their weight in row r times their value entry in column d. -/
theorem pay5_apply (v14 : FVec Ideal S512x1024 .bf16) (v36 : FVec Ideal S512x1 .f32) (v39 : FVec Ideal S512x512 .f32)
    (v48 : Vec Ideal S512x1024 .f32) (r : Fin 512) (d : Fin 1024) :
    k1_pay5 v14 v36 v39 v48 (ix2 r d)
      = v36 (ix2 r 0) * v48 (ix2 r d) + ∑ c : Fin 512, v39 (ix2 r c) * v14 (ix2 c d) := by
  unfold k1_pay5
  rw [shapeCast_self, addf_apply, mulf_apply, broadcastTo_a1_ab_apply, mmPV_apply]
  rfl

/-! ## One visited block: the stored values follow the blockwise recurrence

  Query block qi and key block kv are loaded as v9 (queries), v11 (keys), v13 (values), each a [1, 512, 1024] block of
  projected rows; row r of the three carried arrays holds the running maximum, the running sum and the running weighted
  sums after the first kv blocks.  Then the values computed for row r are those after kv + 1 blocks. -/

section Step

open Cert.AttnSpec

variable (x : X) (wq wk wv : W) (b qi kv : Fin 4) (v9 v11 v13 : Vec Ideal S1x512x1024 .bf16)

/-- The masked scores of the block are the specification's scores of query row 512 qi + r against key rows
    512 kv + c: the comparison of the two row numbers is the causal mask, and kv < 4 is its own remainder modulo 4. -/
theorem pay9_eq_blockScore (h9 : ∀ (r : Fin 512) (e : Fin 1024), v9 (ix3 0 r e) = proj x wq b (qRow qi r) e)
    (h11 : ∀ (c : Fin 512) (e : Fin 1024), v11 (ix3 0 c e) = proj x wk b (kRow kv.val c) e) (r c : Fin 512) :
    k1_pay9 (BitVec.ofNat 32 qi.val) (BitVec.ofNat 32 kv.val) v9 v11 (ix2 r c) = blockScore x wq wk b qi r kv.val c := by
  have hkv := kv.isLt
  have hcond : (kRow kv.val c).val ≤ (qRow qi r).val ↔ kv.val * 512 + c.val ≤ qi.val * 512 + r.val := by
    show kv.val % 4 * 512 + c.val ≤ qi.val * 512 + r.val ↔ _
    omega
  rw [pay9_apply]
  unfold blockScore score
  by_cases h : kv.val * 512 + c.val ≤ qi.val * 512 + r.val
  · rw [if_pos h, if_pos (hcond.mpr h)]
    exact congrArg (· * ((1 / 32 : ℝ) : EReal)) (Finset.sum_congr rfl fun e _ => by rw [h9, h11])
  · rw [if_neg h, if_neg fun h' => h (hcond.mp h')]

/-- The running maximum after one more block. -/
theorem step_max (h9 : ∀ (r : Fin 512) (e : Fin 1024), v9 (ix3 0 r e) = proj x wq b (qRow qi r) e)
    (h11 : ∀ (c : Fin 512) (e : Fin 1024), v11 (ix3 0 c e) = proj x wk b (kRow kv.val c) e)
    (v30 : Vec Ideal S512x1 .f32) (r : Fin 512) (h30 : v30 (ix2 r 0) = flashM x wq wk b qi r kv.val) :
    k1_pay10 (BitVec.ofNat 32 qi.val) (BitVec.ofNat 32 kv.val) v9 v11 v30 (ix2 r 0)
      = flashM x wq wk b qi r (kv.val + 1) := by
  rw [pay10_apply, h30]
  show _ = max (flashM x wq wk b qi r kv.val) (Finset.univ.sup fun c : Fin 512 => blockScore x wq wk b qi r kv.val c)
  exact congrArg (max _) (congrArg (Finset.sup Finset.univ)
    (funext fun c => pay9_eq_blockScore x wq wk b qi kv v9 v11 h9 h11 r c))

/-- The running sum of exponentials after one more block. -/
theorem step_sum (h9 : ∀ (r : Fin 512) (e : Fin 1024), v9 (ix3 0 r e) = proj x wq b (qRow qi r) e)
    (h11 : ∀ (c : Fin 512) (e : Fin 1024), v11 (ix3 0 c e) = proj x wk b (kRow kv.val c) e)
    (v30 v40 : Vec Ideal S512x1 .f32) (r : Fin 512) (h30 : v30 (ix2 r 0) = flashM x wq wk b qi r kv.val)
    (h40 : v40 (ix2 r 0) = flashL x wq wk b qi r kv.val) :
    k1_pay13 (BitVec.ofNat 32 qi.val) (BitVec.ofNat 32 kv.val) v9 v11 v30 v30 v40 (ix2 r 0)
      = flashL x wq wk b qi r (kv.val + 1) := by
  rw [pay13_apply, pay11_apply, step_max x wq wk b qi kv v9 v11 h9 h11 v30 r h30, h30, h40]
  show _ = Ideal.exp (flashM x wq wk b qi r kv.val - flashM x wq wk b qi r (kv.val + 1)) * flashL x wq wk b qi r kv.val
    + ∑ c : Fin 512, Ideal.exp (blockScore x wq wk b qi r kv.val c - flashM x wq wk b qi r (kv.val + 1))
  refine congrArg (_ + ·) (Finset.sum_congr rfl fun c _ => ?_)
  rw [pay12_apply, pay9_eq_blockScore x wq wk b qi kv v9 v11 h9 h11 r c,
    step_max x wq wk b qi kv v9 v11 h9 h11 v30 r h30]

/-- The running weighted sum of value entries in column d after one more block. -/
theorem step_acc (h9 : ∀ (r : Fin 512) (e : Fin 1024), v9 (ix3 0 r e) = proj x wq b (qRow qi r) e)
    (h11 : ∀ (c : Fin 512) (e : Fin 1024), v11 (ix3 0 c e) = proj x wk b (kRow kv.val c) e)
    (h13 : ∀ (c : Fin 512) (e : Fin 1024), v13 (ix3 0 c e) = proj x wv b (kRow kv.val c) e)
    (v30 : Vec Ideal S512x1 .f32) (v48 : Vec Ideal S512x1024 .f32) (r : Fin 512)
    (h30 : v30 (ix2 r 0) = flashM x wq wk b qi r kv.val)
    (h48 : ∀ d : Fin 1024, v48 (ix2 r d) = flashAcc x wq wk wv b qi r d kv.val) (d : Fin 1024) :
    k1_pay5 (k1_pay8 v13) (k1_pay11 (BitVec.ofNat 32 qi.val) (BitVec.ofNat 32 kv.val) v9 v11 v30 v30)
        (k1_pay12 (BitVec.ofNat 32 qi.val) (BitVec.ofNat 32 kv.val) v9 v11 v30) v48 (ix2 r d)
      = flashAcc x wq wk wv b qi r d (kv.val + 1) := by
  rw [pay5_apply, pay11_apply, step_max x wq wk b qi kv v9 v11 h9 h11 v30 r h30, h30, h48]
  show _ = Ideal.exp (flashM x wq wk b qi r kv.val - flashM x wq wk b qi r (kv.val + 1))
      * flashAcc x wq wk wv b qi r d kv.val
    + ∑ c : Fin 512, Ideal.exp (blockScore x wq wk b qi r kv.val c - flashM x wq wk b qi r (kv.val + 1))
        * proj x wv b (kRow kv.val c) d
  refine congrArg (_ + ·) (Finset.sum_congr rfl fun c _ => ?_)
  rw [pay12_apply, pay9_eq_blockScore x wq wk b qi kv v9 v11 h9 h11 r c,
    step_max x wq wk b qi kv v9 v11 h9 h11 v30 r h30, pay8_apply, h13]

end Step

end Cert.KernelIdeal.PayVal

end
-- ==== Proof.Region1Visit.lean ====
/-
  One visit of a key block, stated on the arrays the kernel keeps between grid points: if the three loaded blocks hold
  the projected query, key and value rows of query block qi and key block kv, and row r of the kept arrays holds the
  blockwise description's state after kv blocks, then row r of what the visit stores is the state after kv + 1 blocks;
  and what is stored into the result at the visit of the query block's own key block is the quotient the blockwise
  description ends with.  Before the first block the kept arrays are -∞, 0 and 0.
-/
import proofs.«159224_j12807592476992_2_alg».proof.Proof.AttnPayloads

noncomputable section

open scoped BigOperators

namespace Cert.KernelIdeal.PayVal

open Cert.KernelIdeal Cert.KernelIdeal.Gen Idealize.ShloMosaic Idealize.ShloMosaic.ValueIdx Cert.AttnSpec

/-! ## The blockwise description's state before the first block -/

/-- The running maximum starts at the specification's value before the first block. -/
theorem init_m (x : X) (wq wk : W) (b qi : Fin 4) (r : Fin 512) :
    k1_pay1 (F := Ideal) (ix2 r 0) = flashM x wq wk b qi r 0 := pay1_apply r

/-- The running sum starts at the specification's value before the first block. -/
theorem init_l (x : X) (wq wk : W) (b qi : Fin 4) (r : Fin 512) :
    k1_pay2 (F := Ideal) (ix2 r 0) = flashL x wq wk b qi r 0 := pay2_apply r

/-- The running weighted sums start at the specification's value before the first block. -/
theorem init_acc (x : X) (wq wk wv : W) (b qi : Fin 4) (r : Fin 512) (d : Fin 1024) :
    k1_pay3 (F := Ideal) (ix2 r d) = flashAcc x wq wk wv b qi r d 0 := pay3_apply r d

/-! ## One visit of a key block, on the three stored arrays and on the result -/

section Visit

variable (x : X) (wq wk wv : W) (b qi kv : Fin 4) (x0 x1 x2 : Vec Ideal S1x512x1024 .bf16)

/-- The stored running maximum after a visit. -/
theorem visit_m (h9 : ∀ (r : Fin 512) (e : Fin 1024), x0 (ix3 0 r e) = proj x wq b (qRow qi r) e)
    (h11 : ∀ (c : Fin 512) (e : Fin 1024), x1 (ix3 0 c e) = proj x wk b (kRow kv.val c) e)
    (m : Vec Ideal S512x1 .f32) (r : Fin 512) (hm : m (ix2 r 0) = flashM x wq wk b qi r kv.val) :
    k1_pay6 (k1_pay10 (BitVec.ofNat 32 qi.val) (BitVec.ofNat 32 kv.val) x0 x1 m) (ix2 r 0)
      = flashM x wq wk b qi r (kv.val + 1) := by
  rw [pay6_eq]
  exact step_max x wq wk b qi kv x0 x1 h9 h11 m r hm

/-- The stored running sum after a visit. -/
theorem visit_l (h9 : ∀ (r : Fin 512) (e : Fin 1024), x0 (ix3 0 r e) = proj x wq b (qRow qi r) e)
    (h11 : ∀ (c : Fin 512) (e : Fin 1024), x1 (ix3 0 c e) = proj x wk b (kRow kv.val c) e)
    (m l : Vec Ideal S512x1 .f32) (r : Fin 512) (hm : m (ix2 r 0) = flashM x wq wk b qi r kv.val)
    (hl : l (ix2 r 0) = flashL x wq wk b qi r kv.val) :
    k1_pay4 (k1_pay13 (BitVec.ofNat 32 qi.val) (BitVec.ofNat 32 kv.val) x0 x1 m m l) (ix2 r 0)
      = flashL x wq wk b qi r (kv.val + 1) := by
  rw [pay4_eq]
  exact step_sum x wq wk b qi kv x0 x1 h9 h11 m l r hm hl

/-- The stored running weighted sums after a visit. -/
theorem visit_acc (h9 : ∀ (r : Fin 512) (e : Fin 1024), x0 (ix3 0 r e) = proj x wq b (qRow qi r) e)
    (h11 : ∀ (c : Fin 512) (e : Fin 1024), x1 (ix3 0 c e) = proj x wk b (kRow kv.val c) e)
    (h13 : ∀ (c : Fin 512) (e : Fin 1024), x2 (ix3 0 c e) = proj x wv b (kRow kv.val c) e)
    (m : Vec Ideal S512x1 .f32) (acc : Vec Ideal S512x1024 .f32) (r : Fin 512)
    (hm : m (ix2 r 0) = flashM x wq wk b qi r kv.val)
    (hacc : ∀ d : Fin 1024, acc (ix2 r d) = flashAcc x wq wk wv b qi r d kv.val) (d : Fin 1024) :
    k1_pay5 (k1_pay8 x2) (k1_pay11 (BitVec.ofNat 32 qi.val) (BitVec.ofNat 32 kv.val) x0 x1 m m)
        (k1_pay12 (BitVec.ofNat 32 qi.val) (BitVec.ofNat 32 kv.val) x0 x1 m) acc (ix2 r d)
      = flashAcc x wq wk wv b qi r d (kv.val + 1) :=
  step_acc x wq wk wv b qi kv x0 x1 x2 h9 h11 h13 m acc r hm hacc d

/-- The result stored at the visit of the query block's own key block: the blockwise description's quotient. -/
theorem visit_out (h9 : ∀ (r : Fin 512) (e : Fin 1024), x0 (ix3 0 r e) = proj x wq b (qRow qi r) e)
    (h11 : ∀ (c : Fin 512) (e : Fin 1024), x1 (ix3 0 c e) = proj x wk b (kRow kv.val c) e)
    (h13 : ∀ (c : Fin 512) (e : Fin 1024), x2 (ix3 0 c e) = proj x wv b (kRow kv.val c) e)
    (m l : Vec Ideal S512x1 .f32) (acc : Vec Ideal S512x1024 .f32) (r : Fin 512)
    (hm : m (ix2 r 0) = flashM x wq wk b qi r kv.val) (hl : l (ix2 r 0) = flashL x wq wk b qi r kv.val)
    (hacc : ∀ d : Fin 1024, acc (ix2 r d) = flashAcc x wq wk wv b qi r d kv.val) (hd : kv = qi) (d : Fin 1024) :
    k1_pay7 (k1_pay5 (k1_pay8 x2) (k1_pay11 (BitVec.ofNat 32 qi.val) (BitVec.ofNat 32 kv.val) x0 x1 m m)
        (k1_pay12 (BitVec.ofNat 32 qi.val) (BitVec.ofNat 32 kv.val) x0 x1 m) acc)
        (k1_pay4 (k1_pay13 (BitVec.ofNat 32 qi.val) (BitVec.ofNat 32 kv.val) x0 x1 m m l)) (ix3 0 r d)
      = flashOut x wq wk wv b qi r d := by
  rw [pay7_apply, visit_acc x wq wk wv b qi kv x0 x1 x2 h9 h11 h13 m acc r hm hacc d,
    visit_l x wq wk b qi kv x0 x1 h9 h11 m l r hm hl]
  subst hd
  rfl

end Visit

end Cert.KernelIdeal.PayVal

end
-- ==== Proof.Region1Value.lean ====
/-
  What the attention region leaves in its result array, on the extended reals.

  The region runs over 64 grid points (batch b, query block qi, key block kv), the key block moving fastest.  A point
  on or below the diagonal (kv ≤ qi) visits key block kv: starting from -∞, 0, 0 at kv = 0 and otherwise from what the
  point before left, it updates the running maximum, the running sum and the running weighted sums of the 512 query rows
  of block qi.  If the array the three input windows read holds the projected query, key and value rows, then by
  induction on the point's number row r of the three kept arrays holds, after the point, the state of the blockwise
  description of attention after kv + 1 key blocks.  At the diagonal (kv = qi) the quotient of the weighted sums by
  the sum is stored into the result window's buffer; beyond the diagonal nothing is stored, so the buffer still holds
  that quotient when the window is written back after the last key block.  The written blocks, one per batch and
  query block, cover the result array; hence every entry of the array is the blockwise description's output.
-/
import proofs.«159224_j12807592476992_2_alg».proof.Proof.Region1Pieces
import proofs.«159224_j12807592476992_2_alg».proof.Proof.Region1Body
import proofs.«159224_j12807592476992_2_alg».proof.Proof.Region1Reads
import proofs.«159224_j12807592476992_2_alg».proof.Proof.Region1Visit

set_option maxRecDepth 16384

noncomputable section

namespace Cert.KernelIdeal.AttnValue

open Cert.KernelIdeal Cert.KernelIdeal.Gen Cert.KernelIdeal.Hand Cert.KernelIdeal.PayVal Cert.AttnSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-! ## The state after a visited point, in terms of the arrays the visit starts from -/

/-- The running maximum a visit at point t starts from: -∞ at the first key block, else what the point before left. -/
def prevM (t : Fin cfg1.N) : FVec Ideal S512x1 .f32 := if t.val % 4 = 0 then k1_pay1 (F := Ideal) else (stPrev V c t).m
/-- The running sum a visit at point t starts from. -/
def prevL (t : Fin cfg1.N) : FVec Ideal S512x1 .f32 := if t.val % 4 = 0 then k1_pay2 (F := Ideal) else (stPrev V c t).l
/-- The running weighted sums a visit at point t starts from. -/
def prevAcc (t : Fin cfg1.N) : FVec Ideal S512x1024 .f32 := if t.val % 4 = 0 then k1_pay3 (F := Ideal) else (stPrev V c t).acc

/-- The two block numbers the kernel reads off the grid point are the point's query block and key block. -/
theorem args1 (t : Fin cfg1.N) : BitVec.ofNat 32 (grid1.coords t 1).val = BitVec.ofNat 32 (ptQ t).val
    ∧ BitVec.ofNat 32 (grid1.coords t 2).val = BitVec.ofNat 32 (ptK t).val :=
  ⟨congrArg (BitVec.ofNat 32) (coords1 t).2.1, congrArg (BitVec.ofNat 32) (coords1 t).2.2⟩

/-- The running maximum after a point on or below the diagonal: the visit's, from the arrays the visit starts from. -/
theorem stAt_m (t : Fin cfg1.N) (h1 : t.val % 4 ≤ t.val / 4 % 4) :
    (stAt V c t.val t.isLt).m
      = visitM (BitVec.ofNat 32 (ptQ t).val) (BitVec.ofNat 32 (ptK t).val) (iblk1 V c 0 t) (iblk1 V c 1 t) (prevM V c t) := by
  obtain ⟨ha1, ha2⟩ := args1 t
  rw [stAt_eq V c t]
  unfold stepAt prevM
  by_cases h0 : t.val % 4 = 0
  · rw [dif_pos h0, if_pos h0]
    by_cases h2 : t.val % 4 = t.val / 4 % 4
    · rw [dif_pos h2, stepA_m, ha1, ha2]
    · rw [dif_neg h2, stepB_m, ha1, ha2]
  · rw [dif_neg h0, dif_pos h1, if_neg h0]
    by_cases h2 : t.val % 4 = t.val / 4 % 4
    · rw [dif_pos h2, stepD_m, ha1, ha2]
    · rw [dif_neg h2, stepC_m, ha1, ha2]

/-- The running sum after a point on or below the diagonal. -/
theorem stAt_l (t : Fin cfg1.N) (h1 : t.val % 4 ≤ t.val / 4 % 4) :
    (stAt V c t.val t.isLt).l
      = visitL (BitVec.ofNat 32 (ptQ t).val) (BitVec.ofNat 32 (ptK t).val) (iblk1 V c 0 t) (iblk1 V c 1 t) (prevM V c t)
          (prevL V c t) := by
  obtain ⟨ha1, ha2⟩ := args1 t
  rw [stAt_eq V c t]
  unfold stepAt prevM prevL
  by_cases h0 : t.val % 4 = 0
  · rw [dif_pos h0, if_pos h0, if_pos h0]
    by_cases h2 : t.val % 4 = t.val / 4 % 4
    · rw [dif_pos h2, stepA_l, ha1, ha2]
    · rw [dif_neg h2, stepB_l, ha1, ha2]
  · rw [dif_neg h0, dif_pos h1, if_neg h0, if_neg h0]
    by_cases h2 : t.val % 4 = t.val / 4 % 4
    · rw [dif_pos h2, stepD_l, ha1, ha2]
    · rw [dif_neg h2, stepC_l, ha1, ha2]

/-- The running weighted sums after a point on or below the diagonal. -/
theorem stAt_acc (t : Fin cfg1.N) (h1 : t.val % 4 ≤ t.val / 4 % 4) :
    (stAt V c t.val t.isLt).acc
      = visitAcc (BitVec.ofNat 32 (ptQ t).val) (BitVec.ofNat 32 (ptK t).val) (iblk1 V c 0 t) (iblk1 V c 1 t)
          (iblk1 V c 2 t) (prevM V c t) (prevAcc V c t) := by
  obtain ⟨ha1, ha2⟩ := args1 t
  rw [stAt_eq V c t]
  unfold stepAt prevM prevAcc
  by_cases h0 : t.val % 4 = 0
  · rw [dif_pos h0, if_pos h0, if_pos h0]
    by_cases h2 : t.val % 4 = t.val / 4 % 4
    · rw [dif_pos h2, stepA_acc, ha1, ha2]
    · rw [dif_neg h2, stepB_acc, ha1, ha2]
  · rw [dif_neg h0, dif_pos h1, if_neg h0, if_neg h0]
    by_cases h2 : t.val % 4 = t.val / 4 % 4
    · rw [dif_pos h2, stepD_acc, ha1, ha2]
    · rw [dif_neg h2, stepC_acc, ha1, ha2]

/-- The result window's buffer after a point on the diagonal: the quotient of the visit's weighted sums by its sum. -/
theorem stAt_out (t : Fin cfg1.N) (h2 : t.val % 4 = t.val / 4 % 4) :
    (stAt V c t.val t.isLt).out
      = k1_pay7 (visitAcc (BitVec.ofNat 32 (ptQ t).val) (BitVec.ofNat 32 (ptK t).val) (iblk1 V c 0 t) (iblk1 V c 1 t)
            (iblk1 V c 2 t) (prevM V c t) (prevAcc V c t))
          (visitL (BitVec.ofNat 32 (ptQ t).val) (BitVec.ofNat 32 (ptK t).val) (iblk1 V c 0 t) (iblk1 V c 1 t)
            (prevM V c t) (prevL V c t)) := by
  obtain ⟨ha1, ha2⟩ := args1 t
  rw [stAt_eq V c t]
  unfold stepAt prevM prevL prevAcc
  by_cases h0 : t.val % 4 = 0
  · rw [dif_pos h0, dif_pos h2, if_pos h0, if_pos h0, if_pos h0, stepA_out, ha1, ha2]
  · rw [dif_neg h0, dif_pos (le_of_eq h2), dif_pos h2, if_neg h0, if_neg h0, if_neg h0, stepD_out, ha1, ha2]

/-! ## What the loaded blocks hold -/

section Inv

variable (x : X) (wq wk wv : W)

/-- The query window's block at point t holds the projected query rows of batch b, block qi. -/
theorem h9_of (hQ : ∀ (b : Fin 4) (s : Fin 2048) (e : Fin 1024),
      V c main_v6 (ix3 b s (⟨e.val, by omega⟩ : Fin 3072)) = proj x wq b s e) (t : Fin cfg1.N) :
    ∀ (r : Fin 512) (e : Fin 1024), iblk1 V c 0 t (ix3 0 r e) = proj x wq (ptB t) (qRow (ptQ t) r) e := fun r e => by
  rw [iblk1_0_apply]
  exact hQ (ptB t) (qRow (ptQ t) r) e

/-- On and below the diagonal the key window's block at point t holds the projected key rows of batch b, block kv. -/
theorem h11_of (hK : ∀ (b : Fin 4) (s : Fin 2048) (e : Fin 1024),
      V c main_v6 (ix3 b s (⟨1024 + e.val, by omega⟩ : Fin 3072)) = proj x wk b s e) (t : Fin cfg1.N)
    (h1 : t.val % 4 ≤ t.val / 4 % 4) :
    ∀ (c' : Fin 512) (e : Fin 1024), iblk1 V c 1 t (ix3 0 c' e) = proj x wk (ptB t) (kRow (ptK t).val c') e :=
  fun c' e => by
  rw [iblk1_1_apply]
  have hrow : (⟨min (ptK t).val (ptQ t).val * 512 + c'.val,
      by have := (ptQ t).isLt; have := (ptK t).isLt; omega⟩ : Fin 2048) = kRow (ptK t).val c' :=
    Fin.ext (by show min (t.val % 4) (t.val / 4 % 4) * 512 + c'.val = t.val % 4 % 4 * 512 + c'.val; omega)
  rw [hrow]
  exact hK (ptB t) (kRow (ptK t).val c') e

/-- On and below the diagonal the value window's block at point t holds the projected value rows of batch b, block kv. -/
theorem h13_of (hV : ∀ (b : Fin 4) (s : Fin 2048) (e : Fin 1024),
      V c main_v6 (ix3 b s (⟨2048 + e.val, by omega⟩ : Fin 3072)) = proj x wv b s e) (t : Fin cfg1.N)
    (h1 : t.val % 4 ≤ t.val / 4 % 4) :
    ∀ (c' : Fin 512) (e : Fin 1024), iblk1 V c 2 t (ix3 0 c' e) = proj x wv (ptB t) (kRow (ptK t).val c') e :=
  fun c' e => by
  rw [iblk1_2_apply]
  have hrow : (⟨min (ptK t).val (ptQ t).val * 512 + c'.val,
      by have := (ptQ t).isLt; have := (ptK t).isLt; omega⟩ : Fin 2048) = kRow (ptK t).val c' :=
    Fin.ext (by show min (t.val % 4) (t.val / 4 % 4) * 512 + c'.val = t.val % 4 % 4 * 512 + c'.val; omega)
  rw [hrow]
  exact hV (ptB t) (kRow (ptK t).val c') e

/-! ## The invariant: after a visited point the kept arrays hold the blockwise description's state -/

/-- The point before a point that is not the first of its group of four has the same batch and query block and the
    previous key block. -/
theorem pred1_pt (t : Fin cfg1.N) (h0 : t.val % 4 ≠ 0) :
    ptB (pred1 t) = ptB t ∧ ptQ (pred1 t) = ptQ t ∧ (pred1 t).val % 4 + 1 = t.val % 4 := by
  have hp : (pred1 t).val = t.val - 1 := rfl
  refine ⟨Fin.ext ?_, Fin.ext ?_, ?_⟩
  · show (pred1 t).val / 16 = t.val / 16
    rw [hp]; omega
  · show (pred1 t).val / 4 % 4 = t.val / 4 % 4
    rw [hp]; omega
  · rw [hp]; omega

/-- Row r of the arrays a visit at point t starts from holds the state after kv blocks, if row r of the arrays the point
    before left holds the state after its own visit. -/
theorem prev_of (t : Fin cfg1.N) (r : Fin 512)
    (hp : t.val % 4 ≠ 0 →
      (stAt V c (pred1 t).val (pred1 t).isLt).m (ix2 r 0)
          = flashM x wq wk (ptB (pred1 t)) (ptQ (pred1 t)) r ((pred1 t).val % 4 + 1)
      ∧ (stAt V c (pred1 t).val (pred1 t).isLt).l (ix2 r 0)
          = flashL x wq wk (ptB (pred1 t)) (ptQ (pred1 t)) r ((pred1 t).val % 4 + 1)
      ∧ ∀ d : Fin 1024, (stAt V c (pred1 t).val (pred1 t).isLt).acc (ix2 r d)
          = flashAcc x wq wk wv (ptB (pred1 t)) (ptQ (pred1 t)) r d ((pred1 t).val % 4 + 1)) :
    prevM V c t (ix2 r 0) = flashM x wq wk (ptB t) (ptQ t) r (ptK t).val
      ∧ prevL V c t (ix2 r 0) = flashL x wq wk (ptB t) (ptQ t) r (ptK t).val
      ∧ ∀ d : Fin 1024, prevAcc V c t (ix2 r d) = flashAcc x wq wk wv (ptB t) (ptQ t) r d (ptK t).val := by
  unfold prevM prevL prevAcc
  have hk : (ptK t).val = t.val % 4 := rfl
  by_cases h0 : t.val % 4 = 0
  · rw [if_pos h0, if_pos h0, if_pos h0, hk, h0]
    exact ⟨init_m x wq wk _ _ r, init_l x wq wk _ _ r, fun d => init_acc x wq wk wv _ _ r d⟩
  · have ht0 : t.val ≠ 0 := fun h => h0 (by rw [h])
    obtain ⟨hB, hQ', hkv⟩ := pred1_pt t h0
    obtain ⟨hm, hl, ha⟩ := hp h0
    rw [hB, hQ', hkv] at hm hl ha
    rw [if_neg h0, if_neg h0, if_neg h0, stPrev_pos V c t ht0, hk]
    exact ⟨hm, hl, ha⟩

/-- THE INVARIANT.  After a point on or below the diagonal, row r of the kept arrays holds the running maximum, the
    running sum and the running weighted sums of the blockwise description after kv + 1 blocks. -/
theorem inv_mla (hQ : ∀ (b : Fin 4) (s : Fin 2048) (e : Fin 1024),
      V c main_v6 (ix3 b s (⟨e.val, by omega⟩ : Fin 3072)) = proj x wq b s e)
    (hK : ∀ (b : Fin 4) (s : Fin 2048) (e : Fin 1024),
      V c main_v6 (ix3 b s (⟨1024 + e.val, by omega⟩ : Fin 3072)) = proj x wk b s e)
    (hV : ∀ (b : Fin 4) (s : Fin 2048) (e : Fin 1024),
      V c main_v6 (ix3 b s (⟨2048 + e.val, by omega⟩ : Fin 3072)) = proj x wv b s e) :
    ∀ (n : ℕ) (t : Fin cfg1.N), t.val = n → t.val % 4 ≤ t.val / 4 % 4 → ∀ r : Fin 512,
      (stAt V c t.val t.isLt).m (ix2 r 0) = flashM x wq wk (ptB t) (ptQ t) r (t.val % 4 + 1)
      ∧ (stAt V c t.val t.isLt).l (ix2 r 0) = flashL x wq wk (ptB t) (ptQ t) r (t.val % 4 + 1)
      ∧ ∀ d : Fin 1024, (stAt V c t.val t.isLt).acc (ix2 r d)
          = flashAcc x wq wk wv (ptB t) (ptQ t) r d (t.val % 4 + 1) := by
  intro n
  induction n using Nat.strong_induction_on with
  | _ n ih =>
    intro t htn h1 r
    subst htn
    have hp : (pred1 t).val = t.val - 1 := rfl
    obtain ⟨hm, hl, ha⟩ := prev_of V c x wq wk wv t r fun h0 =>
      ih (pred1 t).val (by rw [hp]; omega) (pred1 t) rfl (by rw [hp]; omega) r
    have h9 := h9_of V c x wq hQ t
    have h11 := h11_of V c x wk hK t h1
    have h13 := h13_of V c x wv hV t h1
    refine ⟨?_, ?_, fun d => ?_⟩
    · rw [stAt_m V c t h1]
      unfold visitM
      exact visit_m x wq wk (ptB t) (ptQ t) (ptK t) _ _ h9 h11 _ r hm
    · rw [stAt_l V c t h1]
      unfold visitL
      exact visit_l x wq wk (ptB t) (ptQ t) (ptK t) _ _ h9 h11 _ _ r hm hl
    · rw [stAt_acc V c t h1]
      unfold visitAcc
      exact visit_acc x wq wk wv (ptB t) (ptQ t) (ptK t) _ _ _ h9 h11 h13 _ _ r hm ha d

/-- Row r of the arrays a visit on or below the diagonal starts from holds the state after kv blocks. -/
theorem prev_inv (hQ : ∀ (b : Fin 4) (s : Fin 2048) (e : Fin 1024),
      V c main_v6 (ix3 b s (⟨e.val, by omega⟩ : Fin 3072)) = proj x wq b s e)
    (hK : ∀ (b : Fin 4) (s : Fin 2048) (e : Fin 1024),
      V c main_v6 (ix3 b s (⟨1024 + e.val, by omega⟩ : Fin 3072)) = proj x wk b s e)
    (hV : ∀ (b : Fin 4) (s : Fin 2048) (e : Fin 1024),
      V c main_v6 (ix3 b s (⟨2048 + e.val, by omega⟩ : Fin 3072)) = proj x wv b s e)
    (t : Fin cfg1.N) (h1 : t.val % 4 ≤ t.val / 4 % 4) (r : Fin 512) :
    prevM V c t (ix2 r 0) = flashM x wq wk (ptB t) (ptQ t) r (ptK t).val
      ∧ prevL V c t (ix2 r 0) = flashL x wq wk (ptB t) (ptQ t) r (ptK t).val
      ∧ ∀ d : Fin 1024, prevAcc V c t (ix2 r d) = flashAcc x wq wk wv (ptB t) (ptQ t) r d (ptK t).val :=
  prev_of V c x wq wk wv t r fun h0 => by
    have hp : (pred1 t).val = t.val - 1 := rfl
    exact inv_mla V c x wq wk wv hQ hK hV (pred1 t).val (pred1 t) rfl (by rw [hp]; omega) r

/-- THE RESULT BLOCK.  After a point on or beyond the diagonal, entry (0, r, d) of the result window's buffer is the
    blockwise description's output for batch b, query row 512 qi + r, column d: stored at the diagonal, kept after. -/
theorem inv_out (hQ : ∀ (b : Fin 4) (s : Fin 2048) (e : Fin 1024),
      V c main_v6 (ix3 b s (⟨e.val, by omega⟩ : Fin 3072)) = proj x wq b s e)
    (hK : ∀ (b : Fin 4) (s : Fin 2048) (e : Fin 1024),
      V c main_v6 (ix3 b s (⟨1024 + e.val, by omega⟩ : Fin 3072)) = proj x wk b s e)
    (hV : ∀ (b : Fin 4) (s : Fin 2048) (e : Fin 1024),
      V c main_v6 (ix3 b s (⟨2048 + e.val, by omega⟩ : Fin 3072)) = proj x wv b s e) :
    ∀ (n : ℕ) (t : Fin cfg1.N), t.val = n → t.val / 4 % 4 ≤ t.val % 4 → ∀ (r : Fin 512) (d : Fin 1024),
      (stAt V c t.val t.isLt).out (ix3 0 r d) = flashOut x wq wk wv (ptB t) (ptQ t) r d := by
  intro n
  induction n using Nat.strong_induction_on with
  | _ n ih =>
    intro t htn hge r d
    subst htn
    have hp : (pred1 t).val = t.val - 1 := rfl
    by_cases h2 : t.val % 4 = t.val / 4 % 4
    · have h1 : t.val % 4 ≤ t.val / 4 % 4 := le_of_eq h2
      obtain ⟨hm, hl, ha⟩ := prev_inv V c x wq wk wv hQ hK hV t h1 r
      rw [stAt_out V c t h2]
      unfold visitAcc visitL
      exact visit_out x wq wk wv (ptB t) (ptQ t) (ptK t) _ _ _ (h9_of V c x wq hQ t) (h11_of V c x wk hK t h1)
        (h13_of V c x wv hV t h1) _ _ _ r hm hl ha (Fin.ext h2) d
    · have h1 : ¬ t.val % 4 ≤ t.val / 4 % 4 := by omega
      have h0 : t.val % 4 ≠ 0 := by omega
      have ht0 : t.val ≠ 0 := fun h => h0 (by rw [h])
      obtain ⟨hB, hQ', -⟩ := pred1_pt t h0
      have h := ih (pred1 t).val (by rw [hp]; omega) (pred1 t) rfl (by rw [hp]; omega) r d
      rw [hB, hQ'] at h
      rw [stAt_E V c t h1, stPrev_pos V c t ht0]
      exact h

end Inv

/-! ## From the blocks to the array -/

section Final

variable (x : X) (wq wk wv : W)

/-- The blockwise description's output depends on the numbers of its four indices only. -/
theorem flashOut_congr {b b' qi qi' : Fin 4} {r r' : Fin 512} {d d' : Fin 1024} (hb : b.val = b'.val)
    (hq : qi.val = qi'.val) (hr : r.val = r'.val) (hd : d.val = d'.val) :
    flashOut x wq wk wv b qi r d = flashOut x wq wk wv b' qi' r' d' := by
  obtain rfl := Fin.ext hb
  obtain rfl := Fin.ext hq
  obtain rfl := Fin.ext hr
  obtain rfl := Fin.ext hd
  rfl

/-- The result array as one function of its index: entry (b, q, d) is the blockwise description's output for batch b,
    row q mod 512 of query block q / 512, column d. -/
def outG : S4x2048x1024.Idx → EReal := fun i =>
  flashOut x wq wk wv ⟨(i 0).val, (i 0).isLt⟩
    ⟨(i 1).val / 512, by have h : (i 1).val < 2048 := (i 1).isLt; omega⟩
    ⟨(i 1).val % 512, Nat.mod_lt _ (by norm_num)⟩ ⟨(i 2).val, (i 2).isLt⟩

/-- At row 512 qi + r this function is the output for row r of query block qi. -/
theorem outG_apply (b qi : Fin 4) (r : Fin 512) (d : Fin 1024) :
    outG x wq wk wv (ix3 b (⟨qi.val * 512 + r.val, by omega⟩ : Fin 2048) d) = flashOut x wq wk wv b qi r d := by
  have hr := r.isLt
  refine flashOut_congr x wq wk wv rfl ?_ ?_ rfl
  · show (qi.val * 512 + r.val) / 512 = qi.val
    omega
  · show (qi.val * 512 + r.val) % 512 = r.val
    omega

/-- What a point that writes the result window back leaves in it is its block of that function. -/
theorem flushed1_3 (hQ : ∀ (b : Fin 4) (s : Fin 2048) (e : Fin 1024),
      V c main_v6 (ix3 b s (⟨e.val, by omega⟩ : Fin 3072)) = proj x wq b s e)
    (hK : ∀ (b : Fin 4) (s : Fin 2048) (e : Fin 1024),
      V c main_v6 (ix3 b s (⟨1024 + e.val, by omega⟩ : Fin 3072)) = proj x wk b s e)
    (hV : ∀ (b : Fin 4) (s : Fin 2048) (e : Fin 1024),
      V c main_v6 (ix3 b s (⟨2048 + e.val, by omega⟩ : Fin 3072)) = proj x wv b s e)
    (t : Fin cfg1.N) (hf : (cfg1.win 3).flush t = true) :
    (dat1 (F := Ideal) V c).flushed 3 t = ((cfg1.win 3).blk t).view.read (Elt Ideal) (outG x wq wk wv) := by
  have h3 : t.val % 4 = 3 := (flush1_3 t).mp hf
  show (cfg1.win 3).cut (grid1.coords t) ((dat1 V c).after 3 t) = _
  rw [after1_3]
  funext j
  obtain ⟨u, r, d, rfl⟩ : ∃ (u : Fin 1) (r : Fin 512) (d : Fin 1024), j = ix3 u r d := ⟨j 0, j 1, j 2, eq_ix3 j⟩
  have hu : u = 0 := Subsingleton.elim _ _
  subst hu
  show (stAt V c t.val t.isLt).out (ix3 0 r d) = outG x wq wk wv (((cfg1.win 3).blk t).view.emb (ix3 0 r d))
  rw [emb1_3, inv_out V c x wq wk wv hQ hK hV t.val t rfl (by omega) r d]
  exact (outG_apply x wq wk wv (ptB t) (ptQ t) r d).symm

/-- Every entry of the result array is in the block of a point that writes the window back: the last point of the
    entry's batch and query block. -/
theorem cover1_3 (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hN : cfg1.N = 64 := N_1
  obtain ⟨t, htv⟩ : ∃ t : Fin cfg1.N, t.val = (i 0).val * 16 + (i 1).val / 512 * 4 + 3 :=
    ⟨⟨(i 0).val * 16 + (i 1).val / 512 * 4 + 3, by rw [hN]; omega⟩, rfl⟩
  refine ⟨t, (flush1_3 t).mpr (by rw [htv]; omega), ?_⟩
  rw [mem_blk1_3]
  obtain ⟨-, -, -, -, -, -, -, -, -, e0, e1, e2⟩ := idx1 t
  intro a
  match a with
  | ⟨0, _⟩ =>
    show win1_3.index t (0 : Fin 3) * 1 ≤ (i 0).val ∧ (i 0).val < win1_3.index t (0 : Fin 3) * 1 + 1
    rw [e0, htv]; omega
  | ⟨1, _⟩ =>
    show win1_3.index t (1 : Fin 3) * 512 ≤ (i 1).val ∧ (i 1).val < win1_3.index t (1 : Fin 3) * 512 + 512
    rw [e1, htv]; omega
  | ⟨2, _⟩ =>
    show win1_3.index t (2 : Fin 3) * 1024 ≤ (i 2).val ∧ (i 2).val < win1_3.index t (2 : Fin 3) * 1024 + 1024
    rw [e2]; omega

/-- THE RESULT ARRAY after the region: the blockwise description's output at every index. -/
theorem final1_3 (hQ : ∀ (b : Fin 4) (s : Fin 2048) (e : Fin 1024),
      V c main_v6 (ix3 b s (⟨e.val, by omega⟩ : Fin 3072)) = proj x wq b s e)
    (hK : ∀ (b : Fin 4) (s : Fin 2048) (e : Fin 1024),
      V c main_v6 (ix3 b s (⟨1024 + e.val, by omega⟩ : Fin 3072)) = proj x wk b s e)
    (hV : ∀ (b : Fin 4) (s : Fin 2048) (e : Fin 1024),
      V c main_v6 (ix3 b s (⟨2048 + e.val, by omega⟩ : Fin 3072)) = proj x wv b s e) :
    (dat1 (F := Ideal) V c).arrAt 3 cfg1.N = outG x wq wk wv :=
  (dat1 (F := Ideal) V c).arrAt_eq_of_cover 3 (outG x wq wk wv)
    (fun t hf => flushed1_3 V c x wq wk wv hQ hK hV t hf) (cover1_3)

/-- The result array at batch b, row r of query block qi, column d. -/
theorem arrAt1_3_apply (hQ : ∀ (b : Fin 4) (s : Fin 2048) (e : Fin 1024),
      (V c main_v6 : S4x2048x3072.Idx → EReal) (ix3 b s (⟨e.val, by omega⟩ : Fin 3072)) = proj x wq b s e)
    (hK : ∀ (b : Fin 4) (s : Fin 2048) (e : Fin 1024),
      (V c main_v6 : S4x2048x3072.Idx → EReal) (ix3 b s (⟨1024 + e.val, by omega⟩ : Fin 3072)) = proj x wk b s e)
    (hV : ∀ (b : Fin 4) (s : Fin 2048) (e : Fin 1024),
      (V c main_v6 : S4x2048x3072.Idx → EReal) (ix3 b s (⟨2048 + e.val, by omega⟩ : Fin 3072)) = proj x wv b s e)
    (b qi : Fin 4) (r : Fin 512) (d : Fin 1024) :
    ((dat1 (F := Ideal) V c).arrAt 3 cfg1.N : S4x2048x1024.Idx → EReal)
        (ix3 b (⟨qi.val * 512 + r.val, by omega⟩ : Fin 2048) d)
      = flashOut x wq wk wv b qi r d :=
  (congrFun (final1_3 V c x wq wk wv hQ hK hV) _).trans (outG_apply x wq wk wv b qi r d)

end Final

end Cert.KernelIdeal.AttnValue

end
-- ==== Proof.Algebraic.lean ====
/-
  The idealized kernel's run ends with its result buffer at the attention output of its arguments: the array the second
  region leaves is, block by block, the blockwise description's quotient (what the running maximum, sum and weighted sum
  hold after the diagonal block), the blockwise and the direct description agree on real inputs, and the precondition
  makes every input entry real.  With the reference's run ending at the same function of equal arguments, the two
  programs' results are equal.
-/
import proofs.«159224_j12807592476992_2_alg».proof.Defs
import proofs.«159224_j12807592476992_2_alg».proof.Proof.AlgRef
import proofs.«159224_j12807592476992_2_alg».proof.Proof.Frames
import proofs.«159224_j12807592476992_2_alg».proof.Proof.HostValues
import proofs.«159224_j12807592476992_2_alg».proof.Proof.FlashEq
import proofs.«159224_j12807592476992_2_alg».proof.Proof.PreReal
import proofs.«159224_j12807592476992_2_alg».proof.Proof.Gen.ReferenceIdeal.Run
import proofs.«159224_j12807592476992_2_alg».proof.Proof.Region1Value

noncomputable section

namespace Cert.Proof.Alg

open Idealize.ShloMosaic Idealize.ShloMosaic.TcCoe Idealize.SL.Sem Idealize.ShloMosaic.ValueIdx Cert.AttnSpec
open Cert.KernelIdeal Cert.KernelIdeal.Hand

/-- What the attention region leaves in the result array, read at an index, is the attention output of the arguments:
    query row q lies in query block q / 512 at row q mod 512. -/
theorem kernel_value_apply [Cert.KernelIdeal.Facts] [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) (b : Fin 4) (q : Fin 2048) (d : Fin 1024) :
    ((dat1 (F := Ideal) (V3 m ρ) c).arrAt 3 cfg1.N : S4x2048x1024.Idx → EReal) (ix3 b q d)
      = softmaxOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b q d := by
  obtain ⟨hx, hwq, hwk, hwv⟩ := Cert.PreReal.args_real _ _ _ _ (hpre c)
  have hqlt : q.val / 512 < 4 := by have := q.isLt; omega
  have hrlt : q.val % 512 < 512 := Nat.mod_lt _ (by decide)
  have e1 := Cert.KernelIdeal.AttnValue.arrAt1_3_apply (V3 (F := Ideal) m ρ) c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (fun b s e => (qkv_eq m ρ c b s e).1) (fun b s e => (qkv_eq m ρ c b s e).2.1)
    (fun b s e => (qkv_eq m ρ c b s e).2.2) b ⟨q.val / 512, hqlt⟩ ⟨q.val % 512, hrlt⟩ d
  obtain ⟨G, hG⟩ : ∃ G : S4x2048x1024.Idx → EReal, G = ((dat1 (F := Ideal) (V3 m ρ) c).arrAt 3 cfg1.N : S4x2048x1024.Idx → EReal) := ⟨_, rfl⟩
  rw [← hG] at e1 ⊢
  have hq : (⟨(⟨q.val / 512, hqlt⟩ : Fin 4).val * 512 + (⟨q.val % 512, hrlt⟩ : Fin 512).val, by show q.val / 512 * 512 + q.val % 512 < 2048; omega⟩ : Fin 2048) = q :=
    Fin.ext (by show q.val / 512 * 512 + q.val % 512 = q.val; omega)
  have hrow : qRow ⟨q.val / 512, hqlt⟩ ⟨q.val % 512, hrlt⟩ = q :=
    Fin.ext (by show q.val / 512 * 512 + q.val % 512 = q.val; omega)
  calc G (ix3 b q d) = G (ix3 b _ d) := congrArg (fun z => G (ix3 b z d)) hq.symm
    _ = _ := e1
    _ = _ := flashOut_eq_softmaxOut _ _ _ _ hx hwq hwk hwv b ⟨q.val / 512, hqlt⟩ ⟨q.val % 512, hrlt⟩ d
    _ = _ := congrArg (fun z => softmaxOut _ _ _ _ b z d) hrow

theorem kernel_value [Cert.KernelIdeal.Facts] [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    ((dat1 (F := Ideal) (V3 m ρ) c).arrAt 3 cfg1.N : S4x2048x1024.Idx → EReal)
      = attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨b, q, d, rfl⟩ : ∃ (b : Fin 4) (q : Fin 2048) (d : Fin 1024), i = ix3 b q d := ⟨i 0, i 1, i 2, eq_ix3 i⟩
  exact kernel_value_apply m ρ hpre c b q d

theorem algebraic [Cert.KernelIdeal.Facts] [Cert.ReferenceIdeal.Facts] [Cert.Pre_finite_inputs.Facts]  :
    Cert.algebraic_KernelIdeal_ReferenceIdeal := by
  intro m ρ m' ρ' hpre hagree
  refine ⟨fun c => attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun r h c => ⟨?_,
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩)
      (Cert.KernelIdeal.Hand.run (fun V c => body_obligation1 V c) m ρ)
    exact ((h c _ (mem_uc main_v7 (by decide))).trans (W4_main_v7 m ρ c)).trans (kernel_value m ρ hpre c)
  · refine (θ_run (Cert.ReferenceIdeal.defs (F := Ideal)) _ _).mono (fun r h c => ⟨(h c).1.trans ?_, (h c).2⟩)
      (Cert.ReferenceIdeal.Value.run (F := Ideal) m' ρ')
    rw [ref_value, (hagree c).1, (hagree c).2.1, (hagree c).2.2.1, (hagree c).2.2.2]

end Cert.Proof.Alg

end
-- ==== Proof.lean ====
/-
  Causal self-attention with three projections, as a Pallas kernel pair against its plain reference.

  The kernel program projects the 8192 input rows by the stacked weight matrices in one region (blocks of 256 rows), and
  in a second region visits, for each query block of 512 rows, the key blocks up to the diagonal, keeping a running row
  maximum, a running sum of exponentials and a running weighted sum of value rows, rescaling the sums whenever the maximum
  grows, and storing their quotient after the diagonal block.  The reference forms all scores, puts -∞ above the diagonal,
  divides by 32, applies the softmax along key rows and averages the value rows.

  At the ideal instance both compute, at entry (b, q, d), the sum over key rows k ≤ q of
      exp (s(q,k) - max_k' s(q,k')) / (sum_k' exp (s(q,k') - max_k' s(q,k'))) · v(k,d),
  s the scaled inner products of projected rows: the rescaling identity exp (a - b) · exp (z - a) = exp (z - b) turns the
  running sums into sums relative to the final maximum, the masked entries contribute exp (-∞) = 0 on both sides, the
  diagonal guarantees a real maximum and a positive sum, and a quotient of finite real sums is the sum of the quotients.
  Distributivity needs every entry real, which is what the precondition (every input finite) provides.

  The frames: each kernel program runs as four segments — host layout operations, the projection region, a reshape, the
  attention region — and ends with every argument's buffer as launched; the reference's frame is its generated run.
  The idealization rewrote one constant: the finite mask fill is named -∞.
-/
import proofs.«159224_j12807592476992_2_alg».proof.Defs
import proofs.«159224_j12807592476992_2_alg».proof.Proof.Gen.Kernel
import proofs.«159224_j12807592476992_2_alg».proof.Proof.Gen.KernelIdeal
import proofs.«159224_j12807592476992_2_alg».proof.Proof.Gen.ReferenceIdeal
import proofs.«159224_j12807592476992_2_alg».proof.Proof.Gen.Pre_finite_inputs
import proofs.«159224_j12807592476992_2_alg».proof.Proof.Frames
import proofs.«159224_j12807592476992_2_alg».proof.Proof.RefFrame
import proofs.«159224_j12807592476992_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    @Cert.Proof.Frames.frame_k Cert.Kernel.Gen.facts Cert.Pre_finite_inputs.Gen.facts,
    @Cert.Proof.Frames.frame_ki Cert.KernelIdeal.Gen.facts Cert.Pre_finite_inputs.Gen.facts,
    @Cert.ReferenceIdeal.RefValue.frame_ri Cert.ReferenceIdeal.Gen.facts Cert.Pre_finite_inputs.Gen.facts,
    Cert.Proof.Frames.preserves,
    @Cert.Proof.Alg.algebraic Cert.KernelIdeal.Gen.facts Cert.ReferenceIdeal.Gen.facts Cert.Pre_finite_inputs.Gen.facts⟩

end Cert.Proof

end
